-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v233)) (v1 : (c : Dev Cert.KernelIdeal.nD) → Buf (Elt Ideal) ((c.tc : Thread Cert.KernelIdeal.nD Cert.KernelIdeal.τ).loc Cert.KernelIdeal.main_v235)) (v2 : (c : Dev Cert.KernelIdeal.nD) → Buf (Elt Ideal) ((c.tc : Thread Cert.KernelIdeal.nD Cert.KernelIdeal.τ).loc Cert.KernelIdeal.main_v243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_v235) = v1 c
          ∧ r.2.mem ((c.tc : Thread Cert.KernelIdeal.nD Cert.KernelIdeal.τ).loc Cert.KernelIdeal.main_v243) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v251) = v1 c
          ∧ r.2.mem ((c.tc : Thread Cert.ReferenceIdeal.nD Cert.ReferenceIdeal.τ).loc Cert.ReferenceIdeal.main_v261) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S2x1000000 : Shape := ⟨2, ![2, 1000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1000000 : S_.BroadcastsInDim S1000000 (![] : Fin 0 → Fin S1000000.rank)
  reducesTo_S1000000_S_d0 : S1000000.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg6 : FVec F S1000000 .f32) (main_arg7 : FVec F S2x1000000 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S1000000 .f32 := Host.absf main_arg6
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S2x1000000 .f32 := Host.absf main_arg7
  let main_cst_8 : FVec F S_ .f32 := constant S_ .f32 0x7F800000#32
  let main_v25 : FVec F S2x1000000 .f32 := broadcastInDim S2x1000000 ![] bcast_S_S2x1000000 main_cst_8
  let main_v26 : IVec S2x1000000 1 := cmpf .olt main_v24 main_v25
  let main_c_9 : IVec S_ 1 := constantI S_ 1 1#1
  let main_v27 : IVec S_ 1 := (fun x v => Host.reduce IntOp.andi x v reducesTo_S2x1000000_S_d0_1 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S100000x64 .f32) (main_arg3 : FVec F S50000x64 .f32) (main_arg4 : IVec S1000000 32) (main_arg5 : IVec S1000000 32) (main_arg6 : FVec F S1000000 .f32) (main_arg7 : FVec F S2x1000000 .f32) (main_arg8 : IVec S4096 32) (main_arg9 : IVec S4096 32) (main_arg10 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg7 main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S2x1000000 : Shape := ⟨2, ![2, 1000000]⟩
abbrev S4096 : Shape := ⟨1, ![4096]⟩
abbrev S_ : Shape := ⟨0, ![]⟩
abbrev S1007616 : Shape := ⟨1, ![1007616]⟩
abbrev S1x1007616 : Shape := ⟨2, ![1, 1007616]⟩
abbrev S2x1007616 : Shape := ⟨2, ![2, 1007616]⟩
abbrev S2x8192 : Shape := ⟨2, ![2, 8192]⟩
abbrev S1x8192 : Shape := ⟨2, ![1, 8192]⟩
abbrev S150000x64 : Shape := ⟨2, ![150000, 64]⟩
abbrev S1007616x1 : Shape := ⟨2, ![1007616, 1]⟩
abbrev S1007616x64 : Shape := ⟨2, ![1007616, 64]⟩
abbrev S8192x1 : Shape := ⟨2, ![8192, 1]⟩
abbrev S8192x64 : Shape := ⟨2, ![8192, 64]⟩
abbrev S4096x1 : Shape := ⟨2, ![4096, 1]⟩
abbrev S4096x64 : Shape := ⟨2, ![4096, 64]⟩
abbrev S1x1 : Shape := ⟨2, ![1, 1]⟩
abbrev S5000x64 : Shape := ⟨2, ![5000, 64]⟩
abbrev S5000 : Shape := ⟨1, ![5000]⟩
abbrev S5000x1 : Shape := ⟨2, ![5000, 1]⟩
abbrev S1 : Shape := ⟨1, ![1]⟩

abbrev nBuf : Space → Nat
  | .hbm => 338
  | .vmem => 52
  | .smem => 0
  | _ => 0

abbrev hbmTy0_0 (i : Nat) : BufTy := match i % 128 with
  | 0 => ⟨S100000x64, .f32⟩
  | 1 => ⟨S50000x64, .f32⟩
  | 2 => ⟨S100000x64, .f32⟩
  | 3 => ⟨S50000x64, .f32⟩
  | 4 => ⟨S1000000, .i32⟩
  | 5 => ⟨S1000000, .i32⟩
  | 6 => ⟨S1000000, .f32⟩
  | 7 => ⟨S2x1000000, .f32⟩
  | 8 => ⟨S4096, .i32⟩
  | 9 => ⟨S4096, .i32⟩
  | 10 => ⟨S4096, .i32⟩
  | 11 => ⟨S_, .i32⟩
  | 12 => ⟨S_, .i32⟩
  | 13 => ⟨S1007616, .i32⟩
  | 14 => ⟨S_, .i32⟩
  | 15 => ⟨S_, .i32⟩
  | 16 => ⟨S1007616, .i32⟩
  | 17 => ⟨S_, .i32⟩
  | 18 => ⟨S_, .f32⟩
  | 19 => ⟨S1007616, .f32⟩
  | 20 => ⟨S1x1007616, .f32⟩
  | 21 => ⟨S_, .i32⟩
  | 22 => ⟨S_, .f32⟩
  | 23 => ⟨S2x1007616, .f32⟩
  | 24 => ⟨S2x1007616, .f32⟩
  | 25 => ⟨S1x1007616, .f32⟩
  | 26 => ⟨S1007616, .f32⟩
  | 27 => ⟨S150000x64, .f32⟩
  | 28 => ⟨S1007616x1, .f32⟩
  | 29 => ⟨S_, .i32⟩
  | 30 => ⟨S1007616, .i32⟩
  | 31 => ⟨S1007616, .i1⟩
  | 32 => ⟨S_, .i32⟩
  | 33 => ⟨S1007616, .i32⟩
  | 34 => ⟨S1007616, .i32⟩
  | 35 => ⟨S1007616, .i32⟩
  | 36 => ⟨S1007616x1, .i32⟩
  | 37 => ⟨S1007616x64, .f32⟩
  | 38 => ⟨S1007616x64, .f32⟩
  | 39 => ⟨S_, .f32⟩
  | 40 => ⟨S150000x64, .f32⟩
  | 41 => ⟨S1007616x1, .i32⟩
  | 42 => ⟨S150000x64, .f32⟩
  | 43 => ⟨S150000x64, .f32⟩
  | 44 => ⟨S_, .i32⟩
  | 45 => ⟨S1007616, .i32⟩
  | 46 => ⟨S1007616, .i1⟩
  | 47 => ⟨S_, .i32⟩
  | 48 => ⟨S1007616, .i32⟩
  | 49 => ⟨S1007616, .i32⟩
  | 50 => ⟨S1007616, .i32⟩
  | 51 => ⟨S1007616x1, .i32⟩
  | 52 => ⟨S1007616x64, .f32⟩
  | 53 => ⟨S1007616x64, .f32⟩
  | 54 => ⟨S_, .f32⟩
  | 55 => ⟨S150000x64, .f32⟩
  | 56 => ⟨S1007616x1, .i32⟩
  | 57 => ⟨S150000x64, .f32⟩
  | 58 => ⟨S150000x64, .f32⟩
  | 59 => ⟨S_, .i32⟩
  | 60 => ⟨S1007616, .i32⟩
  | 61 => ⟨S1007616, .i1⟩
  | 62 => ⟨S_, .i32⟩
  | 63 => ⟨S1007616, .i32⟩
  | 64 => ⟨S1007616, .i32⟩
  | 65 => ⟨S1007616, .i32⟩
  | 66 => ⟨S1007616x1, .i32⟩
  | 67 => ⟨S1007616x64, .f32⟩
  | 68 => ⟨S1007616x64, .f32⟩
  | 69 => ⟨S_, .f32⟩
  | 70 => ⟨S150000x64, .f32⟩
  | 71 => ⟨S1007616x1, .i32⟩
  | 72 => ⟨S150000x64, .f32⟩
  | 73 => ⟨S150000x64, .f32⟩
  | 74 => ⟨S_, .f32⟩
  | 75 => ⟨S150000x64, .f32⟩
  | 76 => ⟨S150000x64, .f32⟩
  | 77 => ⟨S100000x64, .f32⟩
  | 78 => ⟨S50000x64, .f32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S4096x64, .f32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096x64, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S4096x64, .f32⟩
  | 106 => ⟨S4096x64, .f32⟩
  | 107 => ⟨S_, .f32⟩
  | 108 => ⟨S4096, .f32⟩
  | 109 => ⟨S4096x64, .f32⟩
  | 110 => ⟨S_, .f32⟩
  | 111 => ⟨S4096, .f32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S4096x64, .f32⟩
  | 121 => ⟨S4096x64, .f32⟩
  | 122 => ⟨S_, .f32⟩
  | 123 => ⟨S_, .f32⟩
  | 124 => ⟨S_, .i32⟩
  | 125 => ⟨S4096, .i32⟩
  | 126 => ⟨S4096, .i1⟩
  | 127 => ⟨S_, .i32⟩
  | _ => ⟨S100000x64, .f32⟩

abbrev hbmTy0_1 (i : Nat) : BufTy := match i % 128 with
  | 0 => ⟨S4096, .i32⟩
  | 1 => ⟨S4096, .i32⟩
  | 2 => ⟨S4096, .i32⟩
  | 3 => ⟨S4096x1, .i32⟩
  | 4 => ⟨S4096x64, .f32⟩
  | 5 => ⟨S4096x64, .f32⟩
  | 6 => ⟨S_, .f32⟩
  | 7 => ⟨S_, .f32⟩
  | 8 => ⟨S_, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x64, .f32⟩
  | 18 => ⟨S4096x64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .f32⟩
  | 32 => ⟨S_, .f32⟩
  | 33 => ⟨S4096, .f32⟩
  | 34 => ⟨S4096, .f32⟩
  | 35 => ⟨S_, .f32⟩
  | 36 => ⟨S4096, .f32⟩
  | 37 => ⟨S4096, .f32⟩
  | 38 => ⟨S4096, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S1x1007616, .f32⟩
  | 50 => ⟨S1007616, .f32⟩
  | 51 => ⟨S150000x64, .f32⟩
  | 52 => ⟨S1007616x1, .f32⟩
  | 53 => ⟨S_, .i32⟩
  | 54 => ⟨S1007616, .i32⟩
  | 55 => ⟨S1007616, .i1⟩
  | 56 => ⟨S_, .i32⟩
  | 57 => ⟨S1007616, .i32⟩
  | 58 => ⟨S1007616, .i32⟩
  | 59 => ⟨S1007616, .i32⟩
  | 60 => ⟨S1007616x1, .i32⟩
  | 61 => ⟨S1007616x64, .f32⟩
  | 62 => ⟨S1007616x64, .f32⟩
  | 63 => ⟨S_, .f32⟩
  | 64 => ⟨S150000x64, .f32⟩
  | 65 => ⟨S1007616x1, .i32⟩
  | 66 => ⟨S150000x64, .f32⟩
  | 67 => ⟨S150000x64, .f32⟩
  | 68 => ⟨S_, .i32⟩
  | 69 => ⟨S1007616, .i32⟩
  | 70 => ⟨S1007616, .i1⟩
  | 71 => ⟨S_, .i32⟩
  | 72 => ⟨S1007616, .i32⟩
  | 73 => ⟨S1007616, .i32⟩
  | 74 => ⟨S1007616, .i32⟩
  | 75 => ⟨S1007616x1, .i32⟩
  | 76 => ⟨S1007616x64, .f32⟩
  | 77 => ⟨S1007616x64, .f32⟩
  | 78 => ⟨S_, .f32⟩
  | 79 => ⟨S150000x64, .f32⟩
  | 80 => ⟨S1007616x1, .i32⟩
  | 81 => ⟨S150000x64, .f32⟩
  | 82 => ⟨S150000x64, .f32⟩
  | 83 => ⟨S_, .i32⟩
  | 84 => ⟨S1007616, .i32⟩
  | 85 => ⟨S1007616, .i1⟩
  | 86 => ⟨S_, .i32⟩
  | 87 => ⟨S1007616, .i32⟩
  | 88 => ⟨S1007616, .i32⟩
  | 89 => ⟨S1007616, .i32⟩
  | 90 => ⟨S1007616x1, .i32⟩
  | 91 => ⟨S1007616x64, .f32⟩
  | 92 => ⟨S1007616x64, .f32⟩
  | 93 => ⟨S_, .f32⟩
  | 94 => ⟨S150000x64, .f32⟩
  | 95 => ⟨S1007616x1, .i32⟩
  | 96 => ⟨S150000x64, .f32⟩
  | 97 => ⟨S150000x64, .f32⟩
  | 98 => ⟨S_, .f32⟩
  | 99 => ⟨S150000x64, .f32⟩
  | 100 => ⟨S150000x64, .f32⟩
  | 101 => ⟨S100000x64, .f32⟩
  | 102 => ⟨S50000x64, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S4096x64, .f32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S4096x64, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S100000x64, .f32⟩

abbrev hbmTy0_2 (i : Nat) : BufTy := match i % 128 with
  | 0 => ⟨S4096x1, .i32⟩
  | 1 => ⟨S4096x64, .f32⟩
  | 2 => ⟨S4096x64, .f32⟩
  | 3 => ⟨S_, .f32⟩
  | 4 => ⟨S4096, .f32⟩
  | 5 => ⟨S4096x64, .f32⟩
  | 6 => ⟨S_, .f32⟩
  | 7 => ⟨S4096, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x64, .f32⟩
  | 17 => ⟨S4096x64, .f32⟩
  | 18 => ⟨S_, .f32⟩
  | 19 => ⟨S_, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096x64, .f32⟩
  | 29 => ⟨S4096x64, .f32⟩
  | 30 => ⟨S_, .f32⟩
  | 31 => ⟨S_, .f32⟩
  | 32 => ⟨S_, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x64, .f32⟩
  | 42 => ⟨S4096x64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S4096, .f32⟩
  | 51 => ⟨S4096, .f32⟩
  | 52 => ⟨S4096, .f32⟩
  | 53 => ⟨S_, .f32⟩
  | 54 => ⟨S4096, .f32⟩
  | 55 => ⟨S4096, .f32⟩
  | 56 => ⟨S_, .f32⟩
  | 57 => ⟨S4096, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1x1, .f32⟩
  | 72 => ⟨S_, .f32⟩
  | 73 => ⟨S_, .f32⟩
  | 74 => ⟨S_, .f32⟩
  | 75 => ⟨S1x1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S2x8192, .f32⟩
  | .local _ .vmem, ⟨1, _⟩ => ⟨S2x8192, .f32⟩
  | .local _ .vmem, ⟨2, _⟩ => ⟨S1x8192, .f32⟩
  | .local _ .vmem, ⟨3, _⟩ => ⟨S1x8192, .f32⟩
  | .local _ .vmem, ⟨4, _⟩ => ⟨S2x8192, .f32⟩
  | .local _ .vmem, ⟨5, _⟩ => ⟨S2x8192, .f32⟩
  | .local _ .vmem, ⟨6, _⟩ => ⟨S8192x1, .f32⟩
  | .local _ .vmem, ⟨7, _⟩ => ⟨S8192x1, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S8192x64, .f32⟩
  | .local _ .vmem, ⟨12, _⟩ => ⟨S8192x1, .f32⟩
  | .local _ .vmem, ⟨13, _⟩ => ⟨S8192x1, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S8192x1, .f32⟩
  | .local _ .vmem, ⟨19, _⟩ => ⟨S8192x1, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S8192x1, .f32⟩
  | .local _ .vmem, ⟨25, _⟩ => ⟨S8192x1, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S8192x1, .f32⟩
  | .local _ .vmem, ⟨31, _⟩ => ⟨S8192x1, .f32⟩
  | .local _ .vmem, ⟨32, _⟩ => ⟨S8192x64, .f32⟩
  | .local _ .vmem, ⟨33, _⟩ => ⟨S8192x64, .f32⟩
  | .local _ .vmem, ⟨34, _⟩ => ⟨S8192x64, .f32⟩
  | .local _ .vmem, ⟨35, _⟩ => ⟨S8192x64, .f32⟩
  | .local _ .vmem, ⟨36, _⟩ => ⟨S8192x1, .f32⟩
  | .local _ .vmem, ⟨37, _⟩ => ⟨S8192x1, .f32⟩
  | .local _ .vmem, ⟨38, _⟩ => ⟨S8192x64, .f32⟩
  | .local _ .vmem, ⟨39, _⟩ => ⟨S8192x64, .f32⟩
  | .local _ .vmem, ⟨40, _⟩ => ⟨S8192x64, .f32⟩
  | .local _ .vmem, ⟨41, _⟩ => ⟨S8192x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S1x1, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_c_1 : Ref sig .tc := ⟨.hbm, 17, rfl⟩
abbrev main_call2_v0 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_call3_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_c_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_16 : Ref sig .tc := ⟨.hbm, 97, rfl⟩
abbrev main_v64 : Ref sig .tc := ⟨.hbm, 98, rfl⟩
abbrev main_v65 : Ref sig .tc := ⟨.hbm, 99, rfl⟩
abbrev main_c_17 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_v74 : Ref sig .tc := ⟨.hbm, 111, rfl⟩
abbrev main_c_20 : Ref sig .tc := ⟨.hbm, 112, rfl⟩
abbrev main_v75 : Ref sig .tc := ⟨.hbm, 113, rfl⟩
abbrev main_v76 : Ref sig .tc := ⟨.hbm, 114, rfl⟩
abbrev main_c_21 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_22 : Ref sig .tc := ⟨.hbm, 122, rfl⟩
abbrev main_v83 : Ref sig .tc := ⟨.hbm, 123, rfl⟩
abbrev main_c_23 : Ref sig .tc := ⟨.hbm, 124, rfl⟩
abbrev main_v84 : Ref sig .tc := ⟨.hbm, 125, rfl⟩
abbrev main_v85 : Ref sig .tc := ⟨.hbm, 126, rfl⟩
abbrev main_c_24 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_25 : Ref sig .tc := ⟨.hbm, 134, rfl⟩
abbrev main_v92 : Ref sig .tc := ⟨.hbm, 135, rfl⟩
abbrev main_v93 : Ref sig .tc := ⟨.hbm, 136, rfl⟩
abbrev main_c_26 : Ref sig .tc := ⟨.hbm, 137, rfl⟩
abbrev main_v94 : Ref sig .tc := ⟨.hbm, 138, rfl⟩
abbrev main_v95 : Ref sig .tc := ⟨.hbm, 139, rfl⟩
abbrev main_c_27 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_28 : Ref sig .tc := ⟨.hbm, 147, rfl⟩
abbrev main_v102 : Ref sig .tc := ⟨.hbm, 148, rfl⟩
abbrev main_v103 : Ref sig .tc := ⟨.hbm, 149, rfl⟩
abbrev main_cst_29 : Ref sig .tc := ⟨.hbm, 150, rfl⟩
abbrev main_v104 : Ref sig .tc := ⟨.hbm, 151, rfl⟩
abbrev main_cst_30 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_31 : Ref sig .tc := ⟨.hbm, 157, rfl⟩
abbrev main_v109 : Ref sig .tc := ⟨.hbm, 158, rfl⟩
abbrev main_v110 : Ref sig .tc := ⟨.hbm, 159, rfl⟩
abbrev main_cst_32 : Ref sig .tc := ⟨.hbm, 160, rfl⟩
abbrev main_v111 : Ref sig .tc := ⟨.hbm, 161, rfl⟩
abbrev main_v112 : Ref sig .tc := ⟨.hbm, 162, rfl⟩
abbrev main_cst_33 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_34 : Ref sig .tc := ⟨.hbm, 167, rfl⟩
abbrev main_v116 : Ref sig .tc := ⟨.hbm, 168, rfl⟩
abbrev main_cst_35 : Ref sig .tc := ⟨.hbm, 169, rfl⟩
abbrev main_v117 : Ref sig .tc := ⟨.hbm, 170, rfl⟩
abbrev main_cst_36 : Ref sig .tc := ⟨.hbm, 171, rfl⟩
abbrev main_v118 : Ref sig .tc := ⟨.hbm, 172, rfl⟩
abbrev main_cst_37 : Ref sig .tc := ⟨.hbm, 173, rfl⟩
abbrev main_v119 : Ref sig .tc := ⟨.hbm, 174, rfl⟩
abbrev main_cst_38 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_39 : Ref sig .tc := ⟨.hbm, 181, rfl⟩
abbrev main_v125 : Ref sig .tc := ⟨.hbm, 182, rfl⟩
abbrev main_v126 : Ref sig .tc := ⟨.hbm, 183, rfl⟩
abbrev main_c_40 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_41 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_c_42 : Ref sig .tc := ⟨.hbm, 196, rfl⟩
abbrev main_v137 : Ref sig .tc := ⟨.hbm, 197, rfl⟩
abbrev main_v138 : Ref sig .tc := ⟨.hbm, 198, rfl⟩
abbrev main_c_43 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_44 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_c_45 : Ref sig .tc := ⟨.hbm, 211, rfl⟩
abbrev main_v149 : Ref sig .tc := ⟨.hbm, 212, rfl⟩
abbrev main_v150 : Ref sig .tc := ⟨.hbm, 213, rfl⟩
abbrev main_c_46 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_47 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_48 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_c_49 : Ref sig .tc := ⟨.hbm, 231, rfl⟩
abbrev main_v165 : Ref sig .tc := ⟨.hbm, 232, rfl⟩
abbrev main_v166 : Ref sig .tc := ⟨.hbm, 233, rfl⟩
abbrev main_c_50 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_c_51 : Ref sig .tc := ⟨.hbm, 240, rfl⟩
abbrev main_v172 : Ref sig .tc := ⟨.hbm, 241, rfl⟩
abbrev main_v173 : Ref sig .tc := ⟨.hbm, 242, rfl⟩
abbrev main_c_52 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_c_53 : Ref sig .tc := ⟨.hbm, 249, rfl⟩
abbrev main_v179 : Ref sig .tc := ⟨.hbm, 250, rfl⟩
abbrev main_v180 : Ref sig .tc := ⟨.hbm, 251, rfl⟩
abbrev main_c_54 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_cst_55 : Ref sig .tc := ⟨.hbm, 259, rfl⟩
abbrev main_v187 : Ref sig .tc := ⟨.hbm, 260, rfl⟩
abbrev main_v188 : Ref sig .tc := ⟨.hbm, 261, rfl⟩
abbrev main_cst_56 : Ref sig .tc := ⟨.hbm, 262, rfl⟩
abbrev main_v189 : Ref sig .tc := ⟨.hbm, 263, rfl⟩
abbrev main_c_57 : Ref sig .tc := ⟨.hbm, 264, rfl⟩
abbrev main_v190 : Ref sig .tc := ⟨.hbm, 265, rfl⟩
abbrev main_v191 : Ref sig .tc := ⟨.hbm, 266, rfl⟩
abbrev main_c_58 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_cst_59 : Ref sig .tc := ⟨.hbm, 274, rfl⟩
abbrev main_v198 : Ref sig .tc := ⟨.hbm, 275, rfl⟩
abbrev main_c_60 : Ref sig .tc := ⟨.hbm, 276, rfl⟩
abbrev main_v199 : Ref sig .tc := ⟨.hbm, 277, rfl⟩
abbrev main_v200 : Ref sig .tc := ⟨.hbm, 278, rfl⟩
abbrev main_c_61 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_cst_62 : Ref sig .tc := ⟨.hbm, 286, rfl⟩
abbrev main_v207 : Ref sig .tc := ⟨.hbm, 287, rfl⟩
abbrev main_v208 : Ref sig .tc := ⟨.hbm, 288, rfl⟩
abbrev main_c_63 : Ref sig .tc := ⟨.hbm, 289, rfl⟩
abbrev main_v209 : Ref sig .tc := ⟨.hbm, 290, rfl⟩
abbrev main_v210 : Ref sig .tc := ⟨.hbm, 291, rfl⟩
abbrev main_c_64 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_cst_65 : Ref sig .tc := ⟨.hbm, 299, rfl⟩
abbrev main_v217 : Ref sig .tc := ⟨.hbm, 300, rfl⟩
abbrev main_v218 : Ref sig .tc := ⟨.hbm, 301, rfl⟩
abbrev main_cst_66 : Ref sig .tc := ⟨.hbm, 302, rfl⟩
abbrev main_v219 : Ref sig .tc := ⟨.hbm, 303, rfl⟩
abbrev main_cst_67 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_cst_68 : Ref sig .tc := ⟨.hbm, 309, rfl⟩
abbrev main_v224 : Ref sig .tc := ⟨.hbm, 310, rfl⟩
abbrev main_v225 : Ref sig .tc := ⟨.hbm, 311, rfl⟩
abbrev main_cst_69 : Ref sig .tc := ⟨.hbm, 312, rfl⟩
abbrev main_v226 : Ref sig .tc := ⟨.hbm, 313, rfl⟩
abbrev main_v227 : Ref sig .tc := ⟨.hbm, 314, rfl⟩
abbrev main_cst_70 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_cst_71 : Ref sig .tc := ⟨.hbm, 319, rfl⟩
abbrev main_v231 : Ref sig .tc := ⟨.hbm, 320, rfl⟩
abbrev main_cst_72 : Ref sig .tc := ⟨.hbm, 321, rfl⟩
abbrev main_v232 : Ref sig .tc := ⟨.hbm, 322, rfl⟩
abbrev main_v233 : Ref sig .tc := ⟨.hbm, 323, rfl⟩
abbrev main_cst_73 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_cst_74 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_cst_75 : Ref sig .tc := ⟨.hbm, 333, rfl⟩
abbrev main_v241 : Ref sig .tc := ⟨.hbm, 334, rfl⟩
abbrev main_v242 : Ref sig .tc := ⟨.hbm, 335, rfl⟩
abbrev main_cst_76 : Ref sig .tc := ⟨.hbm, 336, rfl⟩
abbrev main_v243 : Ref sig .tc := ⟨.hbm, 337, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![123], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![123], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![123], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![123], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8192x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8192x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  pads_S1000000_S1007616_076160 : S1000000.Pads (![0] : Fin 1 → Nat) ![7616] ![0] S1007616
  h_S_ : 0 < S_.numel
  shapeCasts_S1007616_S1x1007616 : S1007616.ShapeCasts S1x1007616
  pads_S2x1000000_S2x1007616_000_076160 : S2x1000000.Pads (![0, 0] : Fin 2 → Nat) ![0, 7616] ![0, 0] S2x1007616
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S2x8192 : S1x8192.Broadcasts S2x8192
  iota_S2x8192_d1_w32 : S2x8192.Iotas .tc 32 [1]
  slices_S2x1007616_S1x1007616_0_0 : S2x1007616.Slices ![0, 0] S1x1007616
  shapeCasts_S1x1007616_S1007616 : S1x1007616.ShapeCasts S1007616
  concatenates_S100000x64_S50000x64_S150000x64_d0 : Shape.Concatenates [S100000x64, S50000x64] S150000x64 0
  shapeCasts_S1007616_S1007616x1 : S1007616.ShapeCasts S1007616x1
  bcast_S_S1007616 : S_.BroadcastsInDim S1007616 (![] : Fin 0 → Fin S1007616.rank)
  bcast_S1007616_S1007616x1_0 : S1007616.BroadcastsInDim S1007616x1 (![0] : Fin 1 → Fin S1007616x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  reducesTo_S4096x64_S_d0_1 : S4096x64.ReducesTo [0, 1] S_
  reducesTo_S4096_S_d0 : S4096.ReducesTo [0] S_
  slices_S2x1007616_S1x1007616_1_0 : S2x1007616.Slices ![1, 0] S1x1007616
  inb_S1x1_S1x1_0_0 : ∀ a, (![0, 0] : Fin 2 → Nat) a + S1x1.size a ≤ S1x1.size a
  h_S1x1 : 0 < S1x1.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S1x1 : S1x1.ShapeCasts S1x1
  shapeCasts_S1x1_S_ : S1x1.ShapeCasts S_
  gather_S150000x64_S1007616x1_S1007616x64_1_0_n_n_0_1_164_wf : GatherDims.WF S150000x64 S1007616x1 S1007616x64 [1] [0] [] [0] [] 1 ![1, 64]
  scatter_S150000x64_S1007616x1_S1007616x64_1_0_0_1_wf : ScatterDims.WF S150000x64 S1007616x1 S1007616x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x1007616.size a
  hwx0_0 : ∀ i : grid0.Coords, EltTy.bits .f32 = 32 ∨ (Rect.block (s := S2x1007616) S2x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x1007616.size a
  hwx0_1 : ∀ i : grid0.Coords, EltTy.bits .f32 = 32 ∨ (Rect.block (s := S1x1007616) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8192.size a ≤ S2x1007616.size a
  hwx0_2 : ∀ i : grid0.Coords, EltTy.bits .f32 = 32 ∨ (Rect.block (s := S2x1007616) S2x8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S1007616x1.size a
  hwx1_0 : ∀ i : grid1.Coords, EltTy.bits .f32 = 32 ∨ (Rect.block (s := S1007616x1) S8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1007616x64.size a
  hwx1_1 : ∀ i : grid1.Coords, EltTy.bits .f32 = 32 ∨ (Rect.block (s := S1007616x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1007616x64.size a
  hwx1_2 : ∀ i : grid1.Coords, EltTy.bits .f32 = 32 ∨ (Rect.block (s := S1007616x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x1.size a ≤ S1007616x1.size a
  hwx2_0 : ∀ i : grid2.Coords, EltTy.bits .f32 = 32 ∨ (Rect.block (s := S1007616x1) S8192x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1007616x64.size a
  hwx2_1 : ∀ i : grid2.Coords, EltTy.bits .f32 = 32 ∨ (Rect.block (s := S1007616x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S1007616x64.size a
  hwx2_2 : ∀ i : grid2.Coords, EltTy.bits .f32 = 32 ∨ (Rect.block (s := S1007616x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x1.size a ≤ S1007616x1.size a
  hwx3_0 : ∀ i : grid3.Coords, EltTy.bits .f32 = 32 ∨ (Rect.block (s := S1007616x1) S8192x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S1007616x64.size a
  hwx3_1 : ∀ i : grid3.Coords, EltTy.bits .f32 = 32 ∨ (Rect.block (s := S1007616x64) S8192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S1007616x64.size a
  hwx3_2 : ∀ i : grid3.Coords, EltTy.bits .f32 = 32 ∨ (Rect.block (s := S1007616x64) S8192x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x1.size a ≤ S1007616x1.size a
  hwx4_0 : ∀ i : grid4.Coords, EltTy.bits .f32 = 32 ∨ (Rect.block (s := S1007616x1) S8192x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S1007616x64.size a
  hwx4_1 : ∀ i : grid4.Coords, EltTy.bits .f32 = 32 ∨ (Rect.block (s := S1007616x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S1007616x64.size a
  hwx4_2 : ∀ i : grid4.Coords, EltTy.bits .f32 = 32 ∨ (Rect.block (s := S1007616x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x1.size a ≤ S1007616x1.size a
  hwx5_0 : ∀ i : grid5.Coords, EltTy.bits .f32 = 32 ∨ (Rect.block (s := S1007616x1) S8192x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S1007616x64.size a
  hwx5_1 : ∀ i : grid5.Coords, EltTy.bits .f32 = 32 ∨ (Rect.block (s := S1007616x64) S8192x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x64.size a ≤ S1007616x64.size a
  hwx5_2 : ∀ i : grid5.Coords, EltTy.bits .f32 = 32 ∨ (Rect.block (s := S1007616x64) S8192x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x1.size a ≤ S1007616x1.size a
  hwx6_0 : ∀ i : grid6.Coords, EltTy.bits .f32 = 32 ∨ (Rect.block (s := S1007616x1) S8192x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8192x64.size a ≤ S1007616x64.size a
  hwx6_1 : ∀ i : grid6.Coords, EltTy.bits .f32 = 32 ∨ (Rect.block (s := S1007616x64) S8192x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x64.size a ≤ S1007616x64.size a
  hwx6_2 : ∀ i : grid6.Coords, EltTy.bits .f32 = 32 ∨ (Rect.block (s := S1007616x64) S8192x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)

variable [Facts₀]

def gather_S150000x64_S1007616x1_S1007616x64_1_0_n_n_0_1_164 : GatherDims S150000x64 S1007616x1 S1007616x64 where
  offsetDims := [1]
  collapsedSliceDims := [0]
  operandBatchingDims := []
  startIndicesBatchingDims := []
  startIndexMap := [0]
  indexVectorDim := 1
  sliceSizes := ![1, 64]
  wf := gather_S150000x64_S1007616x1_S1007616x64_1_0_n_n_0_1_164_wf
def scatter_S150000x64_S1007616x1_S1007616x64_1_0_0_1 : ScatterDims S150000x64 S1007616x1 S1007616x64 where
  updateWindowDims := [1]
  insertedWindowDims := [0]
  scatterDimsToOperandDims := [0]
  indexVectorDim := 1
  wf := scatter_S150000x64_S1007616x1_S1007616x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v4) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S8192x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S8192x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S8192x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v124) S8192x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v132) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v124) S8192x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v143) S8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v144) S8192x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v124) S8192x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v155) S8192x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v156) S8192x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v48) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v163) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v236) S1x1.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v49) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v164) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v239) S1x1.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S2x1000000 : Shape := ⟨2, ![2, 1000000]⟩
abbrev S4096 : Shape := ⟨1, ![4096]⟩
abbrev S1x1000000 : Shape := ⟨2, ![1, 1000000]⟩
abbrev S_ : Shape := ⟨0, ![]⟩
abbrev S150000x64 : Shape := ⟨2, ![150000, 64]⟩
abbrev S1000000x1 : Shape := ⟨2, ![1000000, 1]⟩
abbrev S1000000x64 : Shape := ⟨2, ![1000000, 64]⟩
abbrev S4096x1 : Shape := ⟨2, ![4096, 1]⟩
abbrev S4096x64 : Shape := ⟨2, ![4096, 64]⟩

abbrev nBuf : Space → Nat
  | .hbm => 354
  | .vmem => 0
  | .smem => 0
  | _ => 0

abbrev hbmTy0_0 (i : Nat) : BufTy := match i % 128 with
  | 0 => ⟨S100000x64, .f32⟩
  | 1 => ⟨S50000x64, .f32⟩
  | 2 => ⟨S100000x64, .f32⟩
  | 3 => ⟨S50000x64, .f32⟩
  | 4 => ⟨S1000000, .i32⟩
  | 5 => ⟨S1000000, .i32⟩
  | 6 => ⟨S1000000, .f32⟩
  | 7 => ⟨S2x1000000, .f32⟩
  | 8 => ⟨S4096, .i32⟩
  | 9 => ⟨S4096, .i32⟩
  | 10 => ⟨S4096, .i32⟩
  | 11 => ⟨S1x1000000, .f32⟩
  | 12 => ⟨S1000000, .f32⟩
  | 13 => ⟨S_, .f32⟩
  | 14 => ⟨S1000000, .f32⟩
  | 15 => ⟨S1000000, .f32⟩
  | 16 => ⟨S1000000, .f32⟩
  | 17 => ⟨S1000000, .f32⟩
  | 18 => ⟨S_, .f32⟩
  | 19 => ⟨S1000000, .f32⟩
  | 20 => ⟨S1000000, .f32⟩
  | 21 => ⟨S150000x64, .f32⟩
  | 22 => ⟨S1000000x1, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S1000000x64, .f32⟩
  | 33 => ⟨S1000000x64, .f32⟩
  | 34 => ⟨S_, .f32⟩
  | 35 => ⟨S150000x64, .f32⟩
  | 36 => ⟨S1000000x1, .i32⟩
  | 37 => ⟨S150000x64, .f32⟩
  | 38 => ⟨S150000x64, .f32⟩
  | 39 => ⟨S1000000x1, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x64, .f32⟩
  | 49 => ⟨S1000000x64, .f32⟩
  | 50 => ⟨S1000000x64, .f32⟩
  | 51 => ⟨S_, .f32⟩
  | 52 => ⟨S150000x64, .f32⟩
  | 53 => ⟨S1000000x1, .i32⟩
  | 54 => ⟨S150000x64, .f32⟩
  | 55 => ⟨S150000x64, .f32⟩
  | 56 => ⟨S1000000x1, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S1000000x64, .f32⟩
  | 67 => ⟨S1000000x64, .f32⟩
  | 68 => ⟨S_, .f32⟩
  | 69 => ⟨S150000x64, .f32⟩
  | 70 => ⟨S1000000x1, .i32⟩
  | 71 => ⟨S150000x64, .f32⟩
  | 72 => ⟨S150000x64, .f32⟩
  | 73 => ⟨S_, .f32⟩
  | 74 => ⟨S150000x64, .f32⟩
  | 75 => ⟨S150000x64, .f32⟩
  | 76 => ⟨S100000x64, .f32⟩
  | 77 => ⟨S50000x64, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x64, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x64, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x64, .f32⟩
  | 105 => ⟨S4096x64, .f32⟩
  | 106 => ⟨S_, .f32⟩
  | 107 => ⟨S4096, .f32⟩
  | 108 => ⟨S4096x64, .f32⟩
  | 109 => ⟨S_, .f32⟩
  | 110 => ⟨S4096, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x64, .f32⟩
  | 120 => ⟨S4096x64, .f32⟩
  | 121 => ⟨S_, .f32⟩
  | 122 => ⟨S_, .f32⟩
  | 123 => ⟨S_, .i32⟩
  | 124 => ⟨S4096, .i32⟩
  | 125 => ⟨S4096, .i1⟩
  | 126 => ⟨S_, .i32⟩
  | 127 => ⟨S4096, .i32⟩
  | _ => ⟨S100000x64, .f32⟩

abbrev hbmTy0_1 (i : Nat) : BufTy := match i % 128 with
  | 0 => ⟨S4096, .i32⟩
  | 1 => ⟨S4096, .i32⟩
  | 2 => ⟨S4096x1, .i32⟩
  | 3 => ⟨S4096x64, .f32⟩
  | 4 => ⟨S4096x64, .f32⟩
  | 5 => ⟨S_, .f32⟩
  | 6 => ⟨S_, .f32⟩
  | 7 => ⟨S_, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x64, .f32⟩
  | 17 => ⟨S4096x64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S4096, .f32⟩
  | 26 => ⟨S4096, .f32⟩
  | 27 => ⟨S4096, .f32⟩
  | 28 => ⟨S_, .f32⟩
  | 29 => ⟨S4096, .f32⟩
  | 30 => ⟨S4096, .f32⟩
  | 31 => ⟨S_, .f32⟩
  | 32 => ⟨S4096, .f32⟩
  | 33 => ⟨S4096, .f32⟩
  | 34 => ⟨S_, .f32⟩
  | 35 => ⟨S4096, .f32⟩
  | 36 => ⟨S4096, .f32⟩
  | 37 => ⟨S4096, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1x1000000, .f32⟩
  | 49 => ⟨S1000000, .f32⟩
  | 50 => ⟨S_, .f32⟩
  | 51 => ⟨S1000000, .f32⟩
  | 52 => ⟨S1000000, .f32⟩
  | 53 => ⟨S1000000, .f32⟩
  | 54 => ⟨S1000000, .f32⟩
  | 55 => ⟨S_, .f32⟩
  | 56 => ⟨S1000000, .f32⟩
  | 57 => ⟨S1000000, .f32⟩
  | 58 => ⟨S150000x64, .f32⟩
  | 59 => ⟨S1000000x1, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S1000000x64, .f32⟩
  | 70 => ⟨S1000000x64, .f32⟩
  | 71 => ⟨S_, .f32⟩
  | 72 => ⟨S150000x64, .f32⟩
  | 73 => ⟨S1000000x1, .i32⟩
  | 74 => ⟨S150000x64, .f32⟩
  | 75 => ⟨S150000x64, .f32⟩
  | 76 => ⟨S1000000x1, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S1000000x64, .f32⟩
  | 87 => ⟨S1000000x64, .f32⟩
  | 88 => ⟨S_, .f32⟩
  | 89 => ⟨S150000x64, .f32⟩
  | 90 => ⟨S1000000x1, .i32⟩
  | 91 => ⟨S150000x64, .f32⟩
  | 92 => ⟨S150000x64, .f32⟩
  | 93 => ⟨S1000000x1, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x64, .f32⟩
  | 103 => ⟨S1000000x64, .f32⟩
  | 104 => ⟨S1000000x64, .f32⟩
  | 105 => ⟨S_, .f32⟩
  | 106 => ⟨S150000x64, .f32⟩
  | 107 => ⟨S1000000x1, .i32⟩
  | 108 => ⟨S150000x64, .f32⟩
  | 109 => ⟨S150000x64, .f32⟩
  | 110 => ⟨S_, .f32⟩
  | 111 => ⟨S150000x64, .f32⟩
  | 112 => ⟨S150000x64, .f32⟩
  | 113 => ⟨S100000x64, .f32⟩
  | 114 => ⟨S50000x64, .f32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S4096x64, .f32⟩
  | 124 => ⟨S_, .i32⟩
  | 125 => ⟨S4096, .i32⟩
  | 126 => ⟨S4096, .i1⟩
  | 127 => ⟨S_, .i32⟩
  | _ => ⟨S100000x64, .f32⟩

abbrev hbmTy0_2 (i : Nat) : BufTy := match i % 128 with
  | 0 => ⟨S4096, .i32⟩
  | 1 => ⟨S4096, .i32⟩
  | 2 => ⟨S4096, .i32⟩
  | 3 => ⟨S4096x1, .i32⟩
  | 4 => ⟨S4096x64, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x64, .f32⟩
  | 14 => ⟨S4096x64, .f32⟩
  | 15 => ⟨S_, .f32⟩
  | 16 => ⟨S4096, .f32⟩
  | 17 => ⟨S4096x64, .f32⟩
  | 18 => ⟨S_, .f32⟩
  | 19 => ⟨S4096, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096x64, .f32⟩
  | 29 => ⟨S4096x64, .f32⟩
  | 30 => ⟨S_, .f32⟩
  | 31 => ⟨S_, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x64, .f32⟩
  | 41 => ⟨S4096x64, .f32⟩
  | 42 => ⟨S_, .f32⟩
  | 43 => ⟨S_, .f32⟩
  | 44 => ⟨S_, .f32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S4096x64, .f32⟩
  | 54 => ⟨S4096x64, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S4096, .f32⟩
  | 63 => ⟨S4096, .f32⟩
  | 64 => ⟨S4096, .f32⟩
  | 65 => ⟨S_, .f32⟩
  | 66 => ⟨S4096, .f32⟩
  | 67 => ⟨S4096, .f32⟩
  | 68 => ⟨S_, .f32⟩
  | 69 => ⟨S4096, .f32⟩
  | 70 => ⟨S4096, .f32⟩
  | 71 => ⟨S_, .f32⟩
  | 72 => ⟨S4096, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S50000x64, .f32⟩
  | 90 => ⟨S50000x64, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_v81 : Ref sig .tc := ⟨.hbm, 113, rfl⟩
abbrev main_c_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_c_21 : Ref sig .tc := ⟨.hbm, 123, rfl⟩
abbrev main_v89 : Ref sig .tc := ⟨.hbm, 124, rfl⟩
abbrev main_v90 : Ref sig .tc := ⟨.hbm, 125, rfl⟩
abbrev main_c_22 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_v98 : Ref sig .tc := ⟨.hbm, 135, rfl⟩
abbrev main_c_24 : Ref sig .tc := ⟨.hbm, 136, rfl⟩
abbrev main_v99 : Ref sig .tc := ⟨.hbm, 137, rfl⟩
abbrev main_v100 : Ref sig .tc := ⟨.hbm, 138, rfl⟩
abbrev main_c_25 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_26 : Ref sig .tc := ⟨.hbm, 146, rfl⟩
abbrev main_v107 : Ref sig .tc := ⟨.hbm, 147, rfl⟩
abbrev main_v108 : Ref sig .tc := ⟨.hbm, 148, rfl⟩
abbrev main_cst_27 : Ref sig .tc := ⟨.hbm, 149, rfl⟩
abbrev main_v109 : Ref sig .tc := ⟨.hbm, 150, rfl⟩
abbrev main_cst_28 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_29 : Ref sig .tc := ⟨.hbm, 156, rfl⟩
abbrev main_v114 : Ref sig .tc := ⟨.hbm, 157, rfl⟩
abbrev main_v115 : Ref sig .tc := ⟨.hbm, 158, rfl⟩
abbrev main_cst_30 : Ref sig .tc := ⟨.hbm, 159, rfl⟩
abbrev main_v116 : Ref sig .tc := ⟨.hbm, 160, rfl⟩
abbrev main_v117 : Ref sig .tc := ⟨.hbm, 161, rfl⟩
abbrev main_cst_31 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_32 : Ref sig .tc := ⟨.hbm, 166, rfl⟩
abbrev main_v121 : Ref sig .tc := ⟨.hbm, 167, rfl⟩
abbrev main_cst_33 : Ref sig .tc := ⟨.hbm, 168, rfl⟩
abbrev main_v122 : Ref sig .tc := ⟨.hbm, 169, rfl⟩
abbrev main_cst_34 : Ref sig .tc := ⟨.hbm, 170, rfl⟩
abbrev main_v123 : Ref sig .tc := ⟨.hbm, 171, rfl⟩
abbrev main_cst_35 : Ref sig .tc := ⟨.hbm, 172, rfl⟩
abbrev main_v124 : Ref sig .tc := ⟨.hbm, 173, rfl⟩
abbrev main_cst_36 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_37 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_38 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_39 : Ref sig .tc := ⟨.hbm, 188, rfl⟩
abbrev main_v136 : Ref sig .tc := ⟨.hbm, 189, rfl⟩
abbrev main_v137 : Ref sig .tc := ⟨.hbm, 190, rfl⟩
abbrev main_c_40 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_41 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_c_42 : Ref sig .tc := ⟨.hbm, 205, rfl⟩
abbrev main_v150 : Ref sig .tc := ⟨.hbm, 206, rfl⟩
abbrev main_v151 : Ref sig .tc := ⟨.hbm, 207, rfl⟩
abbrev main_c_43 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_44 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_45 : Ref sig .tc := ⟨.hbm, 222, rfl⟩
abbrev main_v164 : Ref sig .tc := ⟨.hbm, 223, rfl⟩
abbrev main_v165 : Ref sig .tc := ⟨.hbm, 224, rfl⟩
abbrev main_c_46 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_47 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_48 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_c_49 : Ref sig .tc := ⟨.hbm, 243, rfl⟩
abbrev main_v181 : Ref sig .tc := ⟨.hbm, 244, rfl⟩
abbrev main_v182 : Ref sig .tc := ⟨.hbm, 245, rfl⟩
abbrev main_c_50 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_c_51 : Ref sig .tc := ⟨.hbm, 252, rfl⟩
abbrev main_v188 : Ref sig .tc := ⟨.hbm, 253, rfl⟩
abbrev main_v189 : Ref sig .tc := ⟨.hbm, 254, rfl⟩
abbrev main_c_52 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_c_53 : Ref sig .tc := ⟨.hbm, 261, rfl⟩
abbrev main_v195 : Ref sig .tc := ⟨.hbm, 262, rfl⟩
abbrev main_v196 : Ref sig .tc := ⟨.hbm, 263, rfl⟩
abbrev main_c_54 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_cst_55 : Ref sig .tc := ⟨.hbm, 271, rfl⟩
abbrev main_v203 : Ref sig .tc := ⟨.hbm, 272, rfl⟩
abbrev main_v204 : Ref sig .tc := ⟨.hbm, 273, rfl⟩
abbrev main_cst_56 : Ref sig .tc := ⟨.hbm, 274, rfl⟩
abbrev main_v205 : Ref sig .tc := ⟨.hbm, 275, rfl⟩
abbrev main_c_57 : Ref sig .tc := ⟨.hbm, 276, rfl⟩
abbrev main_v206 : Ref sig .tc := ⟨.hbm, 277, rfl⟩
abbrev main_v207 : Ref sig .tc := ⟨.hbm, 278, rfl⟩
abbrev main_c_58 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_59 : Ref sig .tc := ⟨.hbm, 286, rfl⟩
abbrev main_v214 : Ref sig .tc := ⟨.hbm, 287, rfl⟩
abbrev main_c_60 : Ref sig .tc := ⟨.hbm, 288, rfl⟩
abbrev main_v215 : Ref sig .tc := ⟨.hbm, 289, rfl⟩
abbrev main_v216 : Ref sig .tc := ⟨.hbm, 290, rfl⟩
abbrev main_c_61 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_cst_62 : Ref sig .tc := ⟨.hbm, 298, rfl⟩
abbrev main_v223 : Ref sig .tc := ⟨.hbm, 299, rfl⟩
abbrev main_v224 : Ref sig .tc := ⟨.hbm, 300, rfl⟩
abbrev main_c_63 : Ref sig .tc := ⟨.hbm, 301, rfl⟩
abbrev main_v225 : Ref sig .tc := ⟨.hbm, 302, rfl⟩
abbrev main_v226 : Ref sig .tc := ⟨.hbm, 303, rfl⟩
abbrev main_c_64 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_cst_65 : Ref sig .tc := ⟨.hbm, 311, rfl⟩
abbrev main_v233 : Ref sig .tc := ⟨.hbm, 312, rfl⟩
abbrev main_v234 : Ref sig .tc := ⟨.hbm, 313, rfl⟩
abbrev main_cst_66 : Ref sig .tc := ⟨.hbm, 314, rfl⟩
abbrev main_v235 : Ref sig .tc := ⟨.hbm, 315, rfl⟩
abbrev main_cst_67 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_cst_68 : Ref sig .tc := ⟨.hbm, 321, rfl⟩
abbrev main_v240 : Ref sig .tc := ⟨.hbm, 322, rfl⟩
abbrev main_v241 : Ref sig .tc := ⟨.hbm, 323, rfl⟩
abbrev main_cst_69 : Ref sig .tc := ⟨.hbm, 324, rfl⟩
abbrev main_v242 : Ref sig .tc := ⟨.hbm, 325, rfl⟩
abbrev main_v243 : Ref sig .tc := ⟨.hbm, 326, rfl⟩
abbrev main_cst_70 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_cst_71 : Ref sig .tc := ⟨.hbm, 331, rfl⟩
abbrev main_v247 : Ref sig .tc := ⟨.hbm, 332, rfl⟩
abbrev main_cst_72 : Ref sig .tc := ⟨.hbm, 333, rfl⟩
abbrev main_v248 : Ref sig .tc := ⟨.hbm, 334, rfl⟩
abbrev main_v249 : Ref sig .tc := ⟨.hbm, 335, rfl⟩
abbrev main_cst_73 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_cst_74 : Ref sig .tc := ⟨.hbm, 341, rfl⟩
abbrev main_v254 : Ref sig .tc := ⟨.hbm, 342, rfl⟩
abbrev main_cst_75 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_cst_76 : Ref sig .tc := ⟨.hbm, 347, rfl⟩
abbrev main_v258 : Ref sig .tc := ⟨.hbm, 348, rfl⟩
abbrev main_cst_77 : Ref sig .tc := ⟨.hbm, 349, rfl⟩
abbrev main_v259 : Ref sig .tc := ⟨.hbm, 350, rfl⟩
abbrev main_v260 : Ref sig .tc := ⟨.hbm, 351, rfl⟩
abbrev main_cst_78 : Ref sig .tc := ⟨.hbm, 352, rfl⟩
abbrev main_v261 : Ref sig .tc := ⟨.hbm, 353, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096x64_S_d0_1 : S4096x64.ReducesTo [0, 1] S_
  reducesTo_S4096_S_d0 : S4096.ReducesTo [0] S_
  slices_S2x1000000_S1x1000000_1_0 : S2x1000000.Slices ![1, 0] S1x1000000
  reducesTo_S100000x64_S_d0_1 : S100000x64.ReducesTo [0, 1] S_
  reducesTo_S50000x64_S_d0_1 : S50000x64.ReducesTo [0, 1] S_
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.KernelRun.lean ====
/-
  The idealized kernel program's run with its three results named.

  The program's @main is ten stretches of host operations around nine kernel launches. Its frame proof already
  follows the buffers' contents from the launch to the return, boundary by boundary: a stretch's operations applied
  to the contents before it, a launch's arrays replaced by what its write-backs leave. Every execution ends with
  every unscoped buffer at the last boundary's contents; the frame reads the eleven arguments back from them.
  Here the three result buffers are read back as well, so that the run's post NAMES each result as the last
  boundary's contents of its buffer; the argument is the frame's own, with a longer final read-back.
-/
import proofs.«162383_j26603027431988_2_alg».proof.Proof.KernelIdealFrame

set_option maxRecDepth 16384

noncomputable section

namespace Cert.KernelIdeal.RunValues

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the three results at the last
    boundary's contents of their buffers and the arguments as launched. -/
theorem run_values : θ_run defs (onTc (τ := τ) (main (F := F))) ⟨m, fun _ => 0, ρ⟩ (fun r => ∀ c : Dev nD,
      r.2.mem ((c.tc : Thread nD τ).loc main_v233) = W26 m ρ c (Proc.devRef .tc main_v233)
      ∧ r.2.mem ((c.tc : Thread nD τ).loc main_v235) = W26 m ρ c (Proc.devRef .tc main_v235)
      ∧ r.2.mem ((c.tc : Thread nD τ).loc main_v243) = W26 m ρ c (Proc.devRef .tc main_v243)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v233 (by decide)),
       h c _ (mem_uc main_v235 (by decide)),
       h c _ (mem_uc main_v243 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c)⟩)

end Cert.KernelIdeal.RunValues

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.ReadEntry.lean ====
import proofs.«162383_j26603027431988_2_alg».proof.Proof.KernelIdealFrame
import Idealize.ShloMosaic.Lib.StableHlo.Run
import Idealize.ShloMosaic.Lib.Pipeline.Value
import Idealize.ShloMosaic.Lib.ValueIdx
import Idealize.ShloMosaic.Lib.KernelVsHost
import Idealize.ShloMosaic.Lib.ValueLayout
import proofs.«162383_j26603027431988_2_alg».proof.Proof.LibTypedRefs

noncomputable section

namespace Cert.KernelIdeal.ReadEntry

open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-!
  What the four lengthened inputs hold when the first kernel is launched.

  The program lengthens the edge list from 1000000 to 1007616 entries before anything else: the row numbers, the
  column numbers, the edge values and the two rows of uniform draws each get 7616 entries of padding at the end (a
  `pad` with no low or interior padding). Read at a position below 1000000 each lengthened array is the argument at
  that position; what the padding holds is never needed (the first kernel masks those positions itself).
-/

/-- the eight short stretches before the first launch, as one fold from the launch memory -/
theorem entry_fold (b : Ref sig .tc) :
    W8 (F := Ideal) m ρ c (Proc.devRef .tc b)
      = StableHlo.after hostOps0_7 (StableHlo.after hostOps0_6 (StableHlo.after hostOps0_5 (StableHlo.after hostOps0_4
          (StableHlo.after hostOps0_3 (StableHlo.after hostOps0_2 (StableHlo.after hostOps0_1
            (StableHlo.after hostOps0 (W0 m ρ c)))))))) (Proc.devRef .tc b) := rfl

/-- the row numbers, lengthened -/
theorem rows_term : W8 (F := Ideal) m ρ c (Proc.devRef .tc main_v0)
    = pad S1007616 ![0] ![7616] ![0] (m ((c : Thread nD τ).loc main_arg4)) (constantI S_ 32 0#32) pads_S1000000_S1007616_076160 h_S_ := by
  rw [entry_fold]
  simp only [hostOps0, hostOps0_1, hostOps0_2, hostOps0_3, hostOps0_4, hostOps0_5, hostOps0_6, hostOps0_7]
  after_results
  simp only [Cert.LibTypedRefs.ofBuf_toBuf]
  rfl

/-- the column numbers, lengthened -/
theorem cols_term : W8 (F := Ideal) m ρ c (Proc.devRef .tc main_v1)
    = pad S1007616 ![0] ![7616] ![0] (m ((c : Thread nD τ).loc main_arg5)) (constantI S_ 32 0#32) pads_S1000000_S1007616_076160 h_S_ := by
  rw [entry_fold]
  simp only [hostOps0, hostOps0_1, hostOps0_2, hostOps0_3, hostOps0_4, hostOps0_5, hostOps0_6, hostOps0_7]
  after_results
  simp only [Cert.LibTypedRefs.ofBuf_toBuf]
  rfl

/-- the edge values, lengthened, before they are laid out as one row: what the first six stretches leave -/
theorem vals_flat_term : W6 (F := Ideal) m ρ c (Proc.devRef .tc main_v2)
    = pad S1007616 ![0] ![7616] ![0] (m ((c : Thread nD τ).loc main_arg6))
        (sitofp (F := Ideal) .f32 (constantI S_ 32 0#32)) pads_S1000000_S1007616_076160 h_S_ := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_v2) = _
  simp only [hostOps0, hostOps0_1, hostOps0_2, hostOps0_3, hostOps0_4, hostOps0_5]
  after_results
  simp only [Cert.LibTypedRefs.ofBuf_toBuf]
  rfl

/-- the edge values, lengthened and laid out as one row: the last two stretches only change the layout of the
    lengthened vector, and the transport of its element type along that change is the identity whatever the
    vector is -/
theorem vals_term : W8 (F := Ideal) m ρ c (Proc.devRef .tc main_v3)
    = shapeCast S1x1007616 (pad S1007616 ![0] ![7616] ![0] (m ((c : Thread nD τ).loc main_arg6))
        (sitofp (F := Ideal) .f32 (constantI S_ 32 0#32)) pads_S1000000_S1007616_076160 h_S_) shapeCasts_S1007616_S1x1007616 := by
  have h2 := vals_flat_term m ρ c
  show StableHlo.after hostOps0_7 (StableHlo.after hostOps0_6 (W6 (F := Ideal) m ρ c)) (Proc.devRef .tc main_v3) = _
  generalize W6 (F := Ideal) m ρ c = F6 at h2 ⊢
  simp only [hostOps0_6, hostOps0_7]
  after_results
  rw [h2]
  generalize pad S1007616 ![0] ![7616] ![0] (m ((c : Thread nD τ).loc main_arg6))
    (sitofp (F := Ideal) .f32 (constantI S_ 32 0#32)) pads_S1000000_S1007616_076160 h_S_ = P
  rfl

/-- the two rows of uniform draws, lengthened -/
theorem draws_term : W8 (F := Ideal) m ρ c (Proc.devRef .tc main_v4)
    = pad S2x1007616 ![0, 0] ![0, 7616] ![0, 0] (m ((c : Thread nD τ).loc main_arg7))
        (sitofp (F := Ideal) .f32 (constantI S_ 32 0#32)) pads_S2x1000000_S2x1007616_000_076160 h_S_ := by
  rw [entry_fold]
  simp only [hostOps0, hostOps0_1, hostOps0_2, hostOps0_3, hostOps0_4, hostOps0_5, hostOps0_6, hostOps0_7]
  after_results
  simp only [Cert.LibTypedRefs.ofBuf_toBuf]
  rfl

/-- a vector lengthened at the end, read below its old length, is the vector there -/
theorem pad_end_apply {α : Type} (x : S1000000.Idx → α) (v : S_.Idx → α) (e : Fin 1007616) (h : e.val < 1000000) :
    pad S1007616 ![0] ![7616] ![0] x v pads_S1000000_S1007616_076160 h_S_ (ix1 e) = x (ix1 (⟨e.val, h⟩ : Fin 1000000)) :=
  pad_apply_of_inside _ _ _ x v pads_S1000000_S1007616_076160 h_S_ (ix1 e) (ix1 (⟨e.val, h⟩ : Fin 1000000)) (by
    intro a
    have ha : a = 0 := Subsingleton.elim _ _
    subst ha
    show e.val = 0 + e.val * (0 + 1)
    omega)

theorem rows_at (e : Fin 1007616) (h : e.val < 1000000) :
    (W8 (F := Ideal) m ρ c (Proc.devRef .tc main_v0) : S1007616.Idx → BitVec 32) (ix1 e)
      = (m ((c : Thread nD τ).loc main_arg4) : S1000000.Idx → BitVec 32) (ix1 (⟨e.val, h⟩ : Fin 1000000)) := by
  rw [rows_term]; exact pad_end_apply _ _ e h

theorem cols_at (e : Fin 1007616) (h : e.val < 1000000) :
    (W8 (F := Ideal) m ρ c (Proc.devRef .tc main_v1) : S1007616.Idx → BitVec 32) (ix1 e)
      = (m ((c : Thread nD τ).loc main_arg5) : S1000000.Idx → BitVec 32) (ix1 (⟨e.val, h⟩ : Fin 1000000)) := by
  rw [cols_term]; exact pad_end_apply _ _ e h

theorem vals_at (e : Fin 1007616) (h : e.val < 1000000) :
    (W8 (F := Ideal) m ρ c (Proc.devRef .tc main_v3) : S1x1007616.Idx → EReal) (ix2 (0 : Fin 1) e)
      = (m ((c : Thread nD τ).loc main_arg6) : S1000000.Idx → EReal) (ix1 (⟨e.val, h⟩ : Fin 1000000)) := by
  rw [vals_term]
  refine (shapeCast_a_1a_apply _ shapeCasts_S1007616_S1x1007616 (0 : Fin 1) e).trans ?_
  exact pad_end_apply _ _ e h

theorem draws_at (k : Fin 2) (e : Fin 1007616) (h : e.val < 1000000) :
    (W8 (F := Ideal) m ρ c (Proc.devRef .tc main_v4) : S2x1007616.Idx → EReal) (ix2 k e)
      = (m ((c : Thread nD τ).loc main_arg7) : S2x1000000.Idx → EReal) (ix2 k (⟨e.val, h⟩ : Fin 1000000)) := by
  rw [draws_term]
  refine pad_apply_of_inside _ _ _ _ _ pads_S2x1000000_S2x1007616_000_076160 h_S_ (ix2 k e) (ix2 k (⟨e.val, h⟩ : Fin 1000000)) ?_
  intro a
  match a with
  | ⟨0, _⟩ => show k.val = 0 + k.val * (0 + 1); omega
  | ⟨1, _⟩ => show e.val = 0 + e.val * (0 + 1); omega

end Cert.KernelIdeal.ReadEntry

end
-- ==== Proof.RegionVals.lean ====
import proofs.«162383_j26603027431988_2_alg».proof.Proof.KernelIdealFrame
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionVals
open Idealize.ShloMosaic Idealize.ShloMosaic.TcCoe Idealize.SL.Sem Idealize.ShloMosaic.ValueIdx
open Cert.KernelIdeal Cert.KernelIdeal.Gen Cert.KernelIdeal.GenP
variable (V : (c : Dev nD) → (b : Ref sig .tc) → Buf (Elt Ideal) ((c : Thread nD τ).loc b))

/-! # The edge-weight region: its output array in closed form

The region multiplies each of the two rows of uniform draws, shifted by the keep probability and rounded down
(so a draw becomes 1 where the edge is kept and 0 where it is dropped), by the row of edge values, rescales by
the keep probability, and writes 0 in the columns past the 1000000 real edges. -/

/-- The keep probability, as the extended real its 32-bit float word denotes (never evaluated). -/
def keepWord : EReal := Ideal.ofBits .f32 0x3F4CCCCD#32

/-- The region's result: in the first 1000000 columns, `⌊draw + keep⌋ · value / keep`; in the padded columns, 0. -/
def maskedVals (drop : S2x1007616.Idx → EReal) (val : S1x1007616.Idx → EReal) : S2x1007616.Idx → EReal :=
  fun i => if (i 1).val < 1000000 then
      FloatOps.divf (F := Ideal) (φ := .f32) (FloatOps.mulf (F := Ideal) (φ := .f32)
        (FloatOps.floor (F := Ideal) (φ := .f32) (FloatOps.addf (F := Ideal) (φ := .f32) (drop i) keepWord))
        (val (ix2 (0 : Fin 1) (⟨(i 1).val, (i 1).isLt⟩ : Fin 1007616)))) keepWord
    else 0

/-! ## The column mask, on words -/

/-- For a grid point `t < 123` and a lane `l < 8192` the column number `t * 8192 + l` is below `2 ^ 31`: as a
    32-bit word it neither wraps nor is negative, so its signed comparison with the word 1000000 is the
    comparison of the natural numbers. -/
theorem column_lt_word (t l : Nat) (ht : t < 123) (hl : l < 8192) :
    IntOp.cmpi .slt (IntOp.addi (Scalar.muli (BitVec.ofNat 32 t) 8192#32) (BitVec.ofNat 32 l)) 1000000#32 = 1#1
      ↔ t * 8192 + l < 1000000 := by
  have e : IntOp.addi (Scalar.muli (BitVec.ofNat 32 t) 8192#32) (BitVec.ofNat 32 l) = BitVec.ofNat 32 (t * 8192 + l) := by
    show BitVec.ofNat 32 t * BitVec.ofNat 32 8192 + BitVec.ofNat 32 l = _
    rw [← BitVec.ofNat_mul, ← BitVec.ofNat_add]
  rw [e]
  show BitVec.ofBool ((BitVec.ofNat 32 (t * 8192 + l)).slt 1000000#32) = 1#1 ↔ _
  have hn : (BitVec.ofNat 32 (t * 8192 + l)).toNat = t * 8192 + l := by
    rw [BitVec.toNat_ofNat]; omega
  have hi : (BitVec.ofNat 32 (t * 8192 + l)).toInt = ((t * 8192 + l : Nat) : Int) := by
    rw [BitVec.toInt_eq_toNat_of_lt (by rw [hn]; omega), hn]
  have hc : (1000000#32 : BitVec 32).toInt = 1000000 := by decide
  rw [BitVec.slt, hi, hc]
  by_cases h : t * 8192 + l < 1000000
  · have h' : ((t * 8192 + l : Nat) : Int) < 1000000 := by omega
    rw [decide_eq_true h']
    exact ⟨fun _ => h, fun _ => rfl⟩
  · have h' : ¬ ((t * 8192 + l : Nat) : Int) < 1000000 := by omega
    rw [decide_eq_false h']
    exact ⟨fun hb => absurd hb (by decide), fun hb => absurd hb h⟩

/-! ## The body's stored value at an index of its block -/

/-- The stored value at row `p`, lane `q` of the block, at grid coordinate `i`: the rescaled product where the
    column `i * 8192 + q` is a real edge, 0 past them. -/
theorem pay_apply (i : grid0.Coords) (x0 : Vec Ideal S2x8192 .f32) (x1 : Vec Ideal S1x8192 .f32) (p : Fin 2) (q : Fin 8192) :
    k0_pay1 (F := Ideal) i x0 x1 (ix2 p q) =
      if (i 0).val * 8192 + q.val < 1000000 then
        FloatOps.divf (F := Ideal) (φ := .f32) (FloatOps.mulf (F := Ideal) (φ := .f32)
          (FloatOps.floor (F := Ideal) (φ := .f32) (FloatOps.addf (F := Ideal) (φ := .f32) (x0 (ix2 p q)) keepWord))
          (x1 (ix2 (0 : Fin 1) q))) keepWord
      else 0 := by
  have e0 : shapeCast S2x8192 x0 shapeCasts_S2x8192_S2x8192 = x0 := shapeCast_self x0 _
  have e1 : shapeCast S1x8192 x1 shapeCasts_S1x8192_S1x8192 = x1 := shapeCast_self x1 _
  have e2 : broadcastTo S2x8192 x1 broadcasts_S1x8192_S2x8192 (ix2 p q) = x1 (ix2 (0 : Fin 1) q) :=
    broadcastTo_1b_ab_apply x1 _ p q
  have e3 : iota .tc S2x8192 32 [1] iota_S2x8192_d1_w32 (ix2 p q) = BitVec.ofNat 32 q.val :=
    iota_single_apply .tc S2x8192 32 1 _ (ix2 p q)
  unfold k0_pay1
  show Scalar.select (IntOp.cmpi .slt (IntOp.addi (Scalar.muli (BitVec.ofNat 32 (i 0).val) 8192#32)
        (iota .tc S2x8192 32 [1] iota_S2x8192_d1_w32 (ix2 p q))) 1000000#32)
      (FloatOps.divf (F := Ideal) (φ := .f32) (FloatOps.mulf (F := Ideal) (φ := .f32)
        (FloatOps.floor (F := Ideal) (φ := .f32) (FloatOps.addf (F := Ideal) (φ := .f32)
          (shapeCast S2x8192 x0 shapeCasts_S2x8192_S2x8192 (ix2 p q)) keepWord))
        (broadcastTo S2x8192 (shapeCast S1x8192 x1 shapeCasts_S1x8192_S1x8192) broadcasts_S1x8192_S2x8192 (ix2 p q))) keepWord)
      (Ideal.ofBits .f32 0x00000000#32) = _
  rw [e0, e1, e2, e3]
  exact if_congr (column_lt_word (i 0).val q.val (i 0).isLt q.isLt) rfl Ideal.ofBits_zero_f32

/-! ## The index maps, decided over the grid -/

theorem zero_offsets : (![0, 0] : Fin 2 → Nat) = fun _ => 0 := funext fun a => by fin_cases a <;> rfl

/-- At the grid's point `t` the one grid coordinate is `t`, and each of the three windows sits at block row 0,
    block column `t` (decided over the 123 points). -/
theorem idx_facts : ∀ t : Fin cfg0.N, ((grid0.coords t) 0).val = t.val
    ∧ win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-! ## One stored element is one element of the closed form -/

/-- The stored value at row `p`, lane `q` of a block is the closed form at the array index `k`, once `k`'s column is
    the block's column `i * 8192 + q` and the two loaded blocks hold the arrays' entries that `k` names. -/
theorem point_eq (X0 : S2x1007616.Idx → EReal) (X1 : S1x1007616.Idx → EReal) (i : grid0.Coords)
    (x0 : Vec Ideal S2x8192 .f32) (x1 : Vec Ideal S1x8192 .f32) (p : Fin 2) (q : Fin 8192) (k : S2x1007616.Idx)
    (hk : (k 1).val = (i 0).val * 8192 + q.val)
    (h0 : x0 (ix2 p q) = X0 k)
    (h1 : x1 (ix2 (0 : Fin 1) q) = X1 (ix2 (0 : Fin 1) (⟨(k 1).val, (k 1).isLt⟩ : Fin 1007616))) :
    k0_pay1 (F := Ideal) i x0 x1 (ix2 p q) = maskedVals X0 X1 k := by
  rw [pay_apply, h0, h1]
  unfold maskedVals
  exact if_congr (by rw [hk]) rfl rfl

/-! ## What each point writes back, and the whole array -/

/-- What point `t` writes back to the output array is block `t` of the closed form of the two input arrays. -/
theorem flushed_eq (c : Dev nD) (t : Fin cfg0.N) :
    (dat0 (F := Ideal) V c).flushed 2 t
      = ((cfg0.win 2).blk t).view.read (Elt Ideal) (maskedVals (V c main_v4) (V c main_v3)) := by
  show (cfg0.win 2).cut (grid0.coords t) ((dat0 V c).after 2 t) = _
  rw [after0_2]
  unfold out0_2
  rw [View.canon_unit_zero zero_offsets]
  simp only [View.ld_unit_zero (S := S2x8192) zero_offsets, View.ld_unit_zero (S := S1x8192) zero_offsets]
  obtain ⟨eg, a0, a1, b0, b1, o0, o1⟩ := idx_facts t
  refine funext fun (j : S2x8192.Idx) => ?_
  obtain ⟨p, q, rfl⟩ : ∃ (p : Fin 2) (q : Fin 8192), j = ix2 p q := ⟨j 0, j 1, eq_ix2 j⟩
  show k0_pay1 (F := Ideal) (grid0.coords t) (iblk0 V c 0 t) (iblk0 V c 1 t) (ix2 p q)
    = maskedVals (V c main_v4) (V c main_v3) (((cfg0.win 2).blk t).view.emb (ix2 p q))
  have hp : p.val < 2 := p.isLt
  have hq : q.val < 8192 := q.isLt
  refine point_eq (V c main_v4) (V c main_v3) (grid0.coords t) (iblk0 V c 0 t) (iblk0 V c 1 t) p q
    (((cfg0.win 2).blk t).view.emb (ix2 p q)) ?_ ?_ ?_
  · show win0_2.index t (1 : Fin 2) * 8192 + 1 * q.val = ((grid0.coords t) 0).val * 8192 + q.val
    rw [o1, eg]; omega
  · show V c main_v4 (((cfg0.win 0).blk t).view.emb (ix2 p q)) = V c main_v4 (((cfg0.win 2).blk t).view.emb (ix2 p q))
    have e : ((cfg0.win 0).blk t).view.emb (ix2 p q) = ((cfg0.win 2).blk t).view.emb (ix2 p q) := by
      funext a; apply Fin.ext
      match a with
      | ⟨0, _⟩ => show win0_0.index t (0 : Fin 2) * 2 + 1 * p.val = win0_2.index t (0 : Fin 2) * 2 + 1 * p.val; rw [a0, o0]
      | ⟨1, _⟩ => show win0_0.index t (1 : Fin 2) * 8192 + 1 * q.val = win0_2.index t (1 : Fin 2) * 8192 + 1 * q.val; rw [a1, o1]
    rw [e]
  · show V c main_v3 (((cfg0.win 1).blk t).view.emb (ix2 (0 : Fin 1) q))
      = V c main_v3 (ix2 (0 : Fin 1) (⟨((((cfg0.win 2).blk t).view.emb (ix2 p q)) 1).val, ((((cfg0.win 2).blk t).view.emb (ix2 p q)) 1).isLt⟩ : Fin 1007616))
    have e : ((cfg0.win 1).blk t).view.emb (ix2 (0 : Fin 1) q)
        = ix2 (0 : Fin 1) (⟨((((cfg0.win 2).blk t).view.emb (ix2 p q)) 1).val, ((((cfg0.win 2).blk t).view.emb (ix2 p q)) 1).isLt⟩ : Fin 1007616) := by
      funext a; apply Fin.ext
      match a with
      | ⟨0, _⟩ => show win0_1.index t (0 : Fin 2) * 1 + 1 * 0 = 0; rw [b0]
      | ⟨1, _⟩ => show win0_1.index t (1 : Fin 2) * 8192 + 1 * q.val = win0_2.index t (1 : Fin 2) * 8192 + 1 * q.val; rw [b1, o1]
    rw [e]

/-- An index of the output array is in point `t`'s block iff each coordinate is in the block's range on its axis. -/
theorem mem_blk (t : Fin cfg0.N) (i : S2x1007616.Idx) :
    i ∈ ((cfg0.win 2).blk t).view.set ↔ ∀ a : Fin 2, win0_2.index t a * S2x8192.size a ≤ (i a).val
      ∧ (i a).val < win0_2.index t a * S2x8192.size a + S2x8192.size a := by
  show i ∈ ((View.whole main_v5).slice (win0_2.rect t)).set ↔ _
  rw [View.set_slice_whole, Rect.mem_set_unit]
  exact Iff.rfl

/-- The 123 blocks of 8192 columns tile the 1007616 columns: column `j` is in the block of point `j / 8192`. -/
theorem cover (i : S2x1007616.Idx) :
    ∃ t : Fin cfg0.N, (cfg0.win 2).flush t = true ∧ i ∈ ((cfg0.win 2).blk t).view.set := by
  have h0 : (i 0).val < 2 := (i 0).isLt
  have h1 : (i 1).val < 1007616 := (i 1).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, -, -, -, o0, o1⟩ := idx_facts t
  refine ⟨t, flush0_2 t, ?_⟩
  rw [mem_blk]
  intro a
  match a with
  | ⟨0, _⟩ =>
    show win0_2.index t (0 : Fin 2) * 2 ≤ (i 0).val ∧ (i 0).val < win0_2.index t (0 : Fin 2) * 2 + 2
    rw [o0]; omega
  | ⟨1, _⟩ =>
    show win0_2.index t (1 : Fin 2) * 8192 ≤ (i 1).val ∧ (i 1).val < win0_2.index t (1 : Fin 2) * 8192 + 8192
    rw [o1, ht]; omega

/-- When the region is over the output array is the closed form of the two input arrays as the region found them. -/
theorem final0 (c : Dev nD) : (dat0 (F := Ideal) V c).arrAt 2 cfg0.N = maskedVals (V c main_v4) (V c main_v3) :=
  (dat0 (F := Ideal) V c).arrAt_eq_of_cover 2 (maskedVals (V c main_v4) (V c main_v3))
    (fun t _ => flushed_eq V c t) (fun i => cover i)

end Cert.KernelIdeal.RegionVals
end
-- ==== Proof.RegionScale.lean ====
/- The six scaling regions, read as one function of the arrays each finds.

   Regions 1 to 6 launch the same body over 123 grid points. At point `t` the body holds rows `8192 t … 8192 t + 8191` of a
   `[1007616, 1]` array of weights and of a `[1007616, 64]` array of rows, and stores, lane by lane, the row's entry times
   the row's weight (the weights' one column broadcast across the 64 lanes). The blocks tile the rows (`123 * 8192 = 1007616`),
   so when a region is over its output array is `scaled weights rows`: entry `(e, k)` is `rows (e, k) * weights (e, 0)`.

   Per region: the product at an index of a block (`payK_apply`, `pointK_eq`); where the windows' blocks sit (`idx_factsK`);
   what a point writes back is its block of `scaled` (`flushedK_eq`); which indices a block holds (`mem_blkK`); every index is
   in the block of point `row / 8192` (`coverK`); the array after the region (`finalK`). -/
import proofs.«162383_j26603027431988_2_alg».proof.Proof.KernelIdealFrame
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionScale
open Idealize.ShloMosaic Idealize.ShloMosaic.TcCoe Idealize.SL.Sem Idealize.ShloMosaic.ValueIdx
open Cert.KernelIdeal Cert.KernelIdeal.Gen Cert.KernelIdeal.GenP
variable (V : (c : Dev nD) → (b : Ref sig .tc) → Buf (Elt Ideal) ((c : Thread nD τ).loc b))

/-! ## The specification: every row of the table times that row's weight -/

/-- The rows `xg` scaled by the weights `vals`: entry `(e, k)` is `xg (e, k) * vals (e, 0)`. -/
def scaled (vals : S1007616x1.Idx → EReal) (xg : S1007616x64.Idx → EReal) : S1007616x64.Idx → EReal :=
  fun i => xg i * vals (ix2 (⟨(i 0).val, (i 0).isLt⟩ : Fin 1007616) (0 : Fin 1))

theorem scaled_apply (vals : S1007616x1.Idx → EReal) (xg : S1007616x64.Idx → EReal) (e : Fin 1007616) (k : Fin 64) :
    scaled vals xg (ix2 e k) = xg (ix2 e k) * vals (ix2 e (0 : Fin 1)) := rfl

/-! ## One point's arithmetic, over a block of 8192 rows -/

/-- The two zero offsets of a whole-block access, as the constant function. -/
theorem hz : (![0, 0] : Fin 2 → Nat) = fun _ => 0 := funext fun a => by fin_cases a <;> rfl

/-- A column `[a, 1]` broadcast across `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Region 1: rows `main_v16` times weights `main_v9` -/

/-- The body's product at row `p`, lane `q` of a block: the row's entry times the row's weight. -/
theorem pay1_apply (x1 : Vec Ideal S8192x64 .f32) (x0 : Vec Ideal S8192x1 .f32) (p : Fin 8192) (q : Fin 64) :
    k1_pay1 x1 x0 (ix2 p q) = x1 (ix2 p q) * x0 (ix2 p (0 : Fin 1)) := by
  unfold k1_pay1
  rw [mulf_apply, shapeCast_self, shapeCast_self, broadcastTo_a1_ab_apply]

/-- So, when the block's row `p` is row `i 0` of the arrays, the product at `(p, q)` is the scaled rows' entry `i`. -/
theorem point1_eq (vals : S1007616x1.Idx → EReal) (xg : S1007616x64.Idx → EReal)
    (x0 : Vec Ideal S8192x1 .f32) (x1 : Vec Ideal S8192x64 .f32) (p : Fin 8192) (q : Fin 64) (i : S1007616x64.Idx)
    (h1 : x1 (ix2 p q) = xg i)
    (h0 : x0 (ix2 p (0 : Fin 1)) = vals (ix2 (⟨(i 0).val, (i 0).isLt⟩ : Fin 1007616) (0 : Fin 1))) :
    k1_pay1 x1 x0 (ix2 p q) = scaled vals xg i := by
  rw [pay1_apply, h1, h0]; rfl

/-- Where the three windows' blocks sit, decided over the 123 grid points: point `t` holds rows
    `8192 t … 8192 t + 8191` of each array, all of its columns. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows. -/
theorem flushed1_eq (c : Dev nD) (t : Fin cfg1.N) :
    (dat1 (F := Ideal) V c).flushed 2 t
      = ((cfg1.win 2).blk t).view.read (Elt Ideal) (scaled (V c main_v9) (V c main_v16)) := by
  show (cfg1.win 2).cut (grid1.coords t) ((dat1 (F := Ideal) V c).after 2 t) = _
  rw [after1_2]
  unfold out1_2
  rw [View.canon_unit_zero hz]
  simp only [View.ld_unit_zero (S := S8192x64) hz, View.ld_unit_zero (S := S8192x1) hz]
  obtain ⟨e0, e1, e2, e3, e4, e5⟩ := idx_facts1 t
  funext j
  have hj0 : (j 0).val < 8192 := (j 0).isLt
  have hj1 : (j 1).val < 64 := (j 1).isLt
  show k1_pay1 (iblk1 V c 1 t) (iblk1 V c 0 t) ((cfg1.win 2).xinj (grid1.coords t) j)
    = scaled (V c main_v9) (V c main_v16) (((cfg1.win 2).blk t).view.emb j)
  have hx : ((cfg1.win 2).xinj (grid1.coords t) j : S8192x64.Idx)
      = ix2 (⟨(j 0).val, hj0⟩ : Fin 8192) (⟨(j 1).val, hj1⟩ : Fin 64) := by
    funext a; match a with | ⟨0, _⟩ => rfl | ⟨1, _⟩ => rfl
  rw [hx]
  refine point1_eq (V c main_v9) (V c main_v16) (iblk1 V c 0 t) (iblk1 V c 1 t) ⟨(j 0).val, hj0⟩ ⟨(j 1).val, hj1⟩
    (((cfg1.win 2).blk t).view.emb j) ?_ ?_
  · -- the rows' block at `t` and the output's lie over the same rows and columns
    show V c main_v16 (((cfg1.win 1).blk t).view.emb (ix2 (⟨(j 0).val, hj0⟩ : Fin 8192) (⟨(j 1).val, hj1⟩ : Fin 64)))
      = V c main_v16 (((cfg1.win 2).blk t).view.emb j)
    refine congrArg (V c main_v16) (funext fun a => Fin.ext ?_)
    match a with
    | ⟨0, _⟩ =>
      show win1_1.index t (0 : Fin 2) * 8192 + 1 * (j 0).val = win1_2.index t (0 : Fin 2) * 8192 + 1 * (j 0).val
      omega
    | ⟨1, _⟩ =>
      show win1_1.index t (1 : Fin 2) * 64 + 1 * (j 1).val = win1_2.index t (1 : Fin 2) * 64 + 1 * (j 1).val
      omega
  · -- the weights' block at `t` lies over the same rows, its one column
    show V c main_v9 (((cfg1.win 0).blk t).view.emb (ix2 (⟨(j 0).val, hj0⟩ : Fin 8192) (0 : Fin 1)))
      = V c main_v9 (ix2 (⟨((((cfg1.win 2).blk t).view.emb j) 0).val, ((((cfg1.win 2).blk t).view.emb j) 0).isLt⟩ : Fin 1007616) (0 : Fin 1))
    refine congrArg (V c main_v9) (funext fun a => Fin.ext ?_)
    match a with
    | ⟨0, _⟩ =>
      show win1_0.index t (0 : Fin 2) * 8192 + 1 * (j 0).val = win1_2.index t (0 : Fin 2) * 8192 + 1 * (j 0).val
      omega
    | ⟨1, _⟩ =>
      show win1_0.index t (1 : Fin 2) * 1 + 1 * 0 = 0
      omega

/-- An index of the output array is in point `t`'s block iff each coordinate is in the block's range on its axis. -/
theorem mem_blk1 (t : Fin cfg1.N) (i : S1007616x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v17).slice (win1_2.rect t)).set ↔ _
  rw [View.set_slice_whole, Rect.mem_set_unit]
  exact Iff.rfl

/-- The 123 blocks of 8192 rows tile the 1007616 rows: row `r` is in the block of point `r / 8192`. -/
theorem cover1 (i : S1007616x64.Idx) :
    ∃ t : Fin cfg1.N, (cfg1.win 2).flush t = true ∧ i ∈ ((cfg1.win 2).blk t).view.set := by
  have hi0 : (i 0).val < 1007616 := (i 0).isLt
  have hi1 : (i 1).val < 64 := (i 1).isLt
  have hN : cfg1.N = 123 := N_1
  obtain ⟨t, ht⟩ : ∃ t : Fin cfg1.N, t.val = (i 0).val / 8192 := ⟨⟨(i 0).val / 8192, by omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 8192 ≤ (i 0).val ∧ (i 0).val < win1_2.index t (0 : Fin 2) * 8192 + 8192
    omega
  | ⟨1, _⟩ =>
    show win1_2.index t (1 : Fin 2) * 64 ≤ (i 1).val ∧ (i 1).val < win1_2.index t (1 : Fin 2) * 64 + 64
    omega

/-- When region 1 is over, its output array holds the rows `main_v16` scaled by the weights `main_v9`. -/
theorem final1 (c : Dev nD) :
    (dat1 (F := Ideal) V c).arrAt 2 cfg1.N = scaled (V c main_v9) (V c main_v16) :=
  (dat1 (F := Ideal) V c).arrAt_eq_of_cover 2 (scaled (V c main_v9) (V c main_v16))
    (fun t _ => flushed1_eq V c t) cover1

/-! ## Region 2: rows `main_v28` times weights `main_v9` -/

/-- The body's product at row `p`, lane `q` of a block: the row's entry times the row's weight. -/
theorem pay2_apply (x1 : Vec Ideal S8192x64 .f32) (x0 : Vec Ideal S8192x1 .f32) (p : Fin 8192) (q : Fin 64) :
    k2_pay1 x1 x0 (ix2 p q) = x1 (ix2 p q) * x0 (ix2 p (0 : Fin 1)) := by
  unfold k2_pay1
  rw [mulf_apply, shapeCast_self, shapeCast_self, broadcastTo_a1_ab_apply]

/-- So, when the block's row `p` is row `i 0` of the arrays, the product at `(p, q)` is the scaled rows' entry `i`. -/
theorem point2_eq (vals : S1007616x1.Idx → EReal) (xg : S1007616x64.Idx → EReal)
    (x0 : Vec Ideal S8192x1 .f32) (x1 : Vec Ideal S8192x64 .f32) (p : Fin 8192) (q : Fin 64) (i : S1007616x64.Idx)
    (h1 : x1 (ix2 p q) = xg i)
    (h0 : x0 (ix2 p (0 : Fin 1)) = vals (ix2 (⟨(i 0).val, (i 0).isLt⟩ : Fin 1007616) (0 : Fin 1))) :
    k2_pay1 x1 x0 (ix2 p q) = scaled vals xg i := by
  rw [pay2_apply, h1, h0]; rfl

/-- Where the three windows' blocks sit, decided over the 123 grid points: point `t` holds rows
    `8192 t … 8192 t + 8191` of each array, all of its columns. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled rows. -/
theorem flushed2_eq (c : Dev nD) (t : Fin cfg2.N) :
    (dat2 (F := Ideal) V c).flushed 2 t
      = ((cfg2.win 2).blk t).view.read (Elt Ideal) (scaled (V c main_v9) (V c main_v28)) := by
  show (cfg2.win 2).cut (grid2.coords t) ((dat2 (F := Ideal) V c).after 2 t) = _
  rw [after2_2]
  unfold out2_2
  rw [View.canon_unit_zero hz]
  simp only [View.ld_unit_zero (S := S8192x64) hz, View.ld_unit_zero (S := S8192x1) hz]
  obtain ⟨e0, e1, e2, e3, e4, e5⟩ := idx_facts2 t
  funext j
  have hj0 : (j 0).val < 8192 := (j 0).isLt
  have hj1 : (j 1).val < 64 := (j 1).isLt
  show k2_pay1 (iblk2 V c 1 t) (iblk2 V c 0 t) ((cfg2.win 2).xinj (grid2.coords t) j)
    = scaled (V c main_v9) (V c main_v28) (((cfg2.win 2).blk t).view.emb j)
  have hx : ((cfg2.win 2).xinj (grid2.coords t) j : S8192x64.Idx)
      = ix2 (⟨(j 0).val, hj0⟩ : Fin 8192) (⟨(j 1).val, hj1⟩ : Fin 64) := by
    funext a; match a with | ⟨0, _⟩ => rfl | ⟨1, _⟩ => rfl
  rw [hx]
  refine point2_eq (V c main_v9) (V c main_v28) (iblk2 V c 0 t) (iblk2 V c 1 t) ⟨(j 0).val, hj0⟩ ⟨(j 1).val, hj1⟩
    (((cfg2.win 2).blk t).view.emb j) ?_ ?_
  · -- the rows' block at `t` and the output's lie over the same rows and columns
    show V c main_v28 (((cfg2.win 1).blk t).view.emb (ix2 (⟨(j 0).val, hj0⟩ : Fin 8192) (⟨(j 1).val, hj1⟩ : Fin 64)))
      = V c main_v28 (((cfg2.win 2).blk t).view.emb j)
    refine congrArg (V c main_v28) (funext fun a => Fin.ext ?_)
    match a with
    | ⟨0, _⟩ =>
      show win2_1.index t (0 : Fin 2) * 8192 + 1 * (j 0).val = win2_2.index t (0 : Fin 2) * 8192 + 1 * (j 0).val
      omega
    | ⟨1, _⟩ =>
      show win2_1.index t (1 : Fin 2) * 64 + 1 * (j 1).val = win2_2.index t (1 : Fin 2) * 64 + 1 * (j 1).val
      omega
  · -- the weights' block at `t` lies over the same rows, its one column
    show V c main_v9 (((cfg2.win 0).blk t).view.emb (ix2 (⟨(j 0).val, hj0⟩ : Fin 8192) (0 : Fin 1)))
      = V c main_v9 (ix2 (⟨((((cfg2.win 2).blk t).view.emb j) 0).val, ((((cfg2.win 2).blk t).view.emb j) 0).isLt⟩ : Fin 1007616) (0 : Fin 1))
    refine congrArg (V c main_v9) (funext fun a => Fin.ext ?_)
    match a with
    | ⟨0, _⟩ =>
      show win2_0.index t (0 : Fin 2) * 8192 + 1 * (j 0).val = win2_2.index t (0 : Fin 2) * 8192 + 1 * (j 0).val
      omega
    | ⟨1, _⟩ =>
      show win2_0.index t (1 : Fin 2) * 1 + 1 * 0 = 0
      omega

/-- An index of the output array is in point `t`'s block iff each coordinate is in the block's range on its axis. -/
theorem mem_blk2 (t : Fin cfg2.N) (i : S1007616x64.Idx) :
    i ∈ ((cfg2.win 2).blk t).view.set ↔ ∀ a : Fin 2, win2_2.index t a * S8192x64.size a ≤ (i a).val
      ∧ (i a).val < win2_2.index t a * S8192x64.size a + S8192x64.size a := by
  show i ∈ ((View.whole main_v29).slice (win2_2.rect t)).set ↔ _
  rw [View.set_slice_whole, Rect.mem_set_unit]
  exact Iff.rfl

/-- The 123 blocks of 8192 rows tile the 1007616 rows: row `r` is in the block of point `r / 8192`. -/
theorem cover2 (i : S1007616x64.Idx) :
    ∃ t : Fin cfg2.N, (cfg2.win 2).flush t = true ∧ i ∈ ((cfg2.win 2).blk t).view.set := by
  have hi0 : (i 0).val < 1007616 := (i 0).isLt
  have hi1 : (i 1).val < 64 := (i 1).isLt
  have hN : cfg2.N = 123 := N_2
  obtain ⟨t, ht⟩ : ∃ t : Fin cfg2.N, t.val = (i 0).val / 8192 := ⟨⟨(i 0).val / 8192, by omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 8192 ≤ (i 0).val ∧ (i 0).val < win2_2.index t (0 : Fin 2) * 8192 + 8192
    omega
  | ⟨1, _⟩ =>
    show win2_2.index t (1 : Fin 2) * 64 ≤ (i 1).val ∧ (i 1).val < win2_2.index t (1 : Fin 2) * 64 + 64
    omega

/-- When region 2 is over, its output array holds the rows `main_v28` scaled by the weights `main_v9`. -/
theorem final2 (c : Dev nD) :
    (dat2 (F := Ideal) V c).arrAt 2 cfg2.N = scaled (V c main_v9) (V c main_v28) :=
  (dat2 (F := Ideal) V c).arrAt_eq_of_cover 2 (scaled (V c main_v9) (V c main_v28))
    (fun t _ => flushed2_eq V c t) cover2

/-! ## Region 3: rows `main_v40` times weights `main_v9` -/

/-- The body's product at row `p`, lane `q` of a block: the row's entry times the row's weight. -/
theorem pay3_apply (x1 : Vec Ideal S8192x64 .f32) (x0 : Vec Ideal S8192x1 .f32) (p : Fin 8192) (q : Fin 64) :
    k3_pay1 x1 x0 (ix2 p q) = x1 (ix2 p q) * x0 (ix2 p (0 : Fin 1)) := by
  unfold k3_pay1
  rw [mulf_apply, shapeCast_self, shapeCast_self, broadcastTo_a1_ab_apply]

/-- So, when the block's row `p` is row `i 0` of the arrays, the product at `(p, q)` is the scaled rows' entry `i`. -/
theorem point3_eq (vals : S1007616x1.Idx → EReal) (xg : S1007616x64.Idx → EReal)
    (x0 : Vec Ideal S8192x1 .f32) (x1 : Vec Ideal S8192x64 .f32) (p : Fin 8192) (q : Fin 64) (i : S1007616x64.Idx)
    (h1 : x1 (ix2 p q) = xg i)
    (h0 : x0 (ix2 p (0 : Fin 1)) = vals (ix2 (⟨(i 0).val, (i 0).isLt⟩ : Fin 1007616) (0 : Fin 1))) :
    k3_pay1 x1 x0 (ix2 p q) = scaled vals xg i := by
  rw [pay3_apply, h1, h0]; rfl

/-- Where the three windows' blocks sit, decided over the 123 grid points: point `t` holds rows
    `8192 t … 8192 t + 8191` of each array, all of its columns. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the scaled rows. -/
theorem flushed3_eq (c : Dev nD) (t : Fin cfg3.N) :
    (dat3 (F := Ideal) V c).flushed 2 t
      = ((cfg3.win 2).blk t).view.read (Elt Ideal) (scaled (V c main_v9) (V c main_v40)) := by
  show (cfg3.win 2).cut (grid3.coords t) ((dat3 (F := Ideal) V c).after 2 t) = _
  rw [after3_2]
  unfold out3_2
  rw [View.canon_unit_zero hz]
  simp only [View.ld_unit_zero (S := S8192x64) hz, View.ld_unit_zero (S := S8192x1) hz]
  obtain ⟨e0, e1, e2, e3, e4, e5⟩ := idx_facts3 t
  funext j
  have hj0 : (j 0).val < 8192 := (j 0).isLt
  have hj1 : (j 1).val < 64 := (j 1).isLt
  show k3_pay1 (iblk3 V c 1 t) (iblk3 V c 0 t) ((cfg3.win 2).xinj (grid3.coords t) j)
    = scaled (V c main_v9) (V c main_v40) (((cfg3.win 2).blk t).view.emb j)
  have hx : ((cfg3.win 2).xinj (grid3.coords t) j : S8192x64.Idx)
      = ix2 (⟨(j 0).val, hj0⟩ : Fin 8192) (⟨(j 1).val, hj1⟩ : Fin 64) := by
    funext a; match a with | ⟨0, _⟩ => rfl | ⟨1, _⟩ => rfl
  rw [hx]
  refine point3_eq (V c main_v9) (V c main_v40) (iblk3 V c 0 t) (iblk3 V c 1 t) ⟨(j 0).val, hj0⟩ ⟨(j 1).val, hj1⟩
    (((cfg3.win 2).blk t).view.emb j) ?_ ?_
  · -- the rows' block at `t` and the output's lie over the same rows and columns
    show V c main_v40 (((cfg3.win 1).blk t).view.emb (ix2 (⟨(j 0).val, hj0⟩ : Fin 8192) (⟨(j 1).val, hj1⟩ : Fin 64)))
      = V c main_v40 (((cfg3.win 2).blk t).view.emb j)
    refine congrArg (V c main_v40) (funext fun a => Fin.ext ?_)
    match a with
    | ⟨0, _⟩ =>
      show win3_1.index t (0 : Fin 2) * 8192 + 1 * (j 0).val = win3_2.index t (0 : Fin 2) * 8192 + 1 * (j 0).val
      omega
    | ⟨1, _⟩ =>
      show win3_1.index t (1 : Fin 2) * 64 + 1 * (j 1).val = win3_2.index t (1 : Fin 2) * 64 + 1 * (j 1).val
      omega
  · -- the weights' block at `t` lies over the same rows, its one column
    show V c main_v9 (((cfg3.win 0).blk t).view.emb (ix2 (⟨(j 0).val, hj0⟩ : Fin 8192) (0 : Fin 1)))
      = V c main_v9 (ix2 (⟨((((cfg3.win 2).blk t).view.emb j) 0).val, ((((cfg3.win 2).blk t).view.emb j) 0).isLt⟩ : Fin 1007616) (0 : Fin 1))
    refine congrArg (V c main_v9) (funext fun a => Fin.ext ?_)
    match a with
    | ⟨0, _⟩ =>
      show win3_0.index t (0 : Fin 2) * 8192 + 1 * (j 0).val = win3_2.index t (0 : Fin 2) * 8192 + 1 * (j 0).val
      omega
    | ⟨1, _⟩ =>
      show win3_0.index t (1 : Fin 2) * 1 + 1 * 0 = 0
      omega

/-- An index of the output array is in point `t`'s block iff each coordinate is in the block's range on its axis. -/
theorem mem_blk3 (t : Fin cfg3.N) (i : S1007616x64.Idx) :
    i ∈ ((cfg3.win 2).blk t).view.set ↔ ∀ a : Fin 2, win3_2.index t a * S8192x64.size a ≤ (i a).val
      ∧ (i a).val < win3_2.index t a * S8192x64.size a + S8192x64.size a := by
  show i ∈ ((View.whole main_v41).slice (win3_2.rect t)).set ↔ _
  rw [View.set_slice_whole, Rect.mem_set_unit]
  exact Iff.rfl

/-- The 123 blocks of 8192 rows tile the 1007616 rows: row `r` is in the block of point `r / 8192`. -/
theorem cover3 (i : S1007616x64.Idx) :
    ∃ t : Fin cfg3.N, (cfg3.win 2).flush t = true ∧ i ∈ ((cfg3.win 2).blk t).view.set := by
  have hi0 : (i 0).val < 1007616 := (i 0).isLt
  have hi1 : (i 1).val < 64 := (i 1).isLt
  have hN : cfg3.N = 123 := N_3
  obtain ⟨t, ht⟩ : ∃ t : Fin cfg3.N, t.val = (i 0).val / 8192 := ⟨⟨(i 0).val / 8192, by omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 8192 ≤ (i 0).val ∧ (i 0).val < win3_2.index t (0 : Fin 2) * 8192 + 8192
    omega
  | ⟨1, _⟩ =>
    show win3_2.index t (1 : Fin 2) * 64 ≤ (i 1).val ∧ (i 1).val < win3_2.index t (1 : Fin 2) * 64 + 64
    omega

/-- When region 3 is over, its output array holds the rows `main_v40` scaled by the weights `main_v9`. -/
theorem final3 (c : Dev nD) :
    (dat3 (F := Ideal) V c).arrAt 2 cfg3.N = scaled (V c main_v9) (V c main_v40) :=
  (dat3 (F := Ideal) V c).arrAt_eq_of_cover 2 (scaled (V c main_v9) (V c main_v40))
    (fun t _ => flushed3_eq V c t) cover3

/-! ## Region 4: rows `main_v131` times weights `main_v124` -/

/-- The body's product at row `p`, lane `q` of a block: the row's entry times the row's weight. -/
theorem pay4_apply (x1 : Vec Ideal S8192x64 .f32) (x0 : Vec Ideal S8192x1 .f32) (p : Fin 8192) (q : Fin 64) :
    k4_pay1 x1 x0 (ix2 p q) = x1 (ix2 p q) * x0 (ix2 p (0 : Fin 1)) := by
  unfold k4_pay1
  rw [mulf_apply, shapeCast_self, shapeCast_self, broadcastTo_a1_ab_apply]

/-- So, when the block's row `p` is row `i 0` of the arrays, the product at `(p, q)` is the scaled rows' entry `i`. -/
theorem point4_eq (vals : S1007616x1.Idx → EReal) (xg : S1007616x64.Idx → EReal)
    (x0 : Vec Ideal S8192x1 .f32) (x1 : Vec Ideal S8192x64 .f32) (p : Fin 8192) (q : Fin 64) (i : S1007616x64.Idx)
    (h1 : x1 (ix2 p q) = xg i)
    (h0 : x0 (ix2 p (0 : Fin 1)) = vals (ix2 (⟨(i 0).val, (i 0).isLt⟩ : Fin 1007616) (0 : Fin 1))) :
    k4_pay1 x1 x0 (ix2 p q) = scaled vals xg i := by
  rw [pay4_apply, h1, h0]; rfl

/-- Where the three windows' blocks sit, decided over the 123 grid points: point `t` holds rows
    `8192 t … 8192 t + 8191` of each array, all of its columns. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled rows. -/
theorem flushed4_eq (c : Dev nD) (t : Fin cfg4.N) :
    (dat4 (F := Ideal) V c).flushed 2 t
      = ((cfg4.win 2).blk t).view.read (Elt Ideal) (scaled (V c main_v124) (V c main_v131)) := by
  show (cfg4.win 2).cut (grid4.coords t) ((dat4 (F := Ideal) V c).after 2 t) = _
  rw [after4_2]
  unfold out4_2
  rw [View.canon_unit_zero hz]
  simp only [View.ld_unit_zero (S := S8192x64) hz, View.ld_unit_zero (S := S8192x1) hz]
  obtain ⟨e0, e1, e2, e3, e4, e5⟩ := idx_facts4 t
  funext j
  have hj0 : (j 0).val < 8192 := (j 0).isLt
  have hj1 : (j 1).val < 64 := (j 1).isLt
  show k4_pay1 (iblk4 V c 1 t) (iblk4 V c 0 t) ((cfg4.win 2).xinj (grid4.coords t) j)
    = scaled (V c main_v124) (V c main_v131) (((cfg4.win 2).blk t).view.emb j)
  have hx : ((cfg4.win 2).xinj (grid4.coords t) j : S8192x64.Idx)
      = ix2 (⟨(j 0).val, hj0⟩ : Fin 8192) (⟨(j 1).val, hj1⟩ : Fin 64) := by
    funext a; match a with | ⟨0, _⟩ => rfl | ⟨1, _⟩ => rfl
  rw [hx]
  refine point4_eq (V c main_v124) (V c main_v131) (iblk4 V c 0 t) (iblk4 V c 1 t) ⟨(j 0).val, hj0⟩ ⟨(j 1).val, hj1⟩
    (((cfg4.win 2).blk t).view.emb j) ?_ ?_
  · -- the rows' block at `t` and the output's lie over the same rows and columns
    show V c main_v131 (((cfg4.win 1).blk t).view.emb (ix2 (⟨(j 0).val, hj0⟩ : Fin 8192) (⟨(j 1).val, hj1⟩ : Fin 64)))
      = V c main_v131 (((cfg4.win 2).blk t).view.emb j)
    refine congrArg (V c main_v131) (funext fun a => Fin.ext ?_)
    match a with
    | ⟨0, _⟩ =>
      show win4_1.index t (0 : Fin 2) * 8192 + 1 * (j 0).val = win4_2.index t (0 : Fin 2) * 8192 + 1 * (j 0).val
      omega
    | ⟨1, _⟩ =>
      show win4_1.index t (1 : Fin 2) * 64 + 1 * (j 1).val = win4_2.index t (1 : Fin 2) * 64 + 1 * (j 1).val
      omega
  · -- the weights' block at `t` lies over the same rows, its one column
    show V c main_v124 (((cfg4.win 0).blk t).view.emb (ix2 (⟨(j 0).val, hj0⟩ : Fin 8192) (0 : Fin 1)))
      = V c main_v124 (ix2 (⟨((((cfg4.win 2).blk t).view.emb j) 0).val, ((((cfg4.win 2).blk t).view.emb j) 0).isLt⟩ : Fin 1007616) (0 : Fin 1))
    refine congrArg (V c main_v124) (funext fun a => Fin.ext ?_)
    match a with
    | ⟨0, _⟩ =>
      show win4_0.index t (0 : Fin 2) * 8192 + 1 * (j 0).val = win4_2.index t (0 : Fin 2) * 8192 + 1 * (j 0).val
      omega
    | ⟨1, _⟩ =>
      show win4_0.index t (1 : Fin 2) * 1 + 1 * 0 = 0
      omega

/-- An index of the output array is in point `t`'s block iff each coordinate is in the block's range on its axis. -/
theorem mem_blk4 (t : Fin cfg4.N) (i : S1007616x64.Idx) :
    i ∈ ((cfg4.win 2).blk t).view.set ↔ ∀ a : Fin 2, win4_2.index t a * S8192x64.size a ≤ (i a).val
      ∧ (i a).val < win4_2.index t a * S8192x64.size a + S8192x64.size a := by
  show i ∈ ((View.whole main_v132).slice (win4_2.rect t)).set ↔ _
  rw [View.set_slice_whole, Rect.mem_set_unit]
  exact Iff.rfl

/-- The 123 blocks of 8192 rows tile the 1007616 rows: row `r` is in the block of point `r / 8192`. -/
theorem cover4 (i : S1007616x64.Idx) :
    ∃ t : Fin cfg4.N, (cfg4.win 2).flush t = true ∧ i ∈ ((cfg4.win 2).blk t).view.set := by
  have hi0 : (i 0).val < 1007616 := (i 0).isLt
  have hi1 : (i 1).val < 64 := (i 1).isLt
  have hN : cfg4.N = 123 := N_4
  obtain ⟨t, ht⟩ : ∃ t : Fin cfg4.N, t.val = (i 0).val / 8192 := ⟨⟨(i 0).val / 8192, by omega⟩, rfl⟩
  obtain ⟨-, -, -, -, e4, e5⟩ := idx_facts4 t
  refine ⟨t, flush4_2 t, ?_⟩
  rw [mem_blk4]
  intro a
  match a with
  | ⟨0, _⟩ =>
    show win4_2.index t (0 : Fin 2) * 8192 ≤ (i 0).val ∧ (i 0).val < win4_2.index t (0 : Fin 2) * 8192 + 8192
    omega
  | ⟨1, _⟩ =>
    show win4_2.index t (1 : Fin 2) * 64 ≤ (i 1).val ∧ (i 1).val < win4_2.index t (1 : Fin 2) * 64 + 64
    omega

/-- When region 4 is over, its output array holds the rows `main_v131` scaled by the weights `main_v124`. -/
theorem final4 (c : Dev nD) :
    (dat4 (F := Ideal) V c).arrAt 2 cfg4.N = scaled (V c main_v124) (V c main_v131) :=
  (dat4 (F := Ideal) V c).arrAt_eq_of_cover 2 (scaled (V c main_v124) (V c main_v131))
    (fun t _ => flushed4_eq V c t) cover4

/-! ## Region 5: rows `main_v143` times weights `main_v124` -/

/-- The body's product at row `p`, lane `q` of a block: the row's entry times the row's weight. -/
theorem pay5_apply (x1 : Vec Ideal S8192x64 .f32) (x0 : Vec Ideal S8192x1 .f32) (p : Fin 8192) (q : Fin 64) :
    k5_pay1 x1 x0 (ix2 p q) = x1 (ix2 p q) * x0 (ix2 p (0 : Fin 1)) := by
  unfold k5_pay1
  rw [mulf_apply, shapeCast_self, shapeCast_self, broadcastTo_a1_ab_apply]

/-- So, when the block's row `p` is row `i 0` of the arrays, the product at `(p, q)` is the scaled rows' entry `i`. -/
theorem point5_eq (vals : S1007616x1.Idx → EReal) (xg : S1007616x64.Idx → EReal)
    (x0 : Vec Ideal S8192x1 .f32) (x1 : Vec Ideal S8192x64 .f32) (p : Fin 8192) (q : Fin 64) (i : S1007616x64.Idx)
    (h1 : x1 (ix2 p q) = xg i)
    (h0 : x0 (ix2 p (0 : Fin 1)) = vals (ix2 (⟨(i 0).val, (i 0).isLt⟩ : Fin 1007616) (0 : Fin 1))) :
    k5_pay1 x1 x0 (ix2 p q) = scaled vals xg i := by
  rw [pay5_apply, h1, h0]; rfl

/-- Where the three windows' blocks sit, decided over the 123 grid points: point `t` holds rows
    `8192 t … 8192 t + 8191` of each array, all of its columns. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the scaled rows. -/
theorem flushed5_eq (c : Dev nD) (t : Fin cfg5.N) :
    (dat5 (F := Ideal) V c).flushed 2 t
      = ((cfg5.win 2).blk t).view.read (Elt Ideal) (scaled (V c main_v124) (V c main_v143)) := by
  show (cfg5.win 2).cut (grid5.coords t) ((dat5 (F := Ideal) V c).after 2 t) = _
  rw [after5_2]
  unfold out5_2
  rw [View.canon_unit_zero hz]
  simp only [View.ld_unit_zero (S := S8192x64) hz, View.ld_unit_zero (S := S8192x1) hz]
  obtain ⟨e0, e1, e2, e3, e4, e5⟩ := idx_facts5 t
  funext j
  have hj0 : (j 0).val < 8192 := (j 0).isLt
  have hj1 : (j 1).val < 64 := (j 1).isLt
  show k5_pay1 (iblk5 V c 1 t) (iblk5 V c 0 t) ((cfg5.win 2).xinj (grid5.coords t) j)
    = scaled (V c main_v124) (V c main_v143) (((cfg5.win 2).blk t).view.emb j)
  have hx : ((cfg5.win 2).xinj (grid5.coords t) j : S8192x64.Idx)
      = ix2 (⟨(j 0).val, hj0⟩ : Fin 8192) (⟨(j 1).val, hj1⟩ : Fin 64) := by
    funext a; match a with | ⟨0, _⟩ => rfl | ⟨1, _⟩ => rfl
  rw [hx]
  refine point5_eq (V c main_v124) (V c main_v143) (iblk5 V c 0 t) (iblk5 V c 1 t) ⟨(j 0).val, hj0⟩ ⟨(j 1).val, hj1⟩
    (((cfg5.win 2).blk t).view.emb j) ?_ ?_
  · -- the rows' block at `t` and the output's lie over the same rows and columns
    show V c main_v143 (((cfg5.win 1).blk t).view.emb (ix2 (⟨(j 0).val, hj0⟩ : Fin 8192) (⟨(j 1).val, hj1⟩ : Fin 64)))
      = V c main_v143 (((cfg5.win 2).blk t).view.emb j)
    refine congrArg (V c main_v143) (funext fun a => Fin.ext ?_)
    match a with
    | ⟨0, _⟩ =>
      show win5_1.index t (0 : Fin 2) * 8192 + 1 * (j 0).val = win5_2.index t (0 : Fin 2) * 8192 + 1 * (j 0).val
      omega
    | ⟨1, _⟩ =>
      show win5_1.index t (1 : Fin 2) * 64 + 1 * (j 1).val = win5_2.index t (1 : Fin 2) * 64 + 1 * (j 1).val
      omega
  · -- the weights' block at `t` lies over the same rows, its one column
    show V c main_v124 (((cfg5.win 0).blk t).view.emb (ix2 (⟨(j 0).val, hj0⟩ : Fin 8192) (0 : Fin 1)))
      = V c main_v124 (ix2 (⟨((((cfg5.win 2).blk t).view.emb j) 0).val, ((((cfg5.win 2).blk t).view.emb j) 0).isLt⟩ : Fin 1007616) (0 : Fin 1))
    refine congrArg (V c main_v124) (funext fun a => Fin.ext ?_)
    match a with
    | ⟨0, _⟩ =>
      show win5_0.index t (0 : Fin 2) * 8192 + 1 * (j 0).val = win5_2.index t (0 : Fin 2) * 8192 + 1 * (j 0).val
      omega
    | ⟨1, _⟩ =>
      show win5_0.index t (1 : Fin 2) * 1 + 1 * 0 = 0
      omega

/-- An index of the output array is in point `t`'s block iff each coordinate is in the block's range on its axis. -/
theorem mem_blk5 (t : Fin cfg5.N) (i : S1007616x64.Idx) :
    i ∈ ((cfg5.win 2).blk t).view.set ↔ ∀ a : Fin 2, win5_2.index t a * S8192x64.size a ≤ (i a).val
      ∧ (i a).val < win5_2.index t a * S8192x64.size a + S8192x64.size a := by
  show i ∈ ((View.whole main_v144).slice (win5_2.rect t)).set ↔ _
  rw [View.set_slice_whole, Rect.mem_set_unit]
  exact Iff.rfl

/-- The 123 blocks of 8192 rows tile the 1007616 rows: row `r` is in the block of point `r / 8192`. -/
theorem cover5 (i : S1007616x64.Idx) :
    ∃ t : Fin cfg5.N, (cfg5.win 2).flush t = true ∧ i ∈ ((cfg5.win 2).blk t).view.set := by
  have hi0 : (i 0).val < 1007616 := (i 0).isLt
  have hi1 : (i 1).val < 64 := (i 1).isLt
  have hN : cfg5.N = 123 := N_5
  obtain ⟨t, ht⟩ : ∃ t : Fin cfg5.N, t.val = (i 0).val / 8192 := ⟨⟨(i 0).val / 8192, by omega⟩, rfl⟩
  obtain ⟨-, -, -, -, e4, e5⟩ := idx_facts5 t
  refine ⟨t, flush5_2 t, ?_⟩
  rw [mem_blk5]
  intro a
  match a with
  | ⟨0, _⟩ =>
    show win5_2.index t (0 : Fin 2) * 8192 ≤ (i 0).val ∧ (i 0).val < win5_2.index t (0 : Fin 2) * 8192 + 8192
    omega
  | ⟨1, _⟩ =>
    show win5_2.index t (1 : Fin 2) * 64 ≤ (i 1).val ∧ (i 1).val < win5_2.index t (1 : Fin 2) * 64 + 64
    omega

/-- When region 5 is over, its output array holds the rows `main_v143` scaled by the weights `main_v124`. -/
theorem final5 (c : Dev nD) :
    (dat5 (F := Ideal) V c).arrAt 2 cfg5.N = scaled (V c main_v124) (V c main_v143) :=
  (dat5 (F := Ideal) V c).arrAt_eq_of_cover 2 (scaled (V c main_v124) (V c main_v143))
    (fun t _ => flushed5_eq V c t) cover5

/-! ## Region 6: rows `main_v155` times weights `main_v124` -/

/-- The body's product at row `p`, lane `q` of a block: the row's entry times the row's weight. -/
theorem pay6_apply (x1 : Vec Ideal S8192x64 .f32) (x0 : Vec Ideal S8192x1 .f32) (p : Fin 8192) (q : Fin 64) :
    k6_pay1 x1 x0 (ix2 p q) = x1 (ix2 p q) * x0 (ix2 p (0 : Fin 1)) := by
  unfold k6_pay1
  rw [mulf_apply, shapeCast_self, shapeCast_self, broadcastTo_a1_ab_apply]

/-- So, when the block's row `p` is row `i 0` of the arrays, the product at `(p, q)` is the scaled rows' entry `i`. -/
theorem point6_eq (vals : S1007616x1.Idx → EReal) (xg : S1007616x64.Idx → EReal)
    (x0 : Vec Ideal S8192x1 .f32) (x1 : Vec Ideal S8192x64 .f32) (p : Fin 8192) (q : Fin 64) (i : S1007616x64.Idx)
    (h1 : x1 (ix2 p q) = xg i)
    (h0 : x0 (ix2 p (0 : Fin 1)) = vals (ix2 (⟨(i 0).val, (i 0).isLt⟩ : Fin 1007616) (0 : Fin 1))) :
    k6_pay1 x1 x0 (ix2 p q) = scaled vals xg i := by
  rw [pay6_apply, h1, h0]; rfl

/-- Where the three windows' blocks sit, decided over the 123 grid points: point `t` holds rows
    `8192 t … 8192 t + 8191` of each array, all of its columns. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the scaled rows. -/
theorem flushed6_eq (c : Dev nD) (t : Fin cfg6.N) :
    (dat6 (F := Ideal) V c).flushed 2 t
      = ((cfg6.win 2).blk t).view.read (Elt Ideal) (scaled (V c main_v124) (V c main_v155)) := by
  show (cfg6.win 2).cut (grid6.coords t) ((dat6 (F := Ideal) V c).after 2 t) = _
  rw [after6_2]
  unfold out6_2
  rw [View.canon_unit_zero hz]
  simp only [View.ld_unit_zero (S := S8192x64) hz, View.ld_unit_zero (S := S8192x1) hz]
  obtain ⟨e0, e1, e2, e3, e4, e5⟩ := idx_facts6 t
  funext j
  have hj0 : (j 0).val < 8192 := (j 0).isLt
  have hj1 : (j 1).val < 64 := (j 1).isLt
  show k6_pay1 (iblk6 V c 1 t) (iblk6 V c 0 t) ((cfg6.win 2).xinj (grid6.coords t) j)
    = scaled (V c main_v124) (V c main_v155) (((cfg6.win 2).blk t).view.emb j)
  have hx : ((cfg6.win 2).xinj (grid6.coords t) j : S8192x64.Idx)
      = ix2 (⟨(j 0).val, hj0⟩ : Fin 8192) (⟨(j 1).val, hj1⟩ : Fin 64) := by
    funext a; match a with | ⟨0, _⟩ => rfl | ⟨1, _⟩ => rfl
  rw [hx]
  refine point6_eq (V c main_v124) (V c main_v155) (iblk6 V c 0 t) (iblk6 V c 1 t) ⟨(j 0).val, hj0⟩ ⟨(j 1).val, hj1⟩
    (((cfg6.win 2).blk t).view.emb j) ?_ ?_
  · -- the rows' block at `t` and the output's lie over the same rows and columns
    show V c main_v155 (((cfg6.win 1).blk t).view.emb (ix2 (⟨(j 0).val, hj0⟩ : Fin 8192) (⟨(j 1).val, hj1⟩ : Fin 64)))
      = V c main_v155 (((cfg6.win 2).blk t).view.emb j)
    refine congrArg (V c main_v155) (funext fun a => Fin.ext ?_)
    match a with
    | ⟨0, _⟩ =>
      show win6_1.index t (0 : Fin 2) * 8192 + 1 * (j 0).val = win6_2.index t (0 : Fin 2) * 8192 + 1 * (j 0).val
      omega
    | ⟨1, _⟩ =>
      show win6_1.index t (1 : Fin 2) * 64 + 1 * (j 1).val = win6_2.index t (1 : Fin 2) * 64 + 1 * (j 1).val
      omega
  · -- the weights' block at `t` lies over the same rows, its one column
    show V c main_v124 (((cfg6.win 0).blk t).view.emb (ix2 (⟨(j 0).val, hj0⟩ : Fin 8192) (0 : Fin 1)))
      = V c main_v124 (ix2 (⟨((((cfg6.win 2).blk t).view.emb j) 0).val, ((((cfg6.win 2).blk t).view.emb j) 0).isLt⟩ : Fin 1007616) (0 : Fin 1))
    refine congrArg (V c main_v124) (funext fun a => Fin.ext ?_)
    match a with
    | ⟨0, _⟩ =>
      show win6_0.index t (0 : Fin 2) * 8192 + 1 * (j 0).val = win6_2.index t (0 : Fin 2) * 8192 + 1 * (j 0).val
      omega
    | ⟨1, _⟩ =>
      show win6_0.index t (1 : Fin 2) * 1 + 1 * 0 = 0
      omega

/-- An index of the output array is in point `t`'s block iff each coordinate is in the block's range on its axis. -/
theorem mem_blk6 (t : Fin cfg6.N) (i : S1007616x64.Idx) :
    i ∈ ((cfg6.win 2).blk t).view.set ↔ ∀ a : Fin 2, win6_2.index t a * S8192x64.size a ≤ (i a).val
      ∧ (i a).val < win6_2.index t a * S8192x64.size a + S8192x64.size a := by
  show i ∈ ((View.whole main_v156).slice (win6_2.rect t)).set ↔ _
  rw [View.set_slice_whole, Rect.mem_set_unit]
  exact Iff.rfl

/-- The 123 blocks of 8192 rows tile the 1007616 rows: row `r` is in the block of point `r / 8192`. -/
theorem cover6 (i : S1007616x64.Idx) :
    ∃ t : Fin cfg6.N, (cfg6.win 2).flush t = true ∧ i ∈ ((cfg6.win 2).blk t).view.set := by
  have hi0 : (i 0).val < 1007616 := (i 0).isLt
  have hi1 : (i 1).val < 64 := (i 1).isLt
  have hN : cfg6.N = 123 := N_6
  obtain ⟨t, ht⟩ : ∃ t : Fin cfg6.N, t.val = (i 0).val / 8192 := ⟨⟨(i 0).val / 8192, by omega⟩, rfl⟩
  obtain ⟨-, -, -, -, e4, e5⟩ := idx_facts6 t
  refine ⟨t, flush6_2 t, ?_⟩
  rw [mem_blk6]
  intro a
  match a with
  | ⟨0, _⟩ =>
    show win6_2.index t (0 : Fin 2) * 8192 ≤ (i 0).val ∧ (i 0).val < win6_2.index t (0 : Fin 2) * 8192 + 8192
    omega
  | ⟨1, _⟩ =>
    show win6_2.index t (1 : Fin 2) * 64 ≤ (i 1).val ∧ (i 1).val < win6_2.index t (1 : Fin 2) * 64 + 64
    omega

/-- When region 6 is over, its output array holds the rows `main_v155` scaled by the weights `main_v124`. -/
theorem final6 (c : Dev nD) :
    (dat6 (F := Ideal) V c).arrAt 2 cfg6.N = scaled (V c main_v124) (V c main_v155) :=
  (dat6 (F := Ideal) V c).arrAt_eq_of_cover 2 (scaled (V c main_v124) (V c main_v155))
    (fun t _ => flushed6_eq V c t) cover6

end Cert.KernelIdeal.RegionScale
end
-- ==== Proof.ValsBridge.lean ====
import proofs.«162383_j26603027431988_2_alg».proof.KernelIdeal
import proofs.«162383_j26603027431988_2_alg».proof.ReferenceIdeal
import proofs.«162383_j26603027431988_2_alg».proof.Proof.RegionVals
import Idealize.ShloMosaic.Lib.ValueIdx
import Idealize.ShloMosaic.Lib.Pipeline.Value
import Idealize.ShloMosaic.Lib.ValueLayout
import Idealize.ShloMosaic.PureOps.Ideal

noncomputable section
namespace Cert.ValsBridge
open Idealize.ShloMosaic Idealize.ShloMosaic.ValueIdx
open Cert.KernelIdeal.RegionVals (maskedVals keepWord)

/-! # The kernel's edge weights are the reference's

The kernel program computes `⌊draw + keep⌋ · value / keep` on padded arrays and masks the padded columns to 0; the
reference computes `value · ⌊draw + keep⌋ / keep` on the unpadded ones, one row of draws at a time. On the real
columns the two agree by commutativity of the product of extended reals, the keep probability being the same
unevaluated float word on both sides; on the padded columns the kernel's value is 0 whatever the padding holds. -/

variable [Cert.KernelIdeal.Facts] [Cert.ReferenceIdeal.Facts]
variable (a6 : FVec Ideal Cert.ReferenceIdeal.S1000000 .f32) (a7 : FVec Ideal Cert.ReferenceIdeal.S2x1000000 .f32)
  (dropP : Cert.KernelIdeal.S2x1007616.Idx → EReal) (valP : Cert.KernelIdeal.S1x1007616.Idx → EReal)

/-- Row `k` of the kernel's masked values, on a real column `e`, is the reference's weight at `e` computed from the
    row of draws cut out at offset `o = k`. -/
theorem row_at
    (hdrop : ∀ (k : Fin 2) (e : Fin 1007616) (h : e.val < 1000000), dropP (ix2 k e) = a7 (ix2 k (⟨e.val, h⟩ : Fin 1000000)))
    (hval : ∀ (e : Fin 1007616) (h : e.val < 1000000), valP (ix2 (0 : Fin 1) e) = a6 (ix1 (⟨e.val, h⟩ : Fin 1000000)))
    (o : Nat) (k : Fin 2) (hk : k.val = o)
    (hs : Cert.ReferenceIdeal.S2x1000000.Slices ![o, 0] Cert.ReferenceIdeal.S1x1000000)
    (e : Fin 1007616) (h : e.val < 1000000) :
    maskedVals dropP valP (ix2 k e)
      = (Host.divf (F := Ideal) (mulf a6 (Host.floor (F := Ideal) (addf
          (shapeCast _ (extractStridedSlice Cert.ReferenceIdeal.S1x1000000 ![o, 0] a7 hs)
            Cert.ReferenceIdeal.Facts₀.shapeCasts_S1x1000000_S1000000)
          (broadcastInDim Cert.ReferenceIdeal.S1000000 ![] Cert.ReferenceIdeal.Facts₀.bcast_S_S1000000
            (constant (F := Ideal) Cert.ReferenceIdeal.S_ .f32 0x3F4CCCCD#32)))))
          (broadcastInDim Cert.ReferenceIdeal.S1000000 ![] Cert.ReferenceIdeal.Facts₀.bcast_S_S1000000
            (constant (F := Ideal) Cert.ReferenceIdeal.S_ .f32 0x3F4CCCCD#32))) (ix1 (⟨e.val, h⟩ : Fin 1000000)) := by
  have es : shapeCast Cert.ReferenceIdeal.S1000000 (extractStridedSlice Cert.ReferenceIdeal.S1x1000000 ![o, 0] a7 hs)
      Cert.ReferenceIdeal.Facts₀.shapeCasts_S1x1000000_S1000000 (ix1 (⟨e.val, h⟩ : Fin 1000000))
      = a7 (ix2 k (⟨e.val, h⟩ : Fin 1000000)) :=
    (shapeCast_1a_a_apply _ _ _).trans
      (slice2_axis0_apply o a7 hs (0 : Fin 1) (⟨e.val, h⟩ : Fin 1000000) k (by rw [hk]; rfl))
  show (if e.val < 1000000 then
        Ideal.div (Ideal.liftRound Int.floor (dropP (ix2 k e) + keepWord) * valP (ix2 (0 : Fin 1) e)) keepWord
      else 0)
    = Ideal.div (a6 (ix1 (⟨e.val, h⟩ : Fin 1000000)) * Ideal.liftRound Int.floor
        (shapeCast Cert.ReferenceIdeal.S1000000 (extractStridedSlice Cert.ReferenceIdeal.S1x1000000 ![o, 0] a7 hs)
          Cert.ReferenceIdeal.Facts₀.shapeCasts_S1x1000000_S1000000 (ix1 (⟨e.val, h⟩ : Fin 1000000)) + keepWord)) keepWord
  rw [if_pos h, es, hdrop k e h, hval e h, mul_comm]

/-- Row 0 on a real column: the reference's weights from the first row of draws. -/
theorem row0
    (hdrop : ∀ (k : Fin 2) (e : Fin 1007616) (h : e.val < 1000000), dropP (ix2 k e) = a7 (ix2 k (⟨e.val, h⟩ : Fin 1000000)))
    (hval : ∀ (e : Fin 1007616) (h : e.val < 1000000), valP (ix2 (0 : Fin 1) e) = a6 (ix1 (⟨e.val, h⟩ : Fin 1000000)))
    (e : Fin 1007616) (h : e.val < 1000000) :
    maskedVals dropP valP (ix2 (0 : Fin 2) e)
      = (Host.divf (F := Ideal) (mulf a6 (Host.floor (F := Ideal) (addf
          (shapeCast _ (extractStridedSlice Cert.ReferenceIdeal.S1x1000000 ![0, 0] a7
            Cert.ReferenceIdeal.Facts₀.slices_S2x1000000_S1x1000000_0_0)
            Cert.ReferenceIdeal.Facts₀.shapeCasts_S1x1000000_S1000000)
          (broadcastInDim Cert.ReferenceIdeal.S1000000 ![] Cert.ReferenceIdeal.Facts₀.bcast_S_S1000000
            (constant (F := Ideal) Cert.ReferenceIdeal.S_ .f32 0x3F4CCCCD#32)))))
          (broadcastInDim Cert.ReferenceIdeal.S1000000 ![] Cert.ReferenceIdeal.Facts₀.bcast_S_S1000000
            (constant (F := Ideal) Cert.ReferenceIdeal.S_ .f32 0x3F4CCCCD#32))) (ix1 (⟨e.val, h⟩ : Fin 1000000)) :=
  row_at a6 a7 dropP valP hdrop hval 0 (0 : Fin 2) rfl Cert.ReferenceIdeal.Facts₀.slices_S2x1000000_S1x1000000_0_0 e h

/-- Row 1 on a real column: the reference's weights from the second row of draws. -/
theorem row1
    (hdrop : ∀ (k : Fin 2) (e : Fin 1007616) (h : e.val < 1000000), dropP (ix2 k e) = a7 (ix2 k (⟨e.val, h⟩ : Fin 1000000)))
    (hval : ∀ (e : Fin 1007616) (h : e.val < 1000000), valP (ix2 (0 : Fin 1) e) = a6 (ix1 (⟨e.val, h⟩ : Fin 1000000)))
    (e : Fin 1007616) (h : e.val < 1000000) :
    maskedVals dropP valP (ix2 (1 : Fin 2) e)
      = (Host.divf (F := Ideal) (mulf a6 (Host.floor (F := Ideal) (addf
          (shapeCast _ (extractStridedSlice Cert.ReferenceIdeal.S1x1000000 ![1, 0] a7
            Cert.ReferenceIdeal.Facts₀.slices_S2x1000000_S1x1000000_1_0)
            Cert.ReferenceIdeal.Facts₀.shapeCasts_S1x1000000_S1000000)
          (broadcastInDim Cert.ReferenceIdeal.S1000000 ![] Cert.ReferenceIdeal.Facts₀.bcast_S_S1000000
            (constant (F := Ideal) Cert.ReferenceIdeal.S_ .f32 0x3F4CCCCD#32)))))
          (broadcastInDim Cert.ReferenceIdeal.S1000000 ![] Cert.ReferenceIdeal.Facts₀.bcast_S_S1000000
            (constant (F := Ideal) Cert.ReferenceIdeal.S_ .f32 0x3F4CCCCD#32))) (ix1 (⟨e.val, h⟩ : Fin 1000000)) :=
  row_at a6 a7 dropP valP hdrop hval 1 (1 : Fin 2) rfl Cert.ReferenceIdeal.Facts₀.slices_S2x1000000_S1x1000000_1_0 e h

/-- A padded column holds 0 in both rows, whatever the padded entries of the two arrays are. -/
theorem tail (k : Fin 2) (e : Fin 1007616) (h : 1000000 ≤ e.val) : maskedVals dropP valP (ix2 k e) = 0 := by
  show (if e.val < 1000000 then _ else (0 : EReal)) = 0
  exact if_neg (by omega)

end Cert.ValsBridge
end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibLanding.lean ====
/-
  The set of updates of an accumulating scatter that land on a given operand entry, named once.

  The exact scatter on the extended reals is "the operand's entry plus the sum of the updates whose result index is
  that entry". The set is stated here for ANY shapes and dimension record, so that it is spelt exactly as in the
  operation's definition; statements about a particular scatter then speak of landing d idx i and of membership in
  it, and never spell the set again at their own shapes.
-/
import Idealize.ShloMosaic.PureOps.Ideal

noncomputable section

namespace Cert.LibLanding

open Idealize.ShloMosaic
open scoped BigOperators

/-- The updates that land on the operand entry i. -/
def landing {s si su : Shape} (d : ScatterDims s si su) {w : Nat} (idx : IVec si w) (i : s.Idx) : Finset su.Idx :=
  Finset.univ.filter (fun j => d.resultIdx? j idx = some i)

/-- An update is in the set exactly when its result index is the entry. -/
theorem mem_landing {s si su : Shape} (d : ScatterDims s si su) {w : Nat} (idx : IVec si w) (i : s.Idx) (j : su.Idx) :
    j ∈ landing d idx i ↔ d.resultIdx? j idx = some i := by
  unfold landing
  rw [Finset.mem_filter]
  exact ⟨fun h => h.2, fun h => ⟨Finset.mem_univ _, h⟩⟩

/-- The exact accumulating scatter at an entry: the operand's entry plus the sum of the updates landing there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ landing d idx i, upd j := rfl

/-- The same for the host operation at the exact instance. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ landing d idx i, upd j := rfl

end Cert.LibLanding

end
-- ==== Proof.LibSegmentSum.lean ====
/-
  A segment sum read at an entry as a sum over the edges, and the algebra that moves a projection across a mean
  aggregation. Nothing here mentions a program; any extents.

  * An accumulating scatter of update rows [E, C] into a matrix [N, C] by an [E, 1] table of row numbers is, at
    entry (n, q), the operand's entry plus the sum over the edges e of the update (e, q) when the table word of e,
    read signed, is n, and of 0 otherwise: an update (e, k) lands on (n, q) exactly when the word is n and k = q, so
    of the double sum over (e, k) only the column k = q is left. The same for updates [E] into a vector [N].
  * For real numbers h e k, w k, d (as extended reals) and a test P on the edges,
      sum_k ((sum_{e : P e} h e k) * d) * w k = (sum_{e : P e} sum_k h e k * w k) * d :
    both sides are the coercion of one real number, and the real identity is an exchange of two finite sums and
    commutativity. It is stated with an added z = 0 in front of each aggregate (the entry the aggregate starts
    from), and also for extended reals that are only known to be real.
  * The two together, in the spelling of the operations: with P = H * Wp (a contraction over the columns of H),
    "gather the rows of P by a table, sum them into segments by another table, scale by d" is, entry by entry, the
    projection by Wp of "gather the rows of H, sum them into segments, scale by d", when H, Wp and d are real.
-/
import Idealize.ShloMosaic.PureOps.Ideal
import Idealize.ShloMosaic.Lib.ValueIdx
import proofs.«162383_j26603027431988_2_alg».proof.Proof.LibRowTable
import proofs.«162383_j26603027431988_2_alg».proof.Proof.LibLanding

noncomputable section

namespace Cert.LibSegmentSum

open Idealize.ShloMosaic Idealize.ShloMosaic.ValueIdx
open Cert.LibRowTable Cert.LibLanding
open scoped BigOperators

/-! ## A segment sum at an entry -/

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update rows [E, C] scattered with accumulation into a matrix [N, C]: entry (n, q) is the operand's entry plus
    the sum over the edges whose table word, read signed, is n, of the update's column q. -/
theorem scatterRows_sum {N C E w : Nat} (wf : ScatterDims.WF ⟨2, ![N, C]⟩ ⟨2, ![E, 1]⟩ ⟨2, ![E, C]⟩ [1] [0] [0] 1)
    {φ : FTy} (x : FVec Ideal ⟨2, ![N, C]⟩ φ) (idx : IVec ⟨2, ![E, 1]⟩ w) (u : FVec Ideal ⟨2, ![E, C]⟩ φ)
    (n : Fin N) (q : Fin C) :
    Host.scatterAdd (F := Ideal) (scatterRows N C E wf) x idx u (ix2 n q)
      = x (ix2 n q) + ∑ e : Fin E, if (idx (ix2 e (0 : Fin 1))).toInt = (n.val : Int) then u (ix2 e q) else 0 := by
  rw [scatterAdd_apply]
  congr 1
  unfold landing
  rw [Finset.sum_filter, sum_idx2]
  refine Finset.sum_congr rfl fun e _ => ?_
  simp only [scatterRows_lands]
  by_cases h : (idx (ix2 e (0 : Fin 1))).toInt = (n.val : Int)
  · simp only [h, true_and, if_true]
    rw [Finset.sum_ite_eq' Finset.univ q (fun k => u (ix2 e k))]
    simp
  · simp [h]

/-- Updates [E] scattered with accumulation into a vector [N]: entry n is the operand's entry plus the sum of the
    updates of the edges whose table word, read signed, is n. -/
theorem scatterVec_sum {N E w : Nat} (wf : ScatterDims.WF ⟨1, ![N]⟩ ⟨2, ![E, 1]⟩ ⟨1, ![E]⟩ [] [0] [0] 1)
    {φ : FTy} (x : FVec Ideal ⟨1, ![N]⟩ φ) (idx : IVec ⟨2, ![E, 1]⟩ w) (u : FVec Ideal ⟨1, ![E]⟩ φ) (n : Fin N) :
    Host.scatterAdd (F := Ideal) (scatterVec N E wf) x idx u (ix1 n)
      = x (ix1 n) + ∑ e : Fin E, if (idx (ix2 e (0 : Fin 1))).toInt = (n.val : Int) then u (ix1 e) else 0 := by
  rw [scatterAdd_apply]
  congr 1
  unfold landing
  rw [Finset.sum_filter, sum_idx1]
  refine Finset.sum_congr rfl fun e _ => ?_
  simp only [scatterVec_lands]

/-! ## A projection moved across a mean aggregation -/

/-- A finite sum of real numbers, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a coerced real and 0 is the coercion of the choice. -/
theorem ite_coe (p : Prop) [Decidable p] (a : ℝ) : (if p then (a : EReal) else 0) = ((if p then a else 0 : ℝ) : EReal) := by
  split_ifs <;> simp

/-- The real identity: the weighted sum over k of the scaled aggregate is the scaled aggregate of the weighted sums. -/
theorem project_mean_real {E K : Type*} [Fintype E] [Fintype K] (P : E → Prop) [DecidablePred P] (h : E → K → ℝ)
    (w : K → ℝ) (d : ℝ) :
    ∑ k : K, ((∑ e : E, if P e then h e k else 0) * d) * w k
      = (∑ e : E, if P e then (∑ k : K, h e k * w k) else 0) * d := by
  simp only [Finset.sum_mul]
  rw [Finset.sum_comm]
  refine Finset.sum_congr rfl fun e _ => ?_
  by_cases hp : P e
  · simp only [hp, if_true, Finset.sum_mul]
    exact Finset.sum_congr rfl fun k _ => by ring
  · simp [hp]

/-- The same on real numbers inside the extended reals, each aggregate started from an entry z that is 0. -/
theorem project_mean {E K : Type*} [Fintype E] [Fintype K] (P : E → Prop) [DecidablePred P] (h : E → K → ℝ)
    (w : K → ℝ) (d : ℝ) (z : EReal) (hz : z = 0) :
    ∑ k : K, ((z + ∑ e : E, if P e then ((h e k : ℝ) : EReal) else 0) * (d : EReal)) * ((w k : ℝ) : EReal)
      = (z + ∑ e : E, if P e then (∑ k : K, ((h e k : ℝ) : EReal) * ((w k : ℝ) : EReal)) else 0) * (d : EReal) := by
  subst hz
  simp only [zero_add, ← EReal.coe_mul, ← coe_sum, ite_coe]
  rw [project_mean_real P h w d]

/-- The same for extended reals that are only known to be real. -/
theorem project_mean' {E K : Type*} [Fintype E] [Fintype K] (P : E → Prop) [DecidablePred P] (H : E → K → EReal)
    (W : K → EReal) (D : EReal) (z : EReal) (hH : ∀ e k, ∃ r : ℝ, H e k = (r : EReal)) (hW : ∀ k, ∃ r : ℝ, W k = (r : EReal))
    (hD : ∃ r : ℝ, D = (r : EReal)) (hz : z = 0) :
    ∑ k : K, ((z + ∑ e : E, if P e then H e k else 0) * D) * W k
      = (z + ∑ e : E, if P e then (∑ k : K, H e k * W k) else 0) * D := by
  choose h hh using hH
  choose w hw using hW
  obtain ⟨d, rfl⟩ := hD
  obtain rfl : H = fun e k => ((h e k : ℝ) : EReal) := funext fun e => funext fun k => hh e k
  obtain rfl : W = fun k => ((w k : ℝ) : EReal) := funext hw
  exact project_mean P h w d z hz

/-! ## The law in its operational spelling -/

/-- Gather the rows of a projected matrix P = H * Wp by one table, sum them into segments by another, and scale by d:
    entry (n, q) is the projection by Wp of "gather the rows of H, sum them into segments, scale by d" at row n.
    The entries of H and Wp and the scale d are real; both segment sums start from arrays of zeros. -/
theorem mean_project {N E K C w : Nat} (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    {φ : FTy} (H : FVec Ideal ⟨2, ![N, K]⟩ φ) (P : FVec Ideal ⟨2, ![N, C]⟩ φ) (Wp : (⟨2, ![K, C]⟩ : Shape).Idx → EReal)
    (hP : ∀ (n : Fin N) (q : Fin C), P (ix2 n q) = ∑ k : Fin K, H (ix2 n k) * Wp (ix2 k q))
    (ZK : FVec Ideal ⟨2, ![N, K]⟩ φ) (ZC : FVec Ideal ⟨2, ![N, C]⟩ φ) (hZK : ∀ i, ZK i = 0) (hZC : ∀ i, ZC i = 0)
    (tS tD : IVec ⟨2, ![E, 1]⟩ w) (d : EReal)
    (hH : ∀ i, ∃ r : ℝ, H i = (r : EReal)) (hW : ∀ i, ∃ r : ℝ, Wp i = (r : EReal)) (hd : ∃ r : ℝ, d = (r : EReal))
    (n : Fin N) (q : Fin C) :
    Host.scatterAdd (F := Ideal) (scatterRows N C E wfsC) ZC tD (Host.gather (gatherRows N C E wfgC) P tS) (ix2 n q) * d
      = ∑ k : Fin K, (Host.scatterAdd (F := Ideal) (scatterRows N K E wfsK) ZK tD
          (Host.gather (gatherRows N K E wfgK) H tS) (ix2 n k) * d) * Wp (ix2 k q) := by
  simp only [scatterRows_sum, gatherRows_apply hN, hP, hZK, hZC]
  exact (project_mean' (fun e : Fin E => (tD (ix2 e (0 : Fin 1))).toInt = (n.val : Int))
    (fun e k => H (ix2 (srcRow N hN (tS (ix2 e (0 : Fin 1)))) k)) (fun k => Wp (ix2 k q)) d 0
    (fun e k => hH _) (fun k => hW _) hd rfl).symm

end Cert.LibSegmentSum

end
-- ==== Proof.LibPaddedEdges.lean ====
/-
  An edge list extended by edges of weight zero does not change a weighted segment sum. Any extents, any index width;
  no program is mentioned.

  A propagation step of a graph layer is, at node n and channel q,
      y (n, q) = z (n, q) + sum over the edges e with row e = n of  weight e * x (col e, q).
  If the list of E edges is lengthened to L >= E entries whose added weights are all 0 (whatever rows and columns the
  added entries name), every added term is  x * 0 = 0  on the extended reals (0 * x = 0 for EVERY extended real, the
  infinities included, so nothing need be finite), and a sum whose tail vanishes is the sum of its head.

  * sum_of_zero_tail: a sum over L indices whose terms from E on are 0 is the sum over the first E.
  * padded_segment_sum: the law in the operations' spelling — gather the rows of x by the column table, multiply by
    the weights (on either side of the product), sum into segments by the row table — for the long list against the
    short one, when the long tables and weights agree with the short ones on the first E entries and the long weights
    vanish from E on.
-/
import Idealize.ShloMosaic.PureOps.Ideal
import Idealize.ShloMosaic.Lib.ValueIdx
import proofs.«162383_j26603027431988_2_alg».proof.Proof.LibRowTable
import proofs.«162383_j26603027431988_2_alg».proof.Proof.LibSegmentSum

noncomputable section

namespace Cert.LibPaddedEdges

open Idealize.ShloMosaic Idealize.ShloMosaic.ValueIdx
open Cert.LibRowTable Cert.LibSegmentSum
open scoped BigOperators

/-- A sum over `L` indices whose terms vanish from `E` on is the sum of its first `E` terms. -/
theorem sum_of_zero_tail {M : Type*} [AddCommMonoid M] {E L : Nat} (hEL : E ≤ L) (f : Fin L → M) (g : Fin E → M)
    (hhead : ∀ (e : Fin L) (h : e.val < E), f e = g ⟨e.val, h⟩) (htail : ∀ e : Fin L, E ≤ e.val → f e = 0) :
    ∑ e, f e = ∑ e, g e := by
  obtain ⟨P, rfl⟩ := Nat.exists_eq_add_of_le hEL
  rw [Fin.sum_univ_add]
  have h1 : ∀ e : Fin E, f (Fin.castAdd P e) = g e := fun e => hhead (Fin.castAdd P e) e.isLt
  have h2 : ∀ p : Fin P, f (Fin.natAdd E p) = 0 := fun p => htail (Fin.natAdd E p) (Nat.le_add_right E p.val)
  simp only [h1, h2, Finset.sum_const_zero, add_zero]

/-- One propagation step over a lengthened edge list: with the update of edge `e` the gathered row times the weight
    (the weight on the right in the long spelling, on the left in the short one), the segment sums agree at every
    entry when the long list continues the short one by edges of weight zero. -/
theorem padded_segment_sum {N C E L w : Nat} (hN : 0 < N) (hEL : E ≤ L)
    (wfgE : GatherDims.WF ⟨2, ![N, C]⟩ ⟨2, ![E, 1]⟩ ⟨2, ![E, C]⟩ [1] [0] [] [0] [] 1 ![1, C])
    (wfgL : GatherDims.WF ⟨2, ![N, C]⟩ ⟨2, ![L, 1]⟩ ⟨2, ![L, C]⟩ [1] [0] [] [0] [] 1 ![1, C])
    (wfsE : ScatterDims.WF ⟨2, ![N, C]⟩ ⟨2, ![E, 1]⟩ ⟨2, ![E, C]⟩ [1] [0] [0] 1)
    (wfsL : ScatterDims.WF ⟨2, ![N, C]⟩ ⟨2, ![L, 1]⟩ ⟨2, ![L, C]⟩ [1] [0] [0] 1)
    {φ : FTy} (x z : FVec Ideal ⟨2, ![N, C]⟩ φ)
    (rowE colE : IVec ⟨2, ![E, 1]⟩ w) (rowL colL : IVec ⟨2, ![L, 1]⟩ w)
    (wtE : Fin E → EReal) (wtL : Fin L → EReal)
    (hrow : ∀ (e : Fin L) (h : e.val < E), rowL (ix2 e (0 : Fin 1)) = rowE (ix2 ⟨e.val, h⟩ (0 : Fin 1)))
    (hcol : ∀ (e : Fin L) (h : e.val < E), colL (ix2 e (0 : Fin 1)) = colE (ix2 ⟨e.val, h⟩ (0 : Fin 1)))
    (hwt : ∀ (e : Fin L) (h : e.val < E), wtL e = wtE ⟨e.val, h⟩)
    (hpad : ∀ e : Fin L, E ≤ e.val → wtL e = 0)
    (uL : FVec Ideal ⟨2, ![L, C]⟩ φ) (uE : FVec Ideal ⟨2, ![E, C]⟩ φ)
    (huL : ∀ (e : Fin L) (k : Fin C), uL (ix2 e k) = Host.gather (gatherRows N C L wfgL) x colL (ix2 e k) * wtL e)
    (huE : ∀ (e : Fin E) (k : Fin C), uE (ix2 e k) = wtE e * Host.gather (gatherRows N C E wfgE) x colE (ix2 e k))
    (n : Fin N) (q : Fin C) :
    Host.scatterAdd (F := Ideal) (scatterRows N C L wfsL) z rowL uL (ix2 n q)
      = Host.scatterAdd (F := Ideal) (scatterRows N C E wfsE) z rowE uE (ix2 n q) := by
  rw [scatterRows_sum, scatterRows_sum]
  refine congrArg (fun s => z (ix2 n q) + s) ?_
  refine sum_of_zero_tail hEL _ _ (fun e h => ?_) (fun e h => ?_)
  · rw [hrow e h, huL, huE, gatherRows_apply hN, gatherRows_apply hN, hcol e h, hwt e h, mul_comm]
  · rw [huL, hpad e h, mul_zero, ite_self]

end Cert.LibPaddedEdges

end
-- ==== Proof.LayerBridge.lean ====
/- One propagation layer of the two idealized programs, joined.

   The kernel program carries the edge list padded to 1007616 entries (the 1000000 edges, then 7616 entries of weight 0); the
   reference carries the 1000000 edges. A layer gathers the rows of `x` by the column table, multiplies each gathered row by
   its edge's weight, and sums the products into segments by the row table, starting from zero. A padded entry contributes
   `x * 0 = 0` to whatever segment it names, so the two segment sums agree at every node and channel
   (`Cert.LibPaddedEdges.padded_segment_sum`). What is proved here is the reading of the two programs' own spellings:
   the broadcasts at an index, the column table's normalisation (the same function of the word on both sides, never
   evaluated), and the printed dimension records as the row gather and the row scatter. -/
import proofs.«162383_j26603027431988_2_alg».proof.KernelIdeal
import proofs.«162383_j26603027431988_2_alg».proof.ReferenceIdeal
import proofs.«162383_j26603027431988_2_alg».proof.Proof.RegionScale
import proofs.«162383_j26603027431988_2_alg».proof.Proof.LibPaddedEdges
import Idealize.ShloMosaic.Lib.Pipeline.Value
import Idealize.ShloMosaic.Lib.ValueIdx
import Idealize.ShloMosaic.Lib.ValueLayout
import Idealize.ShloMosaic.PureOps.Ideal

noncomputable section
namespace Cert.LayerBridge
open Idealize.ShloMosaic Idealize.ShloMosaic.ValueIdx
open Cert.LibRowTable Cert.LibPaddedEdges

variable {α : Type}

/-! ## Broadcasts read at an index -/

/-- A scalar broadcast to any shape reads the scalar everywhere. -/
theorem bcast_scalar_apply {t : Shape} (h : (⟨0, ![]⟩ : Shape).BroadcastsInDim t ![])
    (x : (⟨0, ![]⟩ : Shape).Idx → α) (j : t.Idx) : broadcastInDim t ![] h x j = x ix0 :=
  broadcastInDim_apply ![] h x j ix0 fun a => a.elim0

/-- A vector `[n]` laid out as a column `[n, 1]` reads, at `(e, 0)`, the vector's entry `e`. -/
theorem bcast_col_apply {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply ![0] h v (ix2 e (0 : Fin 1)) (ix1 e) fun a => ?_
  match a with
  | ⟨0, _⟩ =>
    show e.val = if n = 1 then 0 else e.val
    split
    · have := e.isLt; omega
    · rfl

/-- A column `[n, 1]` broadcast across `[n, c]` reads, at `(e, k)`, the column's entry of row `e`. -/
theorem bcast_rows_apply {n c : ℕ} (h : (⟨2, ![n, 1]⟩ : Shape).BroadcastsInDim ⟨2, ![n, c]⟩ ![0, 1])
    (v : (⟨2, ![n, 1]⟩ : Shape).Idx → α) (e : Fin n) (k : Fin c) :
    broadcastInDim ⟨2, ![n, c]⟩ ![0, 1] h v (ix2 e k) = v (ix2 e (0 : Fin 1)) := by
  refine broadcastInDim_apply ![0, 1] h v (ix2 e k) (ix2 e (0 : Fin 1)) fun a => ?_
  match a with
  | ⟨0, _⟩ =>
    show e.val = if n = 1 then 0 else e.val
    split
    · have := e.isLt; omega
    · rfl
  | ⟨1, _⟩ => rfl

/-! ## The column table as both programs normalise it -/

/-- A column word with a negative word moved up by the number of rows: the same function of the word in both programs. -/
def normCol (b : BitVec 32) : BitVec 32 := Scalar.select (IntOp.cmpi .slt b 0#32) (IntOp.addi b 150000#32) b

/-- The normalised column table over any one-axis shape, read at an index. -/
theorem norm_apply {s : Shape} (h : (⟨0, ![]⟩ : Shape).BroadcastsInDim s ![]) (c : IVec s 32) (i : s.Idx) :
    select (cmpi .slt c (broadcastInDim s ![] h (constantI ⟨0, ![]⟩ 32 0#32)))
      (addi c (broadcastInDim s ![] h (constantI ⟨0, ![]⟩ 32 150000#32))) c i = normCol (c i) := by
  show Scalar.select (IntOp.cmpi .slt (c i) (broadcastInDim s ![] h (constantI ⟨0, ![]⟩ 32 0#32) i))
    (IntOp.addi (c i) (broadcastInDim s ![] h (constantI ⟨0, ![]⟩ 32 150000#32) i)) (c i) = _
  rw [bcast_scalar_apply, bcast_scalar_apply]
  rfl

/-! ## The printed dimension records are the row gather and the row scatter -/

section
variable [Cert.KernelIdeal.Facts] [Cert.ReferenceIdeal.Facts]

theorem kernel_gather_eq : Cert.KernelIdeal.gather_S150000x64_S1007616x1_S1007616x64_1_0_n_n_0_1_164
    = gatherRows 150000 64 1007616 Cert.KernelIdeal.Facts₀.gather_S150000x64_S1007616x1_S1007616x64_1_0_n_n_0_1_164_wf := rfl
theorem kernel_scatter_eq : Cert.KernelIdeal.scatter_S150000x64_S1007616x1_S1007616x64_1_0_0_1
    = scatterRows 150000 64 1007616 Cert.KernelIdeal.Facts₀.scatter_S150000x64_S1007616x1_S1007616x64_1_0_0_1_wf := rfl
theorem reference_gather_eq : Cert.ReferenceIdeal.gather_S150000x64_S1000000x1_S1000000x64_1_0_n_n_0_1_164
    = gatherRows 150000 64 1000000 Cert.ReferenceIdeal.Facts₀.gather_S150000x64_S1000000x1_S1000000x64_1_0_n_n_0_1_164_wf := rfl
theorem reference_scatter_eq : Cert.ReferenceIdeal.scatter_S150000x64_S1000000x1_S1000000x64_1_0_0_1
    = scatterRows 150000 64 1000000 Cert.ReferenceIdeal.Facts₀.scatter_S150000x64_S1000000x1_S1000000x64_1_0_0_1_wf := rfl

/-! ## One propagation layer: the padded edge list against the edge list -/

/-- One layer of the kernel program (1007616 entries: the edges, then entries of weight 0) and of the reference
    (1000000 edges) leave the same array: each padded entry adds `x * 0 = 0` to its segment. -/
theorem layer_eq (x : FVec Ideal Cert.KernelIdeal.S150000x64 .f32)
    (rowp colp : IVec Cert.KernelIdeal.S1007616 32) (valsL : FVec Ideal Cert.KernelIdeal.S1007616x1 .f32)
    (row col : IVec Cert.ReferenceIdeal.S1000000 32) (valsE : FVec Ideal Cert.ReferenceIdeal.S1000000 .f32)
    (hrow : ∀ (e : Fin 1007616) (h : e.val < 1000000), rowp (ix1 e) = row (ix1 ⟨e.val, h⟩))
    (hcol : ∀ (e : Fin 1007616) (h : e.val < 1000000), colp (ix1 e) = col (ix1 ⟨e.val, h⟩))
    (hval : ∀ (e : Fin 1007616) (h : e.val < 1000000), valsL (ix2 e (0 : Fin 1)) = valsE (ix1 ⟨e.val, h⟩))
    (hpad : ∀ e : Fin 1007616, 1000000 ≤ e.val → valsL (ix2 e (0 : Fin 1)) = 0) :
    Host.scatterAdd (F := Ideal) Cert.KernelIdeal.scatter_S150000x64_S1007616x1_S1007616x64_1_0_0_1 (broadcastInDim Cert.KernelIdeal.S150000x64 ![] Cert.KernelIdeal.Facts₀.bcast_S_S150000x64 (constant (F := Ideal) Cert.KernelIdeal.S_ .f32 0x00000000#32)) (broadcastInDim Cert.KernelIdeal.S1007616x1 ![0] Cert.KernelIdeal.Facts₀.bcast_S1007616_S1007616x1_0 rowp) (Cert.KernelIdeal.RegionScale.scaled valsL (Host.gather Cert.KernelIdeal.gather_S150000x64_S1007616x1_S1007616x64_1_0_n_n_0_1_164 x (broadcastInDim Cert.KernelIdeal.S1007616x1 ![0] Cert.KernelIdeal.Facts₀.bcast_S1007616_S1007616x1_0 (select (cmpi .slt colp (broadcastInDim Cert.KernelIdeal.S1007616 ![] Cert.KernelIdeal.Facts₀.bcast_S_S1007616 (constantI Cert.KernelIdeal.S_ 32 0#32))) (addi colp (broadcastInDim Cert.KernelIdeal.S1007616 ![] Cert.KernelIdeal.Facts₀.bcast_S_S1007616 (constantI Cert.KernelIdeal.S_ 32 150000#32))) colp))))
      = Host.scatterAdd (F := Ideal) Cert.ReferenceIdeal.scatter_S150000x64_S1000000x1_S1000000x64_1_0_0_1 (broadcastInDim Cert.ReferenceIdeal.S150000x64 ![] Cert.ReferenceIdeal.Facts₀.bcast_S_S150000x64 (constant (F := Ideal) Cert.ReferenceIdeal.S_ .f32 0x00000000#32)) (broadcastInDim Cert.ReferenceIdeal.S1000000x1 ![0] Cert.ReferenceIdeal.Facts₀.bcast_S1000000_S1000000x1_0 row) (mulf (broadcastInDim Cert.ReferenceIdeal.S1000000x64 ![0, 1] Cert.ReferenceIdeal.Facts₀.bcast_S1000000x1_S1000000x64_0_1 (broadcastInDim Cert.ReferenceIdeal.S1000000x1 ![0] Cert.ReferenceIdeal.Facts₀.bcast_S1000000_S1000000x1_0 valsE)) (Host.gather Cert.ReferenceIdeal.gather_S150000x64_S1000000x1_S1000000x64_1_0_n_n_0_1_164 x (broadcastInDim Cert.ReferenceIdeal.S1000000x1 ![0] Cert.ReferenceIdeal.Facts₀.bcast_S1000000_S1000000x1_0 (select (cmpi .slt col (broadcastInDim Cert.ReferenceIdeal.S1000000 ![] Cert.ReferenceIdeal.Facts₀.bcast_S_S1000000 (constantI Cert.ReferenceIdeal.S_ 32 0#32))) (addi col (broadcastInDim Cert.ReferenceIdeal.S1000000 ![] Cert.ReferenceIdeal.Facts₀.bcast_S_S1000000 (constantI Cert.ReferenceIdeal.S_ 32 150000#32))) col)))) := by
  funext i
  obtain ⟨n, q, rfl⟩ : ∃ (n : Fin 150000) (q : Fin 64), i = ix2 n q := ⟨i 0, i 1, eq_ix2 i⟩
  rw [kernel_gather_eq, kernel_scatter_eq, reference_gather_eq, reference_scatter_eq]
  refine padded_segment_sum (N := 150000) (C := 64) (E := 1000000) (L := 1007616) (w := 32) (by omega) (by omega)
    Cert.ReferenceIdeal.Facts₀.gather_S150000x64_S1000000x1_S1000000x64_1_0_n_n_0_1_164_wf
    Cert.KernelIdeal.Facts₀.gather_S150000x64_S1007616x1_S1007616x64_1_0_n_n_0_1_164_wf _ _ x _ _
    (broadcastInDim Cert.ReferenceIdeal.S1000000x1 ![0] Cert.ReferenceIdeal.Facts₀.bcast_S1000000_S1000000x1_0 (select (cmpi .slt col (broadcastInDim Cert.ReferenceIdeal.S1000000 ![] Cert.ReferenceIdeal.Facts₀.bcast_S_S1000000 (constantI Cert.ReferenceIdeal.S_ 32 0#32))) (addi col (broadcastInDim Cert.ReferenceIdeal.S1000000 ![] Cert.ReferenceIdeal.Facts₀.bcast_S_S1000000 (constantI Cert.ReferenceIdeal.S_ 32 150000#32))) col))
    _
    (broadcastInDim Cert.KernelIdeal.S1007616x1 ![0] Cert.KernelIdeal.Facts₀.bcast_S1007616_S1007616x1_0 (select (cmpi .slt colp (broadcastInDim Cert.KernelIdeal.S1007616 ![] Cert.KernelIdeal.Facts₀.bcast_S_S1007616 (constantI Cert.KernelIdeal.S_ 32 0#32))) (addi colp (broadcastInDim Cert.KernelIdeal.S1007616 ![] Cert.KernelIdeal.Facts₀.bcast_S_S1007616 (constantI Cert.KernelIdeal.S_ 32 150000#32))) colp))
    (fun e => valsE (ix1 e)) (fun e => valsL (ix2 e (0 : Fin 1)))
    (fun e h => ?_) (fun e h => ?_) hval hpad _ _ (fun e k => ?_) (fun e k => ?_) n q
  · -- the row tables, read at `(e, 0)`
    rw [bcast_col_apply, bcast_col_apply]
    exact hrow e h
  · -- the column tables, read at `(e, 0)`: the same normalisation of equal words
    rw [bcast_col_apply, bcast_col_apply, norm_apply, norm_apply]
    exact congrArg normCol (hcol e h)
  · -- the kernel program's update: the gathered row times the weight
    exact Cert.KernelIdeal.RegionScale.scaled_apply valsL _ e k
  · -- the reference's update: the weight, broadcast along the row, times the gathered row
    rw [mulf_apply, bcast_rows_apply, bcast_col_apply]

end

end Cert.LayerBridge
end
-- ==== Proof.Table0.lean ====
/- The first table's three propagation layers, end to end: the kernel program's buffers against the reference's values.

   The kernel program lengthens the edge list to 1007616 entries, masks the edge weights in its first region, and then, three
   times over, gathers the rows of the current table by the column table on the host, scales them by the weights in a region
   of its own, and sums them into segments by the row table on the host; it adds the stacked tables and the three layers and
   divides by 4. The reference does the same on the 1000000 edges with host operations only. Here the buffers the kernel
   program holds at the boundaries of its stretches of host operations are read off one by one — each boundary read a small
   lemma of its own: a stretch's operations evaluated at one buffer, a buffer no operation of a stretch writes carried
   across it, a region's output at its closed form, a region's input or a stranger carried across the region — and joined
   to the reference's values layer by layer: a padded edge has weight 0 and adds nothing to its segment, and on the real
   edges the tables and the weights agree. -/
import proofs.«162383_j26603027431988_2_alg».proof.Proof.KernelIdealFrame
import proofs.«162383_j26603027431988_2_alg».proof.Proof.ReadEntry
import proofs.«162383_j26603027431988_2_alg».proof.Proof.RegionVals
import proofs.«162383_j26603027431988_2_alg».proof.Proof.RegionScale
import proofs.«162383_j26603027431988_2_alg».proof.Proof.ValsBridge
import proofs.«162383_j26603027431988_2_alg».proof.Proof.LayerBridge
import proofs.«162383_j26603027431988_2_alg».proof.Proof.LibTypedRefs
import proofs.«162383_j26603027431988_2_alg».proof.Proof.Gen.ReferenceIdeal.Run
import Idealize.ShloMosaic.Lib.StableHlo.Run
import Idealize.ShloMosaic.Lib.Pipeline.Value
import Idealize.ShloMosaic.Lib.ValueIdx
import Idealize.ShloMosaic.Lib.ValueLayout

noncomputable section
namespace Cert.Table0
open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

open Cert.KernelIdeal.RegionScale (scaled)
open Cert.KernelIdeal.RegionVals (maskedVals)

/-- Closes `after ops V b = V b` for a literal stretch `ops` none of whose operations writes the literal reference `b`. -/
local macro "keeps " ops:ident : tactic => `(tactic| exact StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-! ## What the three layers share: the tables, the weights, the first table's rows -/

/-- The row table, lengthened to 1007616 entries, as the first region finds it. -/
def rowsP : IVec S1007616 32 := W8 (F := Ideal) m ρ c (Proc.devRef .tc main_v0)
/-- The column table, lengthened. -/
def colsP : IVec S1007616 32 := W8 (F := Ideal) m ρ c (Proc.devRef .tc main_v1)
/-- The first region's output: the two rows of masked edge weights. -/
def weights2 : S2x1007616.Idx → EReal := W9 (F := Ideal) m ρ c (Proc.devRef .tc main_v5)
/-- The two argument tables stacked: the array the first layer gathers from. -/
def x0 : FVec Ideal S150000x64 .f32 :=
  concatenate S150000x64 0 [⟨S100000x64, W9 (F := Ideal) m ρ c (Proc.devRef .tc main_arg2)⟩,
    ⟨S50000x64, W9 (F := Ideal) m ρ c (Proc.devRef .tc main_arg3)⟩] Facts₀.concatenates_S100000x64_S50000x64_S150000x64_d0
/-- Row 0 of the masked weights laid out as a column: the weights of the first table's three layers. -/
abbrev wcol0 : FVec Ideal S1007616x1 .f32 :=
  shapeCast S1007616x1 (shapeCast S1007616 (extractStridedSlice S1x1007616 ![0, 0] (weights2 m ρ c)
    Facts₀.slices_S2x1007616_S1x1007616_0_0) Facts₀.shapeCasts_S1x1007616_S1007616) Facts₀.shapeCasts_S1007616_S1007616x1
/-- The column table as every gather takes it: normalised, as a column. -/
abbrev colTable : IVec S1007616x1 32 :=
  broadcastInDim S1007616x1 ![0] Facts₀.bcast_S1007616_S1007616x1_0
    (select (cmpi .slt (colsP m ρ c) (broadcastInDim S1007616 ![] Facts₀.bcast_S_S1007616 (constantI S_ 32 0#32)))
      (addi (colsP m ρ c) (broadcastInDim S1007616 ![] Facts₀.bcast_S_S1007616 (constantI S_ 32 150000#32))) (colsP m ρ c))
/-- One layer of the kernel program from the array `x`: gather, scale by the weights, sum into segments from zero. -/
abbrev layerK (x : FVec Ideal S150000x64 .f32) : FVec Ideal S150000x64 .f32 :=
  Host.scatterAdd (F := Ideal) scatter_S150000x64_S1007616x1_S1007616x64_1_0_0_1
    (broadcastInDim S150000x64 ![] Facts₀.bcast_S_S150000x64 (constant (F := Ideal) S_ .f32 0x00000000#32))
    (broadcastInDim S1007616x1 ![0] Facts₀.bcast_S1007616_S1007616x1_0 (rowsP m ρ c))
    (scaled (wcol0 m ρ c) (Host.gather gather_S150000x64_S1007616x1_S1007616x64_1_0_n_n_0_1_164 x (colTable m ρ c)))

/-! ## Carries: buffers a stretch or a region leaves alone -/

theorem W9_v0 : W9 (F := Ideal) m ρ c (Proc.devRef .tc main_v0) = rowsP m ρ c := W9_of_ne m ρ c main_v0 (by decide)
theorem W9_v1 : W9 (F := Ideal) m ρ c (Proc.devRef .tc main_v1) = colsP m ρ c := W9_of_ne m ρ c main_v1 (by decide)
theorem W10_v0 : W10 (F := Ideal) m ρ c (Proc.devRef .tc main_v0) = rowsP m ρ c :=
  (by keeps hostOps1 : W10 (F := Ideal) m ρ c (Proc.devRef .tc main_v0) = W9 m ρ c (Proc.devRef .tc main_v0)).trans (W9_v0 m ρ c)
theorem W11_v0 : W11 (F := Ideal) m ρ c (Proc.devRef .tc main_v0) = rowsP m ρ c :=
  (W11_of_ne m ρ c main_v0 (by decide)).trans (W10_v0 m ρ c)

/-! ## The first stretch after the first region -/

theorem W10_v8 : W10 (F := Ideal) m ρ c (Proc.devRef .tc main_v8) = x0 m ρ c := by
  show StableHlo.after hostOps1 (W9 (F := Ideal) m ρ c) (Proc.devRef .tc main_v8) = _
  simp only [hostOps1]
  after_results
  rfl

theorem W10_v9 : W10 (F := Ideal) m ρ c (Proc.devRef .tc main_v9) = wcol0 m ρ c := by
  show StableHlo.after hostOps1 (W9 (F := Ideal) m ρ c) (Proc.devRef .tc main_v9) = _
  simp only [hostOps1]
  after_results
  rfl

theorem W10_v16 : W10 (F := Ideal) m ρ c (Proc.devRef .tc main_v16)
    = Host.gather gather_S150000x64_S1007616x1_S1007616x64_1_0_n_n_0_1_164 (x0 m ρ c) (colTable m ρ c) := by
  show StableHlo.after hostOps1 (W9 (F := Ideal) m ρ c) (Proc.devRef .tc main_v16) = _
  simp only [hostOps1]
  after_results
  rw [W9_v1]
  rfl

/-- Region 1's output: the gathered rows scaled by the weights. -/
theorem W11_v17 : W11 (F := Ideal) m ρ c (Proc.devRef .tc main_v17)
    = scaled (wcol0 m ρ c) (Host.gather gather_S150000x64_S1007616x1_S1007616x64_1_0_n_n_0_1_164 (x0 m ρ c) (colTable m ρ c)) :=
  ((W11_arr m ρ c 2).trans (Cert.KernelIdeal.RegionScale.final1 (V10 m ρ) c)).trans
    (by rw [← W10_v9 m ρ c, ← W10_v16 m ρ c])

theorem W12_v20 : W12 (F := Ideal) m ρ c (Proc.devRef .tc main_v20) = layerK m ρ c (x0 m ρ c) := by
  show StableHlo.after hostOps2 (W11 (F := Ideal) m ρ c) (Proc.devRef .tc main_v20) = _
  simp only [hostOps2]
  after_results
  rw [W11_v0, W11_v17]

/-! ## The arguments reach the first region as launched -/

theorem W8_arg2 : W8 (F := Ideal) m ρ c (Proc.devRef .tc main_arg2) = m ((c : Thread nD τ).loc main_arg2) :=
  calc W8 (F := Ideal) m ρ c (Proc.devRef .tc main_arg2)
    _ = W7 m ρ c (Proc.devRef .tc main_arg2) := by keeps hostOps0_7
    _ = W6 m ρ c (Proc.devRef .tc main_arg2) := by keeps hostOps0_6
    _ = W5 m ρ c (Proc.devRef .tc main_arg2) := by keeps hostOps0_5
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl
theorem W9_arg2 : W9 (F := Ideal) m ρ c (Proc.devRef .tc main_arg2) = m ((c : Thread nD τ).loc main_arg2) :=
  (W9_of_ne m ρ c main_arg2 (by decide)).trans (W8_arg2 m ρ c)

theorem W8_arg3 : W8 (F := Ideal) m ρ c (Proc.devRef .tc main_arg3) = m ((c : Thread nD τ).loc main_arg3) :=
  calc W8 (F := Ideal) m ρ c (Proc.devRef .tc main_arg3)
    _ = W7 m ρ c (Proc.devRef .tc main_arg3) := by keeps hostOps0_7
    _ = W6 m ρ c (Proc.devRef .tc main_arg3) := by keeps hostOps0_6
    _ = W5 m ρ c (Proc.devRef .tc main_arg3) := by keeps hostOps0_5
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl
theorem W9_arg3 : W9 (F := Ideal) m ρ c (Proc.devRef .tc main_arg3) = m ((c : Thread nD τ).loc main_arg3) :=
  (W9_of_ne m ρ c main_arg3 (by decide)).trans (W8_arg3 m ρ c)

/-! ## The weights: row 0 of the first region's output, read as a column -/

/-- An `[a]` array cast to a column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

/-- Entry `(e, 0)` of the weights' column is entry `(0, e)` of the first region's output. -/
theorem wcol0_apply (e : Fin 1007616) : wcol0 m ρ c (ix2 e (0 : Fin 1)) = weights2 m ρ c (ix2 (0 : Fin 2) e) :=
  (shapeCast_a_a1_apply _ _ e).trans ((shapeCast_1a_a_apply _ _ e).trans
    (slice2_axis0_apply 0 (weights2 m ρ c) Facts₀.slices_S2x1007616_S1x1007616_0_0 (0 : Fin 1) e (0 : Fin 2) rfl))

/-- The first region's output is the masked weights of the lengthened draws and values. -/
theorem weights2_eq : weights2 m ρ c
    = maskedVals (W8 (F := Ideal) m ρ c (Proc.devRef .tc main_v4)) (W8 (F := Ideal) m ρ c (Proc.devRef .tc main_v3)) :=
  (W9_arr m ρ c 2).trans (Cert.KernelIdeal.RegionVals.final0 (V8 m ρ) c)

/-- A padded entry's weight is 0. -/
theorem weight_pad (e : Fin 1007616) (h : 1000000 ≤ e.val) : wcol0 m ρ c (ix2 e (0 : Fin 1)) = 0 := by
  rw [wcol0_apply, weights2_eq]
  exact Cert.ValsBridge.tail _ _ (0 : Fin 2) e h

/-! ## Against the reference -/

variable (RR : Valuation Cert.ReferenceIdeal.τ Cert.ReferenceIdeal.sig (Elt Ideal))

/-- A real edge's weight is the reference's. -/
theorem weight_real
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7))
    (e : Fin 1007616) (h : e.val < 1000000) :
    wcol0 m ρ c (ix2 e (0 : Fin 1)) = Cert.ReferenceIdeal.Value.res_main_v7 RR (ix1 (⟨e.val, h⟩ : Fin 1000000)) := by
  rw [wcol0_apply, weights2_eq]
  refine (Cert.ValsBridge.row0 (RR (Proc.devRef .tc Cert.ReferenceIdeal.main_arg6)) (RR (Proc.devRef .tc Cert.ReferenceIdeal.main_arg7)) _ _
    (fun k e h => ?_) (fun e h => ?_) e h).trans ?_
  · rw [ha7]; exact Cert.KernelIdeal.ReadEntry.draws_at m ρ c k e h
  · rw [ha6]; exact Cert.KernelIdeal.ReadEntry.vals_at m ρ c e h
  · rfl

/-- The reference's layer from the array `x`, in its own spelling. -/
abbrev layerR (x : FVec Ideal Cert.ReferenceIdeal.S150000x64 .f32) : FVec Ideal Cert.ReferenceIdeal.S150000x64 .f32 :=
  Host.scatterAdd (F := Ideal) Cert.ReferenceIdeal.scatter_S150000x64_S1000000x1_S1000000x64_1_0_0_1
        (broadcastInDim Cert.ReferenceIdeal.S150000x64 ![] Cert.ReferenceIdeal.Facts₀.bcast_S_S150000x64 (constant (F := Ideal) Cert.ReferenceIdeal.S_ .f32 0x00000000#32))
        (broadcastInDim Cert.ReferenceIdeal.S1000000x1 ![0] Cert.ReferenceIdeal.Facts₀.bcast_S1000000_S1000000x1_0 (RR (Proc.devRef .tc Cert.ReferenceIdeal.main_arg4)))
        (mulf (broadcastInDim Cert.ReferenceIdeal.S1000000x64 ![0, 1] Cert.ReferenceIdeal.Facts₀.bcast_S1000000x1_S1000000x64_0_1
            (broadcastInDim Cert.ReferenceIdeal.S1000000x1 ![0] Cert.ReferenceIdeal.Facts₀.bcast_S1000000_S1000000x1_0 (Cert.ReferenceIdeal.Value.res_main_v7 RR)))
          (Host.gather Cert.ReferenceIdeal.gather_S150000x64_S1000000x1_S1000000x64_1_0_n_n_0_1_164 x
            (broadcastInDim Cert.ReferenceIdeal.S1000000x1 ![0] Cert.ReferenceIdeal.Facts₀.bcast_S1000000_S1000000x1_0
              (select (cmpi .slt (RR (Proc.devRef .tc Cert.ReferenceIdeal.main_arg5)) (broadcastInDim Cert.ReferenceIdeal.S1000000 ![] Cert.ReferenceIdeal.Facts₀.bcast_S_S1000000 (constantI Cert.ReferenceIdeal.S_ 32 0#32)))
                (addi (RR (Proc.devRef .tc Cert.ReferenceIdeal.main_arg5)) (broadcastInDim Cert.ReferenceIdeal.S1000000 ![] Cert.ReferenceIdeal.Facts₀.bcast_S_S1000000 (constantI Cert.ReferenceIdeal.S_ 32 150000#32)))
                (RR (Proc.devRef .tc Cert.ReferenceIdeal.main_arg5))))))

/-- One layer of the kernel program is the reference's, from the same array. -/
theorem layer_bridge
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7))
    (x : FVec Ideal S150000x64 .f32) : layerK m ρ c x = layerR RR x :=
  Cert.LayerBridge.layer_eq x (rowsP m ρ c) (colsP m ρ c) (wcol0 m ρ c)
    (RR (Proc.devRef .tc Cert.ReferenceIdeal.main_arg4)) (RR (Proc.devRef .tc Cert.ReferenceIdeal.main_arg5)) (Cert.ReferenceIdeal.Value.res_main_v7 RR)
    (fun e h => by rw [ha4]; exact Cert.KernelIdeal.ReadEntry.rows_at m ρ c e h)
    (fun e h => by rw [ha5]; exact Cert.KernelIdeal.ReadEntry.cols_at m ρ c e h)
    (fun e h => weight_real m ρ c RR ha6 ha7 e h)
    (fun e h => weight_pad m ρ c e h)

/-- The array the first layer gathers from is the reference's stacked tables. -/
theorem x0_eq
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3)) : x0 m ρ c = Cert.ReferenceIdeal.Value.res_main_v8 RR := by
  unfold x0 Cert.ReferenceIdeal.Value.res_main_v8
  rw [W9_arg2, W9_arg3, ha2, ha3]

/-- THE FIRST LAYER. -/
theorem layer1
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    W12 (F := Ideal) m ρ c (Proc.devRef .tc main_v20) = Cert.ReferenceIdeal.Value.res_main_v21 RR := by
  rw [W12_v20, layer_bridge m ρ c RR ha4 ha5 ha6 ha7, x0_eq m ρ c RR ha2 ha3]
  rfl

/-! ## The second layer -/

theorem W10_v1 : W10 (F := Ideal) m ρ c (Proc.devRef .tc main_v1) = colsP m ρ c :=
  (by keeps hostOps1 : W10 (F := Ideal) m ρ c (Proc.devRef .tc main_v1) = W9 m ρ c (Proc.devRef .tc main_v1)).trans (W9_v1 m ρ c)
theorem W11_v1 : W11 (F := Ideal) m ρ c (Proc.devRef .tc main_v1) = colsP m ρ c := (W11_of_ne m ρ c main_v1 (by decide)).trans (W10_v1 m ρ c)
theorem W11_v8 : W11 (F := Ideal) m ρ c (Proc.devRef .tc main_v8) = x0 m ρ c := (W11_of_ne m ρ c main_v8 (by decide)).trans (W10_v8 m ρ c)
/-- The weights' column is an input of region 1: it leaves it as it found it. -/
theorem W11_v9 : W11 (F := Ideal) m ρ c (Proc.devRef .tc main_v9) = wcol0 m ρ c :=
  (W11_arr m ρ c 0).trans (((dat1 (F := Ideal) (V10 m ρ) c).arrAt_in 0 rfl _).trans ((A_eq1 (V10 m ρ) c 0).trans (W10_v9 m ρ c)))
theorem W12_v0 : W12 (F := Ideal) m ρ c (Proc.devRef .tc main_v0) = rowsP m ρ c :=
  (by keeps hostOps2 : W12 (F := Ideal) m ρ c (Proc.devRef .tc main_v0) = W11 m ρ c (Proc.devRef .tc main_v0)).trans (W11_v0 m ρ c)
theorem W12_v1 : W12 (F := Ideal) m ρ c (Proc.devRef .tc main_v1) = colsP m ρ c :=
  (by keeps hostOps2 : W12 (F := Ideal) m ρ c (Proc.devRef .tc main_v1) = W11 m ρ c (Proc.devRef .tc main_v1)).trans (W11_v1 m ρ c)
theorem W12_v9 : W12 (F := Ideal) m ρ c (Proc.devRef .tc main_v9) = wcol0 m ρ c :=
  (by keeps hostOps2 : W12 (F := Ideal) m ρ c (Proc.devRef .tc main_v9) = W11 m ρ c (Proc.devRef .tc main_v9)).trans (W11_v9 m ρ c)
theorem W13_v0 : W13 (F := Ideal) m ρ c (Proc.devRef .tc main_v0) = rowsP m ρ c := (W13_of_ne m ρ c main_v0 (by decide)).trans (W12_v0 m ρ c)
theorem W13_v1 : W13 (F := Ideal) m ρ c (Proc.devRef .tc main_v1) = colsP m ρ c := (W13_of_ne m ρ c main_v1 (by decide)).trans (W12_v1 m ρ c)

theorem W12_v21 : W12 (F := Ideal) m ρ c (Proc.devRef .tc main_v21) = addf (x0 m ρ c) (layerK m ρ c (x0 m ρ c)) := by
  show StableHlo.after hostOps2 (W11 (F := Ideal) m ρ c) (Proc.devRef .tc main_v21) = _
  simp only [hostOps2]
  after_results
  rw [W11_v8, W11_v0, W11_v17]

set_option maxHeartbeats 2000000 in
theorem W12_v28 : W12 (F := Ideal) m ρ c (Proc.devRef .tc main_v28) = Host.gather gather_S150000x64_S1007616x1_S1007616x64_1_0_n_n_0_1_164 (layerK m ρ c (x0 m ρ c)) (colTable m ρ c) := by
  show StableHlo.after hostOps2 (W11 (F := Ideal) m ρ c) (Proc.devRef .tc main_v28) = _
  simp only [hostOps2]
  after_results_simp
  rw [W11_v0, W11_v17, W11_v1]

/-- Region 2's output. -/
theorem W13_v29 : W13 (F := Ideal) m ρ c (Proc.devRef .tc main_v29)
    = scaled (wcol0 m ρ c) (Host.gather gather_S150000x64_S1007616x1_S1007616x64_1_0_n_n_0_1_164 (layerK m ρ c (x0 m ρ c)) (colTable m ρ c)) :=
  ((W13_arr m ρ c 2).trans (Cert.KernelIdeal.RegionScale.final2 (V12 m ρ) c)).trans
    (by rw [← W12_v9 m ρ c, ← W12_v28 m ρ c])

theorem W14_v32 : W14 (F := Ideal) m ρ c (Proc.devRef .tc main_v32) = layerK m ρ c (layerK m ρ c (x0 m ρ c)) := by
  show StableHlo.after hostOps3 (W13 (F := Ideal) m ρ c) (Proc.devRef .tc main_v32) = _
  simp only [hostOps3]
  after_results
  rw [W13_v0, W13_v29]

/-! ## The third layer, the pooled table and its two halves -/

theorem W13_v9 : W13 (F := Ideal) m ρ c (Proc.devRef .tc main_v9) = wcol0 m ρ c :=
  (W13_arr m ρ c 0).trans (((dat2 (F := Ideal) (V12 m ρ) c).arrAt_in 0 rfl _).trans ((A_eq2 (V12 m ρ) c 0).trans (W12_v9 m ρ c)))
theorem W13_v21 : W13 (F := Ideal) m ρ c (Proc.devRef .tc main_v21) = addf (x0 m ρ c) (layerK m ρ c (x0 m ρ c)) :=
  (W13_of_ne m ρ c main_v21 (by decide)).trans (W12_v21 m ρ c)
theorem W14_v0 : W14 (F := Ideal) m ρ c (Proc.devRef .tc main_v0) = rowsP m ρ c :=
  (by keeps hostOps3 : W14 (F := Ideal) m ρ c (Proc.devRef .tc main_v0) = W13 m ρ c (Proc.devRef .tc main_v0)).trans (W13_v0 m ρ c)
theorem W14_v1 : W14 (F := Ideal) m ρ c (Proc.devRef .tc main_v1) = colsP m ρ c :=
  (by keeps hostOps3 : W14 (F := Ideal) m ρ c (Proc.devRef .tc main_v1) = W13 m ρ c (Proc.devRef .tc main_v1)).trans (W13_v1 m ρ c)
theorem W14_v9 : W14 (F := Ideal) m ρ c (Proc.devRef .tc main_v9) = wcol0 m ρ c :=
  (by keeps hostOps3 : W14 (F := Ideal) m ρ c (Proc.devRef .tc main_v9) = W13 m ρ c (Proc.devRef .tc main_v9)).trans (W13_v9 m ρ c)
theorem W15_v0 : W15 (F := Ideal) m ρ c (Proc.devRef .tc main_v0) = rowsP m ρ c := (W15_of_ne m ρ c main_v0 (by decide)).trans (W14_v0 m ρ c)
theorem W15_v1 : W15 (F := Ideal) m ρ c (Proc.devRef .tc main_v1) = colsP m ρ c := (W15_of_ne m ρ c main_v1 (by decide)).trans (W14_v1 m ρ c)

theorem W14_v33 : W14 (F := Ideal) m ρ c (Proc.devRef .tc main_v33)
    = addf (addf (x0 m ρ c) (layerK m ρ c (x0 m ρ c))) (layerK m ρ c (layerK m ρ c (x0 m ρ c))) := by
  show StableHlo.after hostOps3 (W13 (F := Ideal) m ρ c) (Proc.devRef .tc main_v33) = _
  simp only [hostOps3]
  after_results
  rw [W13_v21, W13_v0, W13_v29]
theorem W15_v33 : W15 (F := Ideal) m ρ c (Proc.devRef .tc main_v33)
    = addf (addf (x0 m ρ c) (layerK m ρ c (x0 m ρ c))) (layerK m ρ c (layerK m ρ c (x0 m ρ c))) :=
  (W15_of_ne m ρ c main_v33 (by decide)).trans (W14_v33 m ρ c)

set_option maxHeartbeats 2000000 in
theorem W14_v40 : W14 (F := Ideal) m ρ c (Proc.devRef .tc main_v40)
    = Host.gather gather_S150000x64_S1007616x1_S1007616x64_1_0_n_n_0_1_164 (layerK m ρ c (layerK m ρ c (x0 m ρ c))) (colTable m ρ c) := by
  show StableHlo.after hostOps3 (W13 (F := Ideal) m ρ c) (Proc.devRef .tc main_v40) = _
  simp only [hostOps3]
  after_results_simp
  rw [W13_v0, W13_v29, W13_v1]

/-- Region 3's output. -/
theorem W15_v41 : W15 (F := Ideal) m ρ c (Proc.devRef .tc main_v41)
    = scaled (wcol0 m ρ c) (Host.gather gather_S150000x64_S1007616x1_S1007616x64_1_0_n_n_0_1_164 (layerK m ρ c (layerK m ρ c (x0 m ρ c))) (colTable m ρ c)) :=
  ((W15_arr m ρ c 2).trans (Cert.KernelIdeal.RegionScale.final3 (V14 m ρ) c)).trans
    (by rw [← W14_v9 m ρ c, ← W14_v40 m ρ c])

/-- The kernel program's pooled table: the stacked tables and the three layers, added in order and divided by 4. -/
abbrev pooledK : FVec Ideal S150000x64 .f32 :=
  Host.divf (F := Ideal)
    (addf (addf (addf (x0 m ρ c) (layerK m ρ c (x0 m ρ c))) (layerK m ρ c (layerK m ρ c (x0 m ρ c))))
      (layerK m ρ c (layerK m ρ c (layerK m ρ c (x0 m ρ c)))))
    (broadcastInDim S150000x64 ![] Facts₀.bcast_S_S150000x64 (constant (F := Ideal) S_ .f32 0x40800000#32))

/-- The long stretch after region 3, cut after its tenth operation (the last that writes one of the three results). -/
theorem W16_split (b : DevRef τ sig) : W16 (F := Ideal) m ρ c b
    = StableHlo.after (List.drop 10 hostOps4) (StableHlo.after (List.take 10 hostOps4) (W15 (F := Ideal) m ρ c)) b := by
  show StableHlo.after hostOps4 (W15 (F := Ideal) m ρ c) b = _
  rw [← StableHlo.after_append, List.take_append_drop]

/-- Closes `after (drop 10 hostOps4) V b = V b` for a literal reference the rest of the stretch does not write. -/
local macro "tail_keeps" : tactic => `(tactic| exact StableHlo.after_of_forall_not_mem _ _ (List.forall_iff_forall_mem.mp (by
  simp only [hostOps4, List.drop_succ_cons, List.drop_zero, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))))

set_option maxHeartbeats 4000000 in
theorem W16_v47 : W16 (F := Ideal) m ρ c (Proc.devRef .tc main_v47) = pooledK m ρ c := by
  rw [W16_split]
  refine Eq.trans (by tail_keeps) ?_
  simp only [hostOps4, List.take_succ_cons, List.take_zero]
  after_results
  rw [W15_v33, W15_v0, W15_v41]

set_option maxHeartbeats 4000000 in
theorem W16_v48 : W16 (F := Ideal) m ρ c (Proc.devRef .tc main_v48)
    = extractStridedSlice S100000x64 ![0, 0] (pooledK m ρ c) Facts₀.slices_S150000x64_S100000x64_0_0 := by
  rw [W16_split]
  refine Eq.trans (by tail_keeps) ?_
  simp only [hostOps4, List.take_succ_cons, List.take_zero]
  after_results
  rw [W15_v33, W15_v0, W15_v41]

set_option maxHeartbeats 4000000 in
theorem W16_v49 : W16 (F := Ideal) m ρ c (Proc.devRef .tc main_v49)
    = extractStridedSlice S50000x64 ![100000, 0] (pooledK m ρ c) Facts₀.slices_S150000x64_S50000x64_100000_0 := by
  rw [W16_split]
  refine Eq.trans (by tail_keeps) ?_
  simp only [hostOps4, List.take_succ_cons, List.take_zero]
  after_results
  rw [W15_v33, W15_v0, W15_v41]

/-! ## The three layers, the pooled table and its halves against the reference -/

theorem layerK1_eq
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    layerK m ρ c (x0 m ρ c) = Cert.ReferenceIdeal.Value.res_main_v21 RR :=
  (W12_v20 m ρ c).symm.trans (layer1 m ρ c RR ha2 ha3 ha4 ha5 ha6 ha7)

theorem layerK2_eq
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    layerK m ρ c (layerK m ρ c (x0 m ρ c)) = Cert.ReferenceIdeal.Value.res_main_v35 RR := by
  rw [layerK1_eq m ρ c RR ha2 ha3 ha4 ha5 ha6 ha7, layer_bridge m ρ c RR ha4 ha5 ha6 ha7]
  rfl

/-- THE SECOND LAYER. -/
theorem layer2
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    W14 (F := Ideal) m ρ c (Proc.devRef .tc main_v32) = Cert.ReferenceIdeal.Value.res_main_v35 RR :=
  (W14_v32 m ρ c).trans (layerK2_eq m ρ c RR ha2 ha3 ha4 ha5 ha6 ha7)

theorem pooledK_eq
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    pooledK m ρ c = Cert.ReferenceIdeal.Value.res_main_v52 RR := by
  unfold pooledK
  rw [layerK2_eq m ρ c RR ha2 ha3 ha4 ha5 ha6 ha7, layerK1_eq m ρ c RR ha2 ha3 ha4 ha5 ha6 ha7,
    layer_bridge m ρ c RR ha4 ha5 ha6 ha7, x0_eq m ρ c RR ha2 ha3]
  rfl

/-- THE POOLED TABLE: the stacked tables and the three layers, averaged. -/
theorem pooled
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    W16 (F := Ideal) m ρ c (Proc.devRef .tc main_v47) = Cert.ReferenceIdeal.Value.res_main_v52 RR :=
  (W16_v47 m ρ c).trans (pooledK_eq m ρ c RR ha2 ha3 ha4 ha5 ha6 ha7)

/-- Its first 100000 rows. -/
theorem users_out
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    W16 (F := Ideal) m ρ c (Proc.devRef .tc main_v48) = Cert.ReferenceIdeal.Value.res_main_v53 RR :=
  (W16_v48 m ρ c).trans (by rw [pooledK_eq m ρ c RR ha2 ha3 ha4 ha5 ha6 ha7]; rfl)

/-- Its last 50000 rows. -/
theorem items_out
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha4 : RR (Proc.devRef .tc Cert.ReferenceIdeal.main_arg4) = m ((c : Thread nD τ).loc main_arg4))
    (ha5 : RR (Proc.devRef .tc Cert.ReferenceIdeal.main_arg5) = m ((c : Thread nD τ).loc main_arg5))
    (ha6 : RR (Proc.devRef .tc Cert.ReferenceIdeal.main_arg6) = m ((c : Thread nD τ).loc main_arg6))
    (ha7 : RR (Proc.devRef .tc Cert.ReferenceIdeal.main_arg7) = m ((c : Thread nD τ).loc main_arg7)) :
    W16 (F := Ideal) m ρ c (Proc.devRef .tc main_v49) = Cert.ReferenceIdeal.Value.res_main_v54 RR :=
  (W16_v49 m ρ c).trans (by rw [pooledK_eq m ρ c RR ha2 ha3 ha4 ha5 ha6 ha7]; rfl)

/-! ## What the second table still needs, carried to region 4's entry -/

set_option maxHeartbeats 4000000 in
/-- The masked weights (both rows) are untouched since the first region. -/
theorem carry_v5 : W16 (F := Ideal) m ρ c (Proc.devRef .tc main_v5) = W9 (F := Ideal) m ρ c (Proc.devRef .tc main_v5) :=
  calc W16 (F := Ideal) m ρ c (Proc.devRef .tc main_v5)
    _ = W15 m ρ c (Proc.devRef .tc main_v5) := by keeps hostOps4
    _ = W14 m ρ c (Proc.devRef .tc main_v5) := W15_of_ne m ρ c main_v5 (by decide)
    _ = W13 m ρ c (Proc.devRef .tc main_v5) := by keeps hostOps3
    _ = W12 m ρ c (Proc.devRef .tc main_v5) := W13_of_ne m ρ c main_v5 (by decide)
    _ = W11 m ρ c (Proc.devRef .tc main_v5) := by keeps hostOps2
    _ = W10 m ρ c (Proc.devRef .tc main_v5) := W11_of_ne m ρ c main_v5 (by decide)
    _ = W9 m ρ c (Proc.devRef .tc main_v5) := by keeps hostOps1

set_option maxHeartbeats 4000000 in
/-- The lengthened row table is untouched since the first region's entry. -/
theorem carry_v0 : W16 (F := Ideal) m ρ c (Proc.devRef .tc main_v0) = W8 (F := Ideal) m ρ c (Proc.devRef .tc main_v0) :=
  calc W16 (F := Ideal) m ρ c (Proc.devRef .tc main_v0)
    _ = W15 m ρ c (Proc.devRef .tc main_v0) := by keeps hostOps4
    _ = W14 m ρ c (Proc.devRef .tc main_v0) := W15_of_ne m ρ c main_v0 (by decide)
    _ = W13 m ρ c (Proc.devRef .tc main_v0) := by keeps hostOps3
    _ = W12 m ρ c (Proc.devRef .tc main_v0) := W13_of_ne m ρ c main_v0 (by decide)
    _ = W11 m ρ c (Proc.devRef .tc main_v0) := by keeps hostOps2
    _ = W10 m ρ c (Proc.devRef .tc main_v0) := W11_of_ne m ρ c main_v0 (by decide)
    _ = W9 m ρ c (Proc.devRef .tc main_v0) := by keeps hostOps1
    _ = W8 m ρ c (Proc.devRef .tc main_v0) := W9_of_ne m ρ c main_v0 (by decide)

set_option maxHeartbeats 4000000 in
/-- The lengthened column table is untouched since the first region's entry. -/
theorem carry_v1 : W16 (F := Ideal) m ρ c (Proc.devRef .tc main_v1) = W8 (F := Ideal) m ρ c (Proc.devRef .tc main_v1) :=
  calc W16 (F := Ideal) m ρ c (Proc.devRef .tc main_v1)
    _ = W15 m ρ c (Proc.devRef .tc main_v1) := by keeps hostOps4
    _ = W14 m ρ c (Proc.devRef .tc main_v1) := W15_of_ne m ρ c main_v1 (by decide)
    _ = W13 m ρ c (Proc.devRef .tc main_v1) := by keeps hostOps3
    _ = W12 m ρ c (Proc.devRef .tc main_v1) := W13_of_ne m ρ c main_v1 (by decide)
    _ = W11 m ρ c (Proc.devRef .tc main_v1) := by keeps hostOps2
    _ = W10 m ρ c (Proc.devRef .tc main_v1) := W11_of_ne m ρ c main_v1 (by decide)
    _ = W9 m ρ c (Proc.devRef .tc main_v1) := by keeps hostOps1
    _ = W8 m ρ c (Proc.devRef .tc main_v1) := W9_of_ne m ρ c main_v1 (by decide)

end Cert.Table0
end
-- ==== Proof.Table1.lean ====
import proofs.«162383_j26603027431988_2_alg».proof.Proof.KernelIdealFrame
import proofs.«162383_j26603027431988_2_alg».proof.Proof.ReadEntry
import proofs.«162383_j26603027431988_2_alg».proof.Proof.RegionVals
import proofs.«162383_j26603027431988_2_alg».proof.Proof.RegionScale
import proofs.«162383_j26603027431988_2_alg».proof.Proof.ValsBridge
import proofs.«162383_j26603027431988_2_alg».proof.Proof.LayerBridge
import proofs.«162383_j26603027431988_2_alg».proof.Proof.Gen.ReferenceIdeal.Run
import proofs.«162383_j26603027431988_2_alg».proof.Proof.LibTypedRefs
import Idealize.ShloMosaic.Lib.StableHlo.Run
import Idealize.ShloMosaic.Lib.Pipeline.Value
import Idealize.ShloMosaic.Lib.ValueIdx
import Idealize.ShloMosaic.Lib.ValueLayout

noncomputable section
namespace Cert.Table1
open Idealize.ShloMosaic Idealize.ShloMosaic.TcCoe Idealize.SL.Sem Idealize.ShloMosaic.ValueIdx
open Cert.KernelIdeal Cert.KernelIdeal.Gen Cert.KernelIdeal.GenP
open Cert.KernelIdeal.RegionVals (maskedVals)
open Cert.KernelIdeal.RegionScale (scaled)

variable (m : (ℓ : Loc nD τ sig) → Buf (Elt Ideal) ℓ) (ρ : Dev nD → PrngReg) (c : Dev nD)

/-!
  The second table's three propagation layers, end to end, against the reference's.

  After the first table the program builds the second one from the same inputs: the weights are row 1 of the masked edge
  weights the first region left (a slice and two casts: the column's entry `e` is that row's entry `e`); the table `x₀` is
  the two embedding arguments concatenated; a layer gathers the rows of the current table by the normalised column
  numbers, a region scales each gathered row by its edge's weight, and a scatter-add sums the products into segments by
  the row numbers, from zero; the layers are `x₁ = L x₀`, `x₂ = L x₁`, `x₃ = L x₂`; the pooled table is
  `(((x₀ + x₁) + x₂) + x₃)` divided by the word of 4, and the two results are its first 100000 and last 50000 rows.

  The edge list is carried lengthened from 1000000 to 1007616 entries; on the added entries the weights are 0, so a layer
  of the lengthened list is the reference's layer of the edge list on the same table (`Cert.LayerBridge.layer_eq`), and on
  the edges the row numbers, column numbers and weights are the reference's. What this file adds is the reading of the
  program's boundaries: which stretch computes which buffer from which, and that nothing in between writes the buffers
  that are read later (the row and column tables, the weights, the partial sums). The long stretches are cut at the
  operations that matter and the rest is shown not to write the buffer in question.
-/

/-! ## The fifth stretch, cut before the second table's thirteen operations -/

/-- The fifth stretch is its first 108 operations followed by the thirteen that build the second table's inputs. -/
theorem W16_split (b : Ref sig .tc) : W16 (F := Ideal) m ρ c (Proc.devRef .tc b)
    = StableHlo.after (List.drop 108 (hostOps4 (F := Ideal))) (StableHlo.after (List.take 108 (hostOps4 (F := Ideal))) (W15 m ρ c)) (Proc.devRef .tc b) := by
  show StableHlo.after hostOps4 (W15 m ρ c) _ = _
  rw [← StableHlo.after_append, List.take_append_drop]

/-- Those thirteen operations, from any contents `X`: the concatenated embedding tables. -/
theorem tail4_v123 (X : Valuation τ sig (Elt Ideal)) :
    StableHlo.after (List.drop 108 (hostOps4 (F := Ideal))) X (Proc.devRef .tc main_v123)
      = (concatenate S150000x64 0 [⟨S100000x64, X (Proc.devRef .tc main_arg0)⟩, ⟨S50000x64, X (Proc.devRef .tc main_arg1)⟩] concatenates_S100000x64_S50000x64_S150000x64_d0) := by
  simp only [hostOps4, List.drop_succ_cons, List.drop_zero]
  after_results

/-- The weights' column, at row `e`: row 1 of the first region's output, at column `e` (a slice and two casts). -/
theorem tail4_v124_at (X : Valuation τ sig (Elt Ideal)) (e : Fin 1007616) :
    (StableHlo.after (List.drop 108 (hostOps4 (F := Ideal))) X (Proc.devRef .tc main_v124) : S1007616x1.Idx → EReal) (ix2 e (0 : Fin 1))
      = (X (Proc.devRef .tc main_v5) : S2x1007616.Idx → EReal) (ix2 (1 : Fin 2) e) := by
  simp only [hostOps4, List.drop_succ_cons, List.drop_zero]
  after_results
  show shapeCast S1007616x1 (shapeCast S1007616 (extractStridedSlice S1x1007616 ![1, 0] (X (Proc.devRef .tc main_v5))
      slices_S2x1007616_S1x1007616_1_0) shapeCasts_S1x1007616_S1007616) shapeCasts_S1007616_S1007616x1 (ix2 e (0 : Fin 1)) = _
  refine (shapeCast_apply _ shapeCasts_S1007616_S1007616x1 (ix2 e (0 : Fin 1)) (ix1 e) (by
    rw [Shape.rowMajor_val_one, Shape.rowMajor_val_two]
    show e.val = e.val * 1 + 0
    omega)).trans ?_
  exact (shapeCast_1a_a_apply _ _ _).trans
    (slice2_axis0_apply 1 (X (Proc.devRef .tc main_v5)) slices_S2x1007616_S1x1007616_1_0 (0 : Fin 1) e (1 : Fin 2) rfl)

/-- The rows of the concatenated tables gathered by the normalised column table. -/
theorem tail4_v131 (X : Valuation τ sig (Elt Ideal)) :
    StableHlo.after (List.drop 108 (hostOps4 (F := Ideal))) X (Proc.devRef .tc main_v131)
      = Host.gather gather_S150000x64_S1007616x1_S1007616x64_1_0_n_n_0_1_164 (concatenate S150000x64 0 [⟨S100000x64, X (Proc.devRef .tc main_arg0)⟩, ⟨S50000x64, X (Proc.devRef .tc main_arg1)⟩] concatenates_S100000x64_S50000x64_S150000x64_d0) (broadcastInDim S1007616x1 ![0] bcast_S1007616_S1007616x1_0 (select (cmpi .slt (X (Proc.devRef .tc main_v1)) (broadcastInDim S1007616 ![] bcast_S_S1007616 (constantI S_ 32 0#32))) (addi (X (Proc.devRef .tc main_v1)) (broadcastInDim S1007616 ![] bcast_S_S1007616 (constantI S_ 32 150000#32))) (X (Proc.devRef .tc main_v1)))) := by
  simp only [hostOps4, List.drop_succ_cons, List.drop_zero]
  after_results

/-! ## What the first 108 operations of the fifth stretch leave alone -/

theorem pre4_arg0 : StableHlo.after (List.take 108 (hostOps4 (F := Ideal))) (W15 m ρ c) (Proc.devRef .tc main_arg0) = W15 (F := Ideal) m ρ c (Proc.devRef .tc main_arg0) :=
  StableHlo.after_of_forall_not_mem (b := Proc.devRef .tc main_arg0) _ _ (List.forall_iff_forall_mem.mp (by
      simp only [hostOps4, List.take_succ_cons, List.take_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem pre4_arg1 : StableHlo.after (List.take 108 (hostOps4 (F := Ideal))) (W15 m ρ c) (Proc.devRef .tc main_arg1) = W15 (F := Ideal) m ρ c (Proc.devRef .tc main_arg1) :=
  StableHlo.after_of_forall_not_mem (b := Proc.devRef .tc main_arg1) _ _ (List.forall_iff_forall_mem.mp (by
      simp only [hostOps4, List.take_succ_cons, List.take_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem pre4_v1 : StableHlo.after (List.take 108 (hostOps4 (F := Ideal))) (W15 m ρ c) (Proc.devRef .tc main_v1) = W15 (F := Ideal) m ρ c (Proc.devRef .tc main_v1) :=
  StableHlo.after_of_forall_not_mem (b := Proc.devRef .tc main_v1) _ _ (List.forall_iff_forall_mem.mp (by
      simp only [hostOps4, List.take_succ_cons, List.take_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem pre4_v5 : StableHlo.after (List.take 108 (hostOps4 (F := Ideal))) (W15 m ρ c) (Proc.devRef .tc main_v5) = W15 (F := Ideal) m ρ c (Proc.devRef .tc main_v5) :=
  StableHlo.after_of_forall_not_mem (b := Proc.devRef .tc main_v5) _ _ (List.forall_iff_forall_mem.mp (by
      simp only [hostOps4, List.take_succ_cons, List.take_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-! ## Buffers carried across boundaries: no operation and no region in between writes them -/

/-- The first embedding table is still the argument when the fifth stretch begins. -/
theorem arg0_at15 : W15 (F := Ideal) m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := StableHlo.after_of_forall_not_mem (b := Proc.devRef .tc main_arg0) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W12 m ρ c (Proc.devRef .tc main_arg0) := W13_of_ne m ρ c main_arg0 (by decide)
    _ = W11 m ρ c (Proc.devRef .tc main_arg0) := StableHlo.after_of_forall_not_mem (b := Proc.devRef .tc main_arg0) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W10 m ρ c (Proc.devRef .tc main_arg0) := W11_of_ne m ρ c main_arg0 (by decide)
    _ = W9 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W8 m ρ c (Proc.devRef .tc main_arg0) := W9_of_ne m ρ c main_arg0 (by decide)
    _ = W7 m ρ c (Proc.devRef .tc main_arg0) := StableHlo.after_of_forall_not_mem (b := Proc.devRef .tc main_arg0) _ _ (List.forall_iff_forall_mem.mp (by
      simp only [hostOps0_7, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W6 m ρ c (Proc.devRef .tc main_arg0) := StableHlo.after_of_forall_not_mem (b := Proc.devRef .tc main_arg0) _ _ (List.forall_iff_forall_mem.mp (by
      simp only [hostOps0_6, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_arg0) := StableHlo.after_of_forall_not_mem (b := Proc.devRef .tc main_arg0) _ _ (List.forall_iff_forall_mem.mp (by
      simp only [hostOps0_5, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W4 m ρ c (Proc.devRef .tc main_arg0) := StableHlo.after_of_forall_not_mem (b := Proc.devRef .tc main_arg0) _ _ (List.forall_iff_forall_mem.mp (by
      simp only [hostOps0_4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W3 m ρ c (Proc.devRef .tc main_arg0) := StableHlo.after_of_forall_not_mem (b := Proc.devRef .tc main_arg0) _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W2 m ρ c (Proc.devRef .tc main_arg0) := StableHlo.after_of_forall_not_mem (b := Proc.devRef .tc main_arg0) _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem (b := Proc.devRef .tc main_arg0) _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg0) := rfl

/-- The second embedding table likewise. -/
theorem arg1_at15 : W15 (F := Ideal) m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := StableHlo.after_of_forall_not_mem (b := Proc.devRef .tc main_arg1) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W12 m ρ c (Proc.devRef .tc main_arg1) := W13_of_ne m ρ c main_arg1 (by decide)
    _ = W11 m ρ c (Proc.devRef .tc main_arg1) := StableHlo.after_of_forall_not_mem (b := Proc.devRef .tc main_arg1) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W10 m ρ c (Proc.devRef .tc main_arg1) := W11_of_ne m ρ c main_arg1 (by decide)
    _ = W9 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
      simp only [hostOps0_7, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W6 m ρ c (Proc.devRef .tc main_arg1) := StableHlo.after_of_forall_not_mem (b := Proc.devRef .tc main_arg1) _ _ (List.forall_iff_forall_mem.mp (by
      simp only [hostOps0_6, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_arg1) := StableHlo.after_of_forall_not_mem (b := Proc.devRef .tc main_arg1) _ _ (List.forall_iff_forall_mem.mp (by
      simp only [hostOps0_5, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W4 m ρ c (Proc.devRef .tc main_arg1) := StableHlo.after_of_forall_not_mem (b := Proc.devRef .tc main_arg1) _ _ (List.forall_iff_forall_mem.mp (by
      simp only [hostOps0_4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W3 m ρ c (Proc.devRef .tc main_arg1) := StableHlo.after_of_forall_not_mem (b := Proc.devRef .tc main_arg1) _ _ (List.forall_iff_forall_mem.mp (by
      simp only [hostOps0_3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W2 m ρ c (Proc.devRef .tc main_arg1) := StableHlo.after_of_forall_not_mem (b := Proc.devRef .tc main_arg1) _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_arg1) := StableHlo.after_of_forall_not_mem (b := Proc.devRef .tc main_arg1) _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg1) := rfl

/-- The lengthened column table, from the first launch to the fifth stretch. -/
theorem v1_at15 : W15 (F := Ideal) m ρ c (Proc.devRef .tc main_v1) = W8 (F := Ideal) m ρ c (Proc.devRef .tc main_v1) :=
  calc W15 m ρ c (Proc.devRef .tc main_v1)
    _ = W14 m ρ c (Proc.devRef .tc main_v1) := W15_of_ne m ρ c main_v1 (by decide)
    _ = W13 m ρ c (Proc.devRef .tc main_v1) := StableHlo.after_of_forall_not_mem (b := Proc.devRef .tc main_v1) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W12 m ρ c (Proc.devRef .tc main_v1) := W13_of_ne m ρ c main_v1 (by decide)
    _ = W11 m ρ c (Proc.devRef .tc main_v1) := StableHlo.after_of_forall_not_mem (b := Proc.devRef .tc main_v1) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W8 m ρ c (Proc.devRef .tc main_v1) := W9_of_ne m ρ c main_v1 (by decide)

/-- The first region's output, from its exit to the fifth stretch. -/
theorem v5_at15 : W15 (F := Ideal) m ρ c (Proc.devRef .tc main_v5) = W9 (F := Ideal) m ρ c (Proc.devRef .tc main_v5) :=
  calc W15 m ρ c (Proc.devRef .tc main_v5)
    _ = W14 m ρ c (Proc.devRef .tc main_v5) := W15_of_ne m ρ c main_v5 (by decide)
    _ = W13 m ρ c (Proc.devRef .tc main_v5) := StableHlo.after_of_forall_not_mem (b := Proc.devRef .tc main_v5) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W12 m ρ c (Proc.devRef .tc main_v5) := W13_of_ne m ρ c main_v5 (by decide)
    _ = W11 m ρ c (Proc.devRef .tc main_v5) := StableHlo.after_of_forall_not_mem (b := Proc.devRef .tc main_v5) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W10 m ρ c (Proc.devRef .tc main_v5) := W11_of_ne m ρ c main_v5 (by decide)
    _ = W9 m ρ c (Proc.devRef .tc main_v5) := StableHlo.after_of_forall_not_mem (b := Proc.devRef .tc main_v5) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The lengthened row table, from the first launch to the sixth stretch. -/
theorem v0_at17 : W17 (F := Ideal) m ρ c (Proc.devRef .tc main_v0) = W8 (F := Ideal) m ρ c (Proc.devRef .tc main_v0) :=
  calc W17 m ρ c (Proc.devRef .tc main_v0)
    _ = W16 m ρ c (Proc.devRef .tc main_v0) := W17_of_ne m ρ c main_v0 (by decide)
    _ = W15 m ρ c (Proc.devRef .tc main_v0) := StableHlo.after_of_forall_not_mem (b := Proc.devRef .tc main_v0) _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W14 m ρ c (Proc.devRef .tc main_v0) := W15_of_ne m ρ c main_v0 (by decide)
    _ = W13 m ρ c (Proc.devRef .tc main_v0) := StableHlo.after_of_forall_not_mem (b := Proc.devRef .tc main_v0) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W12 m ρ c (Proc.devRef .tc main_v0) := W13_of_ne m ρ c main_v0 (by decide)
    _ = W11 m ρ c (Proc.devRef .tc main_v0) := StableHlo.after_of_forall_not_mem (b := Proc.devRef .tc main_v0) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W10 m ρ c (Proc.devRef .tc main_v0) := W11_of_ne m ρ c main_v0 (by decide)
    _ = W9 m ρ c (Proc.devRef .tc main_v0) := StableHlo.after_of_forall_not_mem (b := Proc.devRef .tc main_v0) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W8 m ρ c (Proc.devRef .tc main_v0) := W9_of_ne m ρ c main_v0 (by decide)

/-- The column table across the fifth stretch and region 4. -/
theorem v1_at17 : W17 (F := Ideal) m ρ c (Proc.devRef .tc main_v1) = W15 (F := Ideal) m ρ c (Proc.devRef .tc main_v1) :=
  calc W17 m ρ c (Proc.devRef .tc main_v1)
    _ = W16 m ρ c (Proc.devRef .tc main_v1) := W17_of_ne m ρ c main_v1 (by decide)
    _ = W15 m ρ c (Proc.devRef .tc main_v1) := StableHlo.after_of_forall_not_mem (b := Proc.devRef .tc main_v1) _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The row table across the sixth stretch and region 5. -/
theorem v0_at19 : W19 (F := Ideal) m ρ c (Proc.devRef .tc main_v0) = W17 (F := Ideal) m ρ c (Proc.devRef .tc main_v0) :=
  calc W19 m ρ c (Proc.devRef .tc main_v0)
    _ = W18 m ρ c (Proc.devRef .tc main_v0) := W19_of_ne m ρ c main_v0 (by decide)
    _ = W17 m ρ c (Proc.devRef .tc main_v0) := StableHlo.after_of_forall_not_mem (b := Proc.devRef .tc main_v0) _ _ (List.forall_iff_forall_mem.mp (by
      simp only [hostOps5, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The column table across the sixth stretch and region 5. -/
theorem v1_at19 : W19 (F := Ideal) m ρ c (Proc.devRef .tc main_v1) = W17 (F := Ideal) m ρ c (Proc.devRef .tc main_v1) :=
  calc W19 m ρ c (Proc.devRef .tc main_v1)
    _ = W18 m ρ c (Proc.devRef .tc main_v1) := W19_of_ne m ρ c main_v1 (by decide)
    _ = W17 m ρ c (Proc.devRef .tc main_v1) := StableHlo.after_of_forall_not_mem (b := Proc.devRef .tc main_v1) _ _ (List.forall_iff_forall_mem.mp (by
      simp only [hostOps5, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The row table across the seventh stretch and region 6. -/
theorem v0_at21 : W21 (F := Ideal) m ρ c (Proc.devRef .tc main_v0) = W19 (F := Ideal) m ρ c (Proc.devRef .tc main_v0) :=
  calc W21 m ρ c (Proc.devRef .tc main_v0)
    _ = W20 m ρ c (Proc.devRef .tc main_v0) := W21_of_ne m ρ c main_v0 (by decide)
    _ = W19 m ρ c (Proc.devRef .tc main_v0) := StableHlo.after_of_forall_not_mem (b := Proc.devRef .tc main_v0) _ _ (List.forall_iff_forall_mem.mp (by
      simp only [hostOps6, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The concatenated tables across region 4. -/
theorem v123_at17 : W17 (F := Ideal) m ρ c (Proc.devRef .tc main_v123) = W16 (F := Ideal) m ρ c (Proc.devRef .tc main_v123) :=
  calc W17 m ρ c (Proc.devRef .tc main_v123)
    _ = W16 m ρ c (Proc.devRef .tc main_v123) := W17_of_ne m ρ c main_v123 (by decide)

/-- The first partial sum across region 5. -/
theorem v136_at19 : W19 (F := Ideal) m ρ c (Proc.devRef .tc main_v136) = W18 (F := Ideal) m ρ c (Proc.devRef .tc main_v136) :=
  calc W19 m ρ c (Proc.devRef .tc main_v136)
    _ = W18 m ρ c (Proc.devRef .tc main_v136) := W19_of_ne m ρ c main_v136 (by decide)

/-- The second partial sum across region 6. -/
theorem v148_at21 : W21 (F := Ideal) m ρ c (Proc.devRef .tc main_v148) = W20 (F := Ideal) m ρ c (Proc.devRef .tc main_v148) :=
  calc W21 m ρ c (Proc.devRef .tc main_v148)
    _ = W20 m ρ c (Proc.devRef .tc main_v148) := W21_of_ne m ρ c main_v148 (by decide)

/-! ## The weights' column across the regions that read it (an input window leaves its array as it found it) -/

theorem v124_at17 : W17 (F := Ideal) m ρ c (Proc.devRef .tc main_v124) = W16 (F := Ideal) m ρ c (Proc.devRef .tc main_v124) :=
  (W17_arr m ρ c 0).trans (((dat4 (V16 m ρ) c).arrAt_in 0 rfl _).trans (A_eq4 (V16 m ρ) c 0))
theorem v124_at18 : W18 (F := Ideal) m ρ c (Proc.devRef .tc main_v124) = W17 (F := Ideal) m ρ c (Proc.devRef .tc main_v124) :=
  StableHlo.after_of_forall_not_mem (b := Proc.devRef .tc main_v124) _ _ (List.forall_iff_forall_mem.mp (by
      simp only [hostOps5, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
theorem v124_at19 : W19 (F := Ideal) m ρ c (Proc.devRef .tc main_v124) = W18 (F := Ideal) m ρ c (Proc.devRef .tc main_v124) :=
  (W19_arr m ρ c 0).trans (((dat5 (V18 m ρ) c).arrAt_in 0 rfl _).trans (A_eq5 (V18 m ρ) c 0))
theorem v124_at20 : W20 (F := Ideal) m ρ c (Proc.devRef .tc main_v124) = W19 (F := Ideal) m ρ c (Proc.devRef .tc main_v124) :=
  StableHlo.after_of_forall_not_mem (b := Proc.devRef .tc main_v124) _ _ (List.forall_iff_forall_mem.mp (by
      simp only [hostOps6, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-! ## What each region leaves -/

/-- Region 0 leaves the masked edge weights, both rows. -/
theorem v5_read : W9 (F := Ideal) m ρ c (Proc.devRef .tc main_v5) = maskedVals (W8 (F := Ideal) m ρ c (Proc.devRef .tc main_v4)) (W8 (F := Ideal) m ρ c (Proc.devRef .tc main_v3)) :=
  (W9_arr m ρ c 2).trans (Cert.KernelIdeal.RegionVals.final0 (V8 m ρ) c)
/-- Regions 4, 5, 6 leave the gathered rows scaled by the weights. -/
theorem v132_read : W17 (F := Ideal) m ρ c (Proc.devRef .tc main_v132) = scaled (W16 (F := Ideal) m ρ c (Proc.devRef .tc main_v124)) (W16 (F := Ideal) m ρ c (Proc.devRef .tc main_v131)) :=
  (W17_arr m ρ c 2).trans (Cert.KernelIdeal.RegionScale.final4 (V16 m ρ) c)
theorem v144_read : W19 (F := Ideal) m ρ c (Proc.devRef .tc main_v144) = scaled (W18 (F := Ideal) m ρ c (Proc.devRef .tc main_v124)) (W18 (F := Ideal) m ρ c (Proc.devRef .tc main_v143)) :=
  (W19_arr m ρ c 2).trans (Cert.KernelIdeal.RegionScale.final5 (V18 m ρ) c)
theorem v156_read : W21 (F := Ideal) m ρ c (Proc.devRef .tc main_v156) = scaled (W20 (F := Ideal) m ρ c (Proc.devRef .tc main_v124)) (W20 (F := Ideal) m ρ c (Proc.devRef .tc main_v155)) :=
  (W21_arr m ρ c 2).trans (Cert.KernelIdeal.RegionScale.final6 (V20 m ρ) c)

/-! ## What the sixth, seventh and eighth stretches compute, from any contents `X` -/

/-- The first layer: region 4's output summed into segments by the row table, from zero. -/
theorem ops5_v135 (X : Valuation τ sig (Elt Ideal)) :
    (StableHlo.after (hostOps5 (F := Ideal)) X (Proc.devRef .tc main_v135) : FVec Ideal S150000x64 .f32) = Host.scatterAdd scatter_S150000x64_S1007616x1_S1007616x64_1_0_0_1 (broadcastInDim S150000x64 ![] bcast_S_S150000x64 (constant (F := Ideal) S_ .f32 0x00000000#32)) (broadcastInDim S1007616x1 ![0] bcast_S1007616_S1007616x1_0 (X (Proc.devRef .tc main_v0))) (X (Proc.devRef .tc main_v132)) := by
  simp only [hostOps5]
  after_results <;> rfl

/-- The tables plus the first layer. -/
theorem ops5_v136 (X : Valuation τ sig (Elt Ideal)) :
    (StableHlo.after (hostOps5 (F := Ideal)) X (Proc.devRef .tc main_v136) : FVec Ideal S150000x64 .f32) = addf (F := Ideal) (s := S150000x64) (φ := .f32) (X (Proc.devRef .tc main_v123)) (StableHlo.after (hostOps5 (F := Ideal)) X (Proc.devRef .tc main_v135)) := by
  simp only [hostOps5]
  after_results <;> rfl

set_option maxHeartbeats 2000000 in
/-- The first layer's rows gathered by the column table. -/
theorem ops5_v143 (X : Valuation τ sig (Elt Ideal)) :
    (StableHlo.after (hostOps5 (F := Ideal)) X (Proc.devRef .tc main_v143) : FVec Ideal S1007616x64 .f32) = Host.gather gather_S150000x64_S1007616x1_S1007616x64_1_0_n_n_0_1_164 (StableHlo.after (hostOps5 (F := Ideal)) X (Proc.devRef .tc main_v135)) (broadcastInDim S1007616x1 ![0] bcast_S1007616_S1007616x1_0 (select (cmpi .slt (X (Proc.devRef .tc main_v1)) (broadcastInDim S1007616 ![] bcast_S_S1007616 (constantI S_ 32 0#32))) (addi (X (Proc.devRef .tc main_v1)) (broadcastInDim S1007616 ![] bcast_S_S1007616 (constantI S_ 32 150000#32))) (X (Proc.devRef .tc main_v1)))) := by
  simp only [hostOps5]
  after_results <;> rfl

/-- The second layer. -/
theorem ops6_v147 (X : Valuation τ sig (Elt Ideal)) :
    (StableHlo.after (hostOps6 (F := Ideal)) X (Proc.devRef .tc main_v147) : FVec Ideal S150000x64 .f32) = Host.scatterAdd scatter_S150000x64_S1007616x1_S1007616x64_1_0_0_1 (broadcastInDim S150000x64 ![] bcast_S_S150000x64 (constant (F := Ideal) S_ .f32 0x00000000#32)) (broadcastInDim S1007616x1 ![0] bcast_S1007616_S1007616x1_0 (X (Proc.devRef .tc main_v0))) (X (Proc.devRef .tc main_v144)) := by
  simp only [hostOps6]
  after_results <;> rfl

/-- The running sum plus the second layer. -/
theorem ops6_v148 (X : Valuation τ sig (Elt Ideal)) :
    (StableHlo.after (hostOps6 (F := Ideal)) X (Proc.devRef .tc main_v148) : FVec Ideal S150000x64 .f32) = addf (F := Ideal) (s := S150000x64) (φ := .f32) (X (Proc.devRef .tc main_v136)) (StableHlo.after (hostOps6 (F := Ideal)) X (Proc.devRef .tc main_v147)) := by
  simp only [hostOps6]
  after_results <;> rfl

set_option maxHeartbeats 2000000 in
/-- The second layer's rows gathered by the column table. -/
theorem ops6_v155 (X : Valuation τ sig (Elt Ideal)) :
    (StableHlo.after (hostOps6 (F := Ideal)) X (Proc.devRef .tc main_v155) : FVec Ideal S1007616x64 .f32) = Host.gather gather_S150000x64_S1007616x1_S1007616x64_1_0_n_n_0_1_164 (StableHlo.after (hostOps6 (F := Ideal)) X (Proc.devRef .tc main_v147)) (broadcastInDim S1007616x1 ![0] bcast_S1007616_S1007616x1_0 (select (cmpi .slt (X (Proc.devRef .tc main_v1)) (broadcastInDim S1007616 ![] bcast_S_S1007616 (constantI S_ 32 0#32))) (addi (X (Proc.devRef .tc main_v1)) (broadcastInDim S1007616 ![] bcast_S_S1007616 (constantI S_ 32 150000#32))) (X (Proc.devRef .tc main_v1)))) := by
  simp only [hostOps6]
  after_results <;> rfl

/-- The eighth stretch's first ten operations are the second table's; the other 96 write none of their three results. -/
theorem W22_head (b : Ref sig .tc) (hb : ∀ op ∈ List.drop 10 (hostOps7 (F := Ideal)), Proc.devRef .tc b ∉ op.writes) :
    W22 (F := Ideal) m ρ c (Proc.devRef .tc b) = StableHlo.after (List.take 10 (hostOps7 (F := Ideal))) (W21 m ρ c) (Proc.devRef .tc b) := by
  have h := StableHlo.after_of_forall_not_mem (b := Proc.devRef .tc b) (List.drop 10 (hostOps7 (F := Ideal)))
    (StableHlo.after (List.take 10 (hostOps7 (F := Ideal))) (W21 m ρ c)) hb
  rw [← StableHlo.after_append, List.take_append_drop] at h
  exact h

theorem rest7_v162 : ∀ op ∈ List.drop 10 (hostOps7 (F := Ideal)), Proc.devRef (τ := τ) .tc main_v162 ∉ op.writes :=
  List.forall_iff_forall_mem.mp (by
      simp only [hostOps7, List.drop_succ_cons, List.drop_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))

theorem rest7_v163 : ∀ op ∈ List.drop 10 (hostOps7 (F := Ideal)), Proc.devRef (τ := τ) .tc main_v163 ∉ op.writes :=
  List.forall_iff_forall_mem.mp (by
      simp only [hostOps7, List.drop_succ_cons, List.drop_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))

theorem rest7_v164 : ∀ op ∈ List.drop 10 (hostOps7 (F := Ideal)), Proc.devRef (τ := τ) .tc main_v164 ∉ op.writes :=
  List.forall_iff_forall_mem.mp (by
      simp only [hostOps7, List.drop_succ_cons, List.drop_zero, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))

/-- The pooled table: the three partial sums plus the third layer, divided by the word of 4. -/
theorem head7_v162 (X : Valuation τ sig (Elt Ideal)) :
    (StableHlo.after (List.take 10 (hostOps7 (F := Ideal))) X (Proc.devRef .tc main_v162) : FVec Ideal S150000x64 .f32)
      = Host.divf (F := Ideal) (s := S150000x64) (φ := .f32) (addf (F := Ideal) (s := S150000x64) (φ := .f32) (X (Proc.devRef .tc main_v148)) (Host.scatterAdd scatter_S150000x64_S1007616x1_S1007616x64_1_0_0_1 (broadcastInDim S150000x64 ![] bcast_S_S150000x64 (constant (F := Ideal) S_ .f32 0x00000000#32)) (broadcastInDim S1007616x1 ![0] bcast_S1007616_S1007616x1_0 (X (Proc.devRef .tc main_v0))) (X (Proc.devRef .tc main_v156))))
          (broadcastInDim S150000x64 ![] bcast_S_S150000x64 (constant (F := Ideal) S_ .f32 0x40800000#32)) := by
  simp only [hostOps7, List.take_succ_cons, List.take_zero]
  after_results <;> rfl
/-- Its first 100000 rows … -/
theorem head7_v163 (X : Valuation τ sig (Elt Ideal)) :
    StableHlo.after (List.take 10 (hostOps7 (F := Ideal))) X (Proc.devRef .tc main_v163)
      = extractStridedSlice S100000x64 ![0, 0] (StableHlo.after (List.take 10 (hostOps7 (F := Ideal))) X (Proc.devRef .tc main_v162)) slices_S150000x64_S100000x64_0_0 := by
  simp only [hostOps7, List.take_succ_cons, List.take_zero]
  after_results <;> rfl
/-- … and its last 50000. -/
theorem head7_v164 (X : Valuation τ sig (Elt Ideal)) :
    StableHlo.after (List.take 10 (hostOps7 (F := Ideal))) X (Proc.devRef .tc main_v164)
      = extractStridedSlice S50000x64 ![100000, 0] (StableHlo.after (List.take 10 (hostOps7 (F := Ideal))) X (Proc.devRef .tc main_v162)) slices_S150000x64_S50000x64_100000_0 := by
  simp only [hostOps7, List.take_succ_cons, List.take_zero]
  after_results <;> rfl

/-! ## Reading the boundaries -/

/-- The rows gathered for the first layer are rows of the concatenated tables, by the normalised column table. -/
theorem v131_read : W16 (F := Ideal) m ρ c (Proc.devRef .tc main_v131)
    = Host.gather gather_S150000x64_S1007616x1_S1007616x64_1_0_n_n_0_1_164 (W16 (F := Ideal) m ρ c (Proc.devRef .tc main_v123)) (broadcastInDim S1007616x1 ![0] bcast_S1007616_S1007616x1_0 (select (cmpi .slt (W8 (F := Ideal) m ρ c (Proc.devRef .tc main_v1)) (broadcastInDim S1007616 ![] bcast_S_S1007616 (constantI S_ 32 0#32))) (addi (W8 (F := Ideal) m ρ c (Proc.devRef .tc main_v1)) (broadcastInDim S1007616 ![] bcast_S_S1007616 (constantI S_ 32 150000#32))) (W8 (F := Ideal) m ρ c (Proc.devRef .tc main_v1)))) := by
  rw [W16_split m ρ c main_v131, W16_split m ρ c main_v123, tail4_v131, tail4_v123, pre4_v1 m ρ c, v1_at15 m ρ c]

/-- The weights' column at row `e` is row 1 of the masked weights at column `e`. -/
theorem v124_at (e : Fin 1007616) :
    (W16 (F := Ideal) m ρ c (Proc.devRef .tc main_v124) : S1007616x1.Idx → EReal) (ix2 e (0 : Fin 1))
      = maskedVals (W8 (F := Ideal) m ρ c (Proc.devRef .tc main_v4)) (W8 (F := Ideal) m ρ c (Proc.devRef .tc main_v3)) (ix2 (1 : Fin 2) e) := by
  rw [W16_split m ρ c main_v124, tail4_v124_at, pre4_v5 m ρ c, v5_at15 m ρ c, v5_read m ρ c]

variable (RR : Valuation Cert.ReferenceIdeal.τ Cert.ReferenceIdeal.sig (Elt Ideal))

/-- The concatenated embedding tables are the reference's. -/
theorem tables_eq (ha0 : RR (Proc.devRef .tc Cert.ReferenceIdeal.main_arg0) = m ((c : Thread nD τ).loc main_arg0)) (ha1 : RR (Proc.devRef .tc Cert.ReferenceIdeal.main_arg1) = m ((c : Thread nD τ).loc main_arg1)) :
    W16 (F := Ideal) m ρ c (Proc.devRef .tc main_v123) = Cert.ReferenceIdeal.Value.res_main_v134 RR := by
  rw [W16_split m ρ c main_v123, tail4_v123, pre4_arg0 m ρ c, pre4_arg1 m ρ c, arg0_at15 m ρ c, arg1_at15 m ρ c]
  unfold Cert.ReferenceIdeal.Value.res_main_v134
  rw [ha0, ha1]

/-! ## One layer of the second table against one layer of the reference -/

/-- The reference's layer on a table `x`: the rows of `x` gathered by the column numbers, each times its edge's weight,
    summed into segments by the row numbers, from zero. -/
def refLayer (x : FVec Ideal Cert.ReferenceIdeal.S150000x64 .f32) : FVec Ideal Cert.ReferenceIdeal.S150000x64 .f32 :=
  Host.scatterAdd (F := Ideal) Cert.ReferenceIdeal.scatter_S150000x64_S1000000x1_S1000000x64_1_0_0_1 (broadcastInDim Cert.ReferenceIdeal.S150000x64 ![] Cert.ReferenceIdeal.Gen.bcast_S_S150000x64 (constant (F := Ideal) Cert.ReferenceIdeal.S_ .f32 0x00000000#32)) (broadcastInDim Cert.ReferenceIdeal.S1000000x1 ![0] Cert.ReferenceIdeal.Gen.bcast_S1000000_S1000000x1_0 (RR (Proc.devRef .tc Cert.ReferenceIdeal.main_arg4))) (mulf (broadcastInDim Cert.ReferenceIdeal.S1000000x64 ![0, 1] Cert.ReferenceIdeal.Gen.bcast_S1000000x1_S1000000x64_0_1 (broadcastInDim Cert.ReferenceIdeal.S1000000x1 ![0] Cert.ReferenceIdeal.Gen.bcast_S1000000_S1000000x1_0 (Cert.ReferenceIdeal.Value.res_main_v133 RR))) (Host.gather Cert.ReferenceIdeal.gather_S150000x64_S1000000x1_S1000000x64_1_0_n_n_0_1_164 x (broadcastInDim Cert.ReferenceIdeal.S1000000x1 ![0] Cert.ReferenceIdeal.Gen.bcast_S1000000_S1000000x1_0 (select (cmpi .slt (RR (Proc.devRef .tc Cert.ReferenceIdeal.main_arg5)) (broadcastInDim Cert.ReferenceIdeal.S1000000 ![] Cert.ReferenceIdeal.Gen.bcast_S_S1000000 (constantI Cert.ReferenceIdeal.S_ 32 0#32))) (addi (RR (Proc.devRef .tc Cert.ReferenceIdeal.main_arg5)) (broadcastInDim Cert.ReferenceIdeal.S1000000 ![] Cert.ReferenceIdeal.Gen.bcast_S_S1000000 (constantI Cert.ReferenceIdeal.S_ 32 150000#32))) (RR (Proc.devRef .tc Cert.ReferenceIdeal.main_arg5))))))

theorem hrow (ha4 : RR (Proc.devRef .tc Cert.ReferenceIdeal.main_arg4) = m ((c : Thread nD τ).loc main_arg4)) (e : Fin 1007616) (h : e.val < 1000000) :
    (W8 (F := Ideal) m ρ c (Proc.devRef .tc main_v0) : IVec S1007616 32) (ix1 e) = ((RR (Proc.devRef .tc Cert.ReferenceIdeal.main_arg4)) : IVec Cert.ReferenceIdeal.S1000000 32) (ix1 ⟨e.val, h⟩) := by
  rw [ha4]; exact Cert.KernelIdeal.ReadEntry.rows_at m ρ c e h
theorem hcol (ha5 : RR (Proc.devRef .tc Cert.ReferenceIdeal.main_arg5) = m ((c : Thread nD τ).loc main_arg5)) (e : Fin 1007616) (h : e.val < 1000000) :
    (W8 (F := Ideal) m ρ c (Proc.devRef .tc main_v1) : IVec S1007616 32) (ix1 e) = ((RR (Proc.devRef .tc Cert.ReferenceIdeal.main_arg5)) : IVec Cert.ReferenceIdeal.S1000000 32) (ix1 ⟨e.val, h⟩) := by
  rw [ha5]; exact Cert.KernelIdeal.ReadEntry.cols_at m ρ c e h
/-- On the edges the weights' column holds the reference's weights (second row of draws). -/
theorem hval (ha6 : RR (Proc.devRef .tc Cert.ReferenceIdeal.main_arg6) = m ((c : Thread nD τ).loc main_arg6)) (ha7 : RR (Proc.devRef .tc Cert.ReferenceIdeal.main_arg7) = m ((c : Thread nD τ).loc main_arg7)) (e : Fin 1007616) (h : e.val < 1000000) :
    (W16 (F := Ideal) m ρ c (Proc.devRef .tc main_v124) : FVec Ideal S1007616x1 .f32) (ix2 e (0 : Fin 1))
      = (Cert.ReferenceIdeal.Value.res_main_v133 RR : FVec Ideal Cert.ReferenceIdeal.S1000000 .f32) (ix1 ⟨e.val, h⟩) := by
  refine (v124_at m ρ c e).trans ?_
  unfold Cert.ReferenceIdeal.Value.res_main_v133
  exact Cert.ValsBridge.row1 (RR (Proc.devRef .tc Cert.ReferenceIdeal.main_arg6)) (RR (Proc.devRef .tc Cert.ReferenceIdeal.main_arg7)) (W8 (F := Ideal) m ρ c (Proc.devRef .tc main_v4)) (W8 (F := Ideal) m ρ c (Proc.devRef .tc main_v3))
    (fun k e h => by rw [ha7]; exact Cert.KernelIdeal.ReadEntry.draws_at m ρ c k e h)
    (fun e h => by rw [ha6]; exact Cert.KernelIdeal.ReadEntry.vals_at m ρ c e h) e h
/-- On the padded entries it holds 0. -/
theorem hpad (e : Fin 1007616) (h : 1000000 ≤ e.val) :
    @Eq EReal ((W16 (F := Ideal) m ρ c (Proc.devRef .tc main_v124) : FVec Ideal S1007616x1 .f32) (ix2 e (0 : Fin 1))) 0 :=
  (v124_at m ρ c e).trans (Cert.ValsBridge.tail (W8 (F := Ideal) m ρ c (Proc.devRef .tc main_v4)) (W8 (F := Ideal) m ρ c (Proc.devRef .tc main_v3)) (1 : Fin 2) e h)

/-- One layer of the lengthened edge list on a table `x` is the reference's layer on `x`. -/
theorem layer_step (ha4 : RR (Proc.devRef .tc Cert.ReferenceIdeal.main_arg4) = m ((c : Thread nD τ).loc main_arg4)) (ha5 : RR (Proc.devRef .tc Cert.ReferenceIdeal.main_arg5) = m ((c : Thread nD τ).loc main_arg5)) (ha6 : RR (Proc.devRef .tc Cert.ReferenceIdeal.main_arg6) = m ((c : Thread nD τ).loc main_arg6)) (ha7 : RR (Proc.devRef .tc Cert.ReferenceIdeal.main_arg7) = m ((c : Thread nD τ).loc main_arg7)) (x : FVec Ideal S150000x64 .f32) :
    Host.scatterAdd (F := Ideal) scatter_S150000x64_S1007616x1_S1007616x64_1_0_0_1 (broadcastInDim S150000x64 ![] bcast_S_S150000x64 (constant (F := Ideal) S_ .f32 0x00000000#32)) (broadcastInDim S1007616x1 ![0] bcast_S1007616_S1007616x1_0 (W8 (F := Ideal) m ρ c (Proc.devRef .tc main_v0))) (scaled (W16 (F := Ideal) m ρ c (Proc.devRef .tc main_v124)) (Host.gather gather_S150000x64_S1007616x1_S1007616x64_1_0_n_n_0_1_164 x (broadcastInDim S1007616x1 ![0] bcast_S1007616_S1007616x1_0 (select (cmpi .slt (W8 (F := Ideal) m ρ c (Proc.devRef .tc main_v1)) (broadcastInDim S1007616 ![] bcast_S_S1007616 (constantI S_ 32 0#32))) (addi (W8 (F := Ideal) m ρ c (Proc.devRef .tc main_v1)) (broadcastInDim S1007616 ![] bcast_S_S1007616 (constantI S_ 32 150000#32))) (W8 (F := Ideal) m ρ c (Proc.devRef .tc main_v1))))))
      = refLayer RR x :=
  Cert.LayerBridge.layer_eq x (W8 (F := Ideal) m ρ c (Proc.devRef .tc main_v0)) (W8 (F := Ideal) m ρ c (Proc.devRef .tc main_v1)) (W16 (F := Ideal) m ρ c (Proc.devRef .tc main_v124)) (RR (Proc.devRef .tc Cert.ReferenceIdeal.main_arg4)) (RR (Proc.devRef .tc Cert.ReferenceIdeal.main_arg5))
    (Cert.ReferenceIdeal.Value.res_main_v133 RR) (hrow m ρ c RR ha4) (hcol m ρ c RR ha5) (hval m ρ c RR ha6 ha7) (hpad m ρ c)

/-! ## The three layers, the pooled table and its two slices -/

theorem layer1 (ha0 : RR (Proc.devRef .tc Cert.ReferenceIdeal.main_arg0) = m ((c : Thread nD τ).loc main_arg0)) (ha1 : RR (Proc.devRef .tc Cert.ReferenceIdeal.main_arg1) = m ((c : Thread nD τ).loc main_arg1)) (ha4 : RR (Proc.devRef .tc Cert.ReferenceIdeal.main_arg4) = m ((c : Thread nD τ).loc main_arg4)) (ha5 : RR (Proc.devRef .tc Cert.ReferenceIdeal.main_arg5) = m ((c : Thread nD τ).loc main_arg5)) (ha6 : RR (Proc.devRef .tc Cert.ReferenceIdeal.main_arg6) = m ((c : Thread nD τ).loc main_arg6)) (ha7 : RR (Proc.devRef .tc Cert.ReferenceIdeal.main_arg7) = m ((c : Thread nD τ).loc main_arg7)) :
    W18 (F := Ideal) m ρ c (Proc.devRef .tc main_v135) = Cert.ReferenceIdeal.Value.res_main_v147 RR := by
  refine (ops5_v135 (W17 m ρ c)).trans ?_
  rw [v0_at17 m ρ c, v132_read m ρ c, v131_read m ρ c, tables_eq m ρ c RR ha0 ha1]
  exact layer_step m ρ c RR ha4 ha5 ha6 ha7 (Cert.ReferenceIdeal.Value.res_main_v134 RR)

theorem layer2 (ha0 : RR (Proc.devRef .tc Cert.ReferenceIdeal.main_arg0) = m ((c : Thread nD τ).loc main_arg0)) (ha1 : RR (Proc.devRef .tc Cert.ReferenceIdeal.main_arg1) = m ((c : Thread nD τ).loc main_arg1)) (ha4 : RR (Proc.devRef .tc Cert.ReferenceIdeal.main_arg4) = m ((c : Thread nD τ).loc main_arg4)) (ha5 : RR (Proc.devRef .tc Cert.ReferenceIdeal.main_arg5) = m ((c : Thread nD τ).loc main_arg5)) (ha6 : RR (Proc.devRef .tc Cert.ReferenceIdeal.main_arg6) = m ((c : Thread nD τ).loc main_arg6)) (ha7 : RR (Proc.devRef .tc Cert.ReferenceIdeal.main_arg7) = m ((c : Thread nD τ).loc main_arg7)) :
    W20 (F := Ideal) m ρ c (Proc.devRef .tc main_v147) = Cert.ReferenceIdeal.Value.res_main_v161 RR := by
  refine (ops6_v147 (W19 m ρ c)).trans ?_
  rw [v0_at19 m ρ c, v0_at17 m ρ c, v144_read m ρ c, v124_at18 m ρ c, v124_at17 m ρ c,
    show W18 (F := Ideal) m ρ c (Proc.devRef .tc main_v143) = _ from ops5_v143 (W17 m ρ c),
    show StableHlo.after (hostOps5 (F := Ideal)) (W17 m ρ c) (Proc.devRef .tc main_v135) = _ from layer1 m ρ c RR ha0 ha1 ha4 ha5 ha6 ha7,
    v1_at17 m ρ c, v1_at15 m ρ c]
  exact layer_step m ρ c RR ha4 ha5 ha6 ha7 (Cert.ReferenceIdeal.Value.res_main_v147 RR)

theorem pooled (ha0 : RR (Proc.devRef .tc Cert.ReferenceIdeal.main_arg0) = m ((c : Thread nD τ).loc main_arg0)) (ha1 : RR (Proc.devRef .tc Cert.ReferenceIdeal.main_arg1) = m ((c : Thread nD τ).loc main_arg1)) (ha4 : RR (Proc.devRef .tc Cert.ReferenceIdeal.main_arg4) = m ((c : Thread nD τ).loc main_arg4)) (ha5 : RR (Proc.devRef .tc Cert.ReferenceIdeal.main_arg5) = m ((c : Thread nD τ).loc main_arg5)) (ha6 : RR (Proc.devRef .tc Cert.ReferenceIdeal.main_arg6) = m ((c : Thread nD τ).loc main_arg6)) (ha7 : RR (Proc.devRef .tc Cert.ReferenceIdeal.main_arg7) = m ((c : Thread nD τ).loc main_arg7)) :
    W22 (F := Ideal) m ρ c (Proc.devRef .tc main_v162) = Cert.ReferenceIdeal.Value.res_main_v178 RR := by
  rw [W22_head m ρ c main_v162 rest7_v162]
  refine (head7_v162 (W21 m ρ c)).trans ?_
  rw [v148_at21 m ρ c, show W20 (F := Ideal) m ρ c (Proc.devRef .tc main_v148) = _ from ops6_v148 (W19 m ρ c), v136_at19 m ρ c,
    show W18 (F := Ideal) m ρ c (Proc.devRef .tc main_v136) = _ from ops5_v136 (W17 m ρ c), v123_at17 m ρ c,
    v0_at21 m ρ c, v0_at19 m ρ c, v0_at17 m ρ c, v156_read m ρ c, v124_at20 m ρ c, v124_at19 m ρ c, v124_at18 m ρ c, v124_at17 m ρ c,
    show W20 (F := Ideal) m ρ c (Proc.devRef .tc main_v155) = _ from ops6_v155 (W19 m ρ c), v1_at19 m ρ c, v1_at17 m ρ c, v1_at15 m ρ c,
    tables_eq m ρ c RR ha0 ha1,
    show StableHlo.after (hostOps5 (F := Ideal)) (W17 m ρ c) (Proc.devRef .tc main_v135) = _ from layer1 m ρ c RR ha0 ha1 ha4 ha5 ha6 ha7,
    show StableHlo.after (hostOps6 (F := Ideal)) (W19 m ρ c) (Proc.devRef .tc main_v147) = _ from layer2 m ρ c RR ha0 ha1 ha4 ha5 ha6 ha7,
    layer_step m ρ c RR ha4 ha5 ha6 ha7 (Cert.ReferenceIdeal.Value.res_main_v161 RR)]
  rfl

theorem users_out (ha0 : RR (Proc.devRef .tc Cert.ReferenceIdeal.main_arg0) = m ((c : Thread nD τ).loc main_arg0)) (ha1 : RR (Proc.devRef .tc Cert.ReferenceIdeal.main_arg1) = m ((c : Thread nD τ).loc main_arg1)) (ha4 : RR (Proc.devRef .tc Cert.ReferenceIdeal.main_arg4) = m ((c : Thread nD τ).loc main_arg4)) (ha5 : RR (Proc.devRef .tc Cert.ReferenceIdeal.main_arg5) = m ((c : Thread nD τ).loc main_arg5)) (ha6 : RR (Proc.devRef .tc Cert.ReferenceIdeal.main_arg6) = m ((c : Thread nD τ).loc main_arg6)) (ha7 : RR (Proc.devRef .tc Cert.ReferenceIdeal.main_arg7) = m ((c : Thread nD τ).loc main_arg7)) :
    W22 (F := Ideal) m ρ c (Proc.devRef .tc main_v163) = Cert.ReferenceIdeal.Value.res_main_v179 RR := by
  rw [W22_head m ρ c main_v163 rest7_v163, head7_v163, ← W22_head m ρ c main_v162 rest7_v162,
    pooled m ρ c RR ha0 ha1 ha4 ha5 ha6 ha7]
  rfl

theorem items_out (ha0 : RR (Proc.devRef .tc Cert.ReferenceIdeal.main_arg0) = m ((c : Thread nD τ).loc main_arg0)) (ha1 : RR (Proc.devRef .tc Cert.ReferenceIdeal.main_arg1) = m ((c : Thread nD τ).loc main_arg1)) (ha4 : RR (Proc.devRef .tc Cert.ReferenceIdeal.main_arg4) = m ((c : Thread nD τ).loc main_arg4)) (ha5 : RR (Proc.devRef .tc Cert.ReferenceIdeal.main_arg5) = m ((c : Thread nD τ).loc main_arg5)) (ha6 : RR (Proc.devRef .tc Cert.ReferenceIdeal.main_arg6) = m ((c : Thread nD τ).loc main_arg6)) (ha7 : RR (Proc.devRef .tc Cert.ReferenceIdeal.main_arg7) = m ((c : Thread nD τ).loc main_arg7)) :
    W22 (F := Ideal) m ρ c (Proc.devRef .tc main_v164) = Cert.ReferenceIdeal.Value.res_main_v180 RR := by
  rw [W22_head m ρ c main_v164 rest7_v164, head7_v164, ← W22_head m ρ c main_v162 rest7_v162,
    pooled m ρ c RR ha0 ha1 ha4 ha5 ha6 ha7]
  rfl

end Cert.Table1
end
-- ==== Proof.CarriesRows.lean ====
/-
  What the first table's stretch leaves for later: its two partial losses are read by the seventh stretch, its propagated user and item rows by the two sum-of-squares launches after that; nothing in between writes them.
-/
import proofs.«162383_j26603027431988_2_alg».proof.Proof.KernelIdealFrame
import Idealize.ShloMosaic.PureOps.Ideal

set_option maxRecDepth 16384

noncomputable section

namespace Cert.KernelIdeal.CarriesRows

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- no operation of the stretch at hand writes the buffer: it keeps its contents through the stretch -/
macro "stretch_keeps" : tactic => `(tactic|
  (refine (StableHlo.after_of_forall_not_mem _ _ (List.forall_iff_forall_mem.mp (by
      simp only [hostOps0, hostOps0_1, hostOps0_2, hostOps0_3, hostOps0_4, hostOps0_5, hostOps0_6, hostOps0_7, hostOps1, hostOps2, hostOps3,
        hostOps4, hostOps5, hostOps6, hostOps7, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans ?_))

theorem mf_part_at21 : W21 (F := Ideal) m ρ c (Proc.devRef .tc main_v118) = W16 (F := Ideal) m ρ c (Proc.devRef .tc main_v118) := by
  refine (W21_of_ne m ρ c _ (by decide)).trans ?_
  stretch_keeps
  refine (W19_of_ne m ρ c _ (by decide)).trans ?_
  stretch_keeps
  refine (W17_of_ne m ρ c _ (by decide)).trans ?_
  rfl
theorem reg_part_at21 : W21 (F := Ideal) m ρ c (Proc.devRef .tc main_v120) = W16 (F := Ideal) m ρ c (Proc.devRef .tc main_v120) := by
  refine (W21_of_ne m ρ c _ (by decide)).trans ?_
  stretch_keeps
  refine (W19_of_ne m ρ c _ (by decide)).trans ?_
  stretch_keeps
  refine (W17_of_ne m ρ c _ (by decide)).trans ?_
  rfl
theorem users0_at22 : W22 (F := Ideal) m ρ c (Proc.devRef .tc main_v48) = W16 (F := Ideal) m ρ c (Proc.devRef .tc main_v48) := by
  stretch_keeps
  refine (W21_of_ne m ρ c _ (by decide)).trans ?_
  stretch_keeps
  refine (W19_of_ne m ρ c _ (by decide)).trans ?_
  stretch_keeps
  refine (W17_of_ne m ρ c _ (by decide)).trans ?_
  rfl
theorem items0_at22 : W22 (F := Ideal) m ρ c (Proc.devRef .tc main_v49) = W16 (F := Ideal) m ρ c (Proc.devRef .tc main_v49) := by
  stretch_keeps
  refine (W21_of_ne m ρ c _ (by decide)).trans ?_
  stretch_keeps
  refine (W19_of_ne m ρ c _ (by decide)).trans ?_
  stretch_keeps
  refine (W17_of_ne m ρ c _ (by decide)).trans ?_
  rfl

end Cert.KernelIdeal.CarriesRows

end
-- ==== Proof.LossTerms.lean ====
/-
  The two pieces of loss code that both programs apply, unchanged, to each embedding table — named once, as
  functions of what they read, so that neither program's proof ever opens them.

  For a batch of (user, positive item, negative item) triples, with U and I the propagated user and item rows:
    meanLog U I     = (1 / 4096) * sum over the batch of  log (sigmoid (<u, i+> - <u, i->) + 1e-10)
    regTerm ue ie   = (1 / 4096) * (1/2) * (|ue[users]|^2 + |ie[pos]|^2 + |ie[neg]|^2)   on the UNpropagated tables
  (a batch index below zero is counted from the end, as the programs' index arithmetic does). The ranking loss is
  0 - meanLog (table 1) - meanLog (table 2); the regulariser is 0 + w * regTerm (table 1) + w * regTerm (table 2).
  The spellings are the reference program's own operations, with its leaves generalised; its two results are these
  terms of its propagated rows, by unfolding.
-/
import proofs.«162383_j26603027431988_2_alg».proof.Proof.Gen.ReferenceIdeal.Run
import Idealize.ShloMosaic.PureOps.Ideal

set_option maxRecDepth 8192

noncomputable section

namespace Cert.ReferenceIdeal.LossTerms

open Cert.ReferenceIdeal Cert.ReferenceIdeal.Gen Cert.ReferenceIdeal.Value Idealize.ShloMosaic Idealize.ShloMosaic.TcCoe Idealize.SL.Sem Idealize.ShloMosaic.StableHlo

/-- The mean, over the batch, of log (sigmoid (score of the positive item - score of the negative item) + 1e-10). -/
def meanLog (U : FVec Ideal S100000x64 .f32) (I : FVec Ideal S50000x64 .f32) (a8 a9 a10 : IVec S4096 32) : FVec Ideal S_ .f32 :=
  Host.divf (Host.reduceAdd (Host.log (addf (Host.divf (broadcastInDim S4096 ![] bcast_S_S4096 (constant S_ .f32 0x3F800000#32)) (addf (broadcastInDim S4096 ![] bcast_S_S4096 (constant S_ .f32 0x3F800000#32)) (Host.exp (Host.negf (subf (Host.reduceAdd (mulf (Host.gather gather_S100000x64_S4096x1_S4096x64_1_0_n_n_0_1_164 U (broadcastInDim S4096x1 ![0] bcast_S4096_S4096x1_0 (select (cmpi .slt a8 (broadcastInDim S4096 ![] bcast_S_S4096 (constantI S_ 32 0#32))) (addi a8 (broadcastInDim S4096 ![] bcast_S_S4096 (constantI S_ 32 100000#32))) a8))) (Host.gather gather_S50000x64_S4096x1_S4096x64_1_0_n_n_0_1_164 I (broadcastInDim S4096x1 ![0] bcast_S4096_S4096x1_0 (select (cmpi .slt a9 (broadcastInDim S4096 ![] bcast_S_S4096 (constantI S_ 32 0#32))) (addi a9 (broadcastInDim S4096 ![] bcast_S_S4096 (constantI S_ 32 50000#32))) a9)))) (constant S_ .f32 0x00000000#32) reducesTo_S4096x64_S4096_d1 h_S_) (Host.reduceAdd (mulf (Host.gather gather_S100000x64_S4096x1_S4096x64_1_0_n_n_0_1_164 U (broadcastInDim S4096x1 ![0] bcast_S4096_S4096x1_0 (select (cmpi .slt a8 (broadcastInDim S4096 ![] bcast_S_S4096 (constantI S_ 32 0#32))) (addi a8 (broadcastInDim S4096 ![] bcast_S_S4096 (constantI S_ 32 100000#32))) a8))) (Host.gather gather_S50000x64_S4096x1_S4096x64_1_0_n_n_0_1_164 I (broadcastInDim S4096x1 ![0] bcast_S4096_S4096x1_0 (select (cmpi .slt a10 (broadcastInDim S4096 ![] bcast_S_S4096 (constantI S_ 32 0#32))) (addi a10 (broadcastInDim S4096 ![] bcast_S_S4096 (constantI S_ 32 50000#32))) a10)))) (constant S_ .f32 0x00000000#32) reducesTo_S4096x64_S4096_d1 h_S_)))))) (broadcastInDim S4096 ![] bcast_S_S4096 (constant S_ .f32 0x2EDBE6FF#32)))) (constant S_ .f32 0x00000000#32) reducesTo_S4096_S_d0 h_S_) (constant S_ .f32 0x45800000#32)

/-- Half the squared norms of the batch's rows of the unpropagated tables, over the batch size. -/
def regTerm (ue : FVec Ideal S100000x64 .f32) (ie : FVec Ideal S50000x64 .f32) (a8 a9 a10 : IVec S4096 32) : FVec Ideal S_ .f32 :=
  Host.divf (mulf (constant S_ .f32 0x3F000000#32) (addf (addf (Host.reduceAdd (mulf (Host.gather gather_S100000x64_S4096x1_S4096x64_1_0_n_n_0_1_164 ue (broadcastInDim S4096x1 ![0] bcast_S4096_S4096x1_0 (select (cmpi .slt a8 (broadcastInDim S4096 ![] bcast_S_S4096 (constantI S_ 32 0#32))) (addi a8 (broadcastInDim S4096 ![] bcast_S_S4096 (constantI S_ 32 100000#32))) a8))) (Host.gather gather_S100000x64_S4096x1_S4096x64_1_0_n_n_0_1_164 ue (broadcastInDim S4096x1 ![0] bcast_S4096_S4096x1_0 (select (cmpi .slt a8 (broadcastInDim S4096 ![] bcast_S_S4096 (constantI S_ 32 0#32))) (addi a8 (broadcastInDim S4096 ![] bcast_S_S4096 (constantI S_ 32 100000#32))) a8)))) (constant S_ .f32 0x00000000#32) reducesTo_S4096x64_S_d0_1 h_S_) (Host.reduceAdd (mulf (Host.gather gather_S50000x64_S4096x1_S4096x64_1_0_n_n_0_1_164 ie (broadcastInDim S4096x1 ![0] bcast_S4096_S4096x1_0 (select (cmpi .slt a9 (broadcastInDim S4096 ![] bcast_S_S4096 (constantI S_ 32 0#32))) (addi a9 (broadcastInDim S4096 ![] bcast_S_S4096 (constantI S_ 32 50000#32))) a9))) (Host.gather gather_S50000x64_S4096x1_S4096x64_1_0_n_n_0_1_164 ie (broadcastInDim S4096x1 ![0] bcast_S4096_S4096x1_0 (select (cmpi .slt a9 (broadcastInDim S4096 ![] bcast_S_S4096 (constantI S_ 32 0#32))) (addi a9 (broadcastInDim S4096 ![] bcast_S_S4096 (constantI S_ 32 50000#32))) a9)))) (constant S_ .f32 0x00000000#32) reducesTo_S4096x64_S_d0_1 h_S_)) (Host.reduceAdd (mulf (Host.gather gather_S50000x64_S4096x1_S4096x64_1_0_n_n_0_1_164 ie (broadcastInDim S4096x1 ![0] bcast_S4096_S4096x1_0 (select (cmpi .slt a10 (broadcastInDim S4096 ![] bcast_S_S4096 (constantI S_ 32 0#32))) (addi a10 (broadcastInDim S4096 ![] bcast_S_S4096 (constantI S_ 32 50000#32))) a10))) (Host.gather gather_S50000x64_S4096x1_S4096x64_1_0_n_n_0_1_164 ie (broadcastInDim S4096x1 ![0] bcast_S4096_S4096x1_0 (select (cmpi .slt a10 (broadcastInDim S4096 ![] bcast_S_S4096 (constantI S_ 32 0#32))) (addi a10 (broadcastInDim S4096 ![] bcast_S_S4096 (constantI S_ 32 50000#32))) a10)))) (constant S_ .f32 0x00000000#32) reducesTo_S4096x64_S_d0_1 h_S_))) (constant S_ .f32 0x45800000#32)

variable (RR : Valuation τ sig (Elt Ideal))

/-- The reference's ranking loss: zero, minus the first table's mean, minus the second's. -/
theorem mf_result : val6 RR (Proc.devRef .tc main_v249)
    = subf (subf (constant (F := Ideal) S_ .f32 0x00000000#32)
        (meanLog (res_main_v53 RR) (res_main_v54 RR) (RR (Proc.devRef .tc main_arg8)) (RR (Proc.devRef .tc main_arg9)) (RR (Proc.devRef .tc main_arg10))))
      (meanLog (res_main_v179 RR) (res_main_v180 RR) (RR (Proc.devRef .tc main_arg8)) (RR (Proc.devRef .tc main_arg9)) (RR (Proc.devRef .tc main_arg10))) := by
  rw [val6_main_v249]
  rfl

/-- The reference's regulariser: zero, plus the weighted first table's term, plus the weighted second's. -/
theorem reg_result : val6 RR (Proc.devRef .tc main_v251)
    = addf (addf (constant (F := Ideal) S_ .f32 0x00000000#32) (mulf (constant (F := Ideal) S_ .f32 0x38D1B717#32)
        (regTerm (RR (Proc.devRef .tc main_arg2)) (RR (Proc.devRef .tc main_arg3)) (RR (Proc.devRef .tc main_arg8)) (RR (Proc.devRef .tc main_arg9)) (RR (Proc.devRef .tc main_arg10)))))
      (mulf (constant (F := Ideal) S_ .f32 0x38D1B717#32)
        (regTerm (RR (Proc.devRef .tc main_arg0)) (RR (Proc.devRef .tc main_arg1)) (RR (Proc.devRef .tc main_arg8)) (RR (Proc.devRef .tc main_arg9)) (RR (Proc.devRef .tc main_arg10)))) := by
  rw [val6_main_v251]
  rfl

end Cert.ReferenceIdeal.LossTerms

end
-- ==== Proof.KernelTails.lean ====
/-
  The kernel program's loss code, read off its two long stretches of host operations.

  The fourth stretch (after the third launch of the first table) ends the first table: it pools the four stages,
  cuts the user and item rows out, and runs the loss code on them; the seventh does the same for the second table
  and combines the two. Whatever the buffers hold when such a stretch starts, its loss buffers are the shared
  functions meanLog / regTerm of the stretch's own user and item rows and of the index arguments: one evaluation
  of the stretch, on both sides of each equation, and the two spellings meet.
-/
import proofs.«162383_j26603027431988_2_alg».proof.Proof.KernelIdealFrame
import proofs.«162383_j26603027431988_2_alg».proof.Proof.LossTerms
import Idealize.ShloMosaic.Lib.StableHlo.Run

set_option maxRecDepth 16384

noncomputable section

namespace Cert.KernelIdeal.Tails

open Cert.KernelIdeal Cert.KernelIdeal.Gen
open Idealize.ShloMosaic Idealize.ShloMosaic.TcCoe Idealize.SL.Sem Idealize.ShloMosaic.StableHlo
open Cert.ReferenceIdeal.LossTerms (meanLog regTerm)

variable (W : Valuation τ sig (Elt Ideal))

set_option maxHeartbeats 4000000 in
/-- The first table's ranking term: zero minus the mean over the batch, of the stretch's own user and item rows. -/
theorem mf_first : StableHlo.after (hostOps4 (F := Ideal)) W (Proc.devRef .tc main_v118)
    = subf (constant (F := Ideal) S_ .f32 0x00000000#32)
        (meanLog (StableHlo.after (hostOps4 (F := Ideal)) W (Proc.devRef .tc main_v48)) (StableHlo.after (hostOps4 (F := Ideal)) W (Proc.devRef .tc main_v49))
          (W (Proc.devRef .tc main_arg8)) (W (Proc.devRef .tc main_arg9)) (W (Proc.devRef .tc main_arg10))) := by
  simp only [hostOps4]
  after_results_simp
  rfl

set_option maxHeartbeats 4000000 in
/-- The first table's regulariser: zero plus the weighted term of the unpropagated first tables. -/
theorem reg_first : StableHlo.after (hostOps4 (F := Ideal)) W (Proc.devRef .tc main_v120)
    = addf (constant (F := Ideal) S_ .f32 0x00000000#32) (mulf (constant (F := Ideal) S_ .f32 0x38D1B717#32)
        (regTerm (W (Proc.devRef .tc main_arg2)) (W (Proc.devRef .tc main_arg3))
          (W (Proc.devRef .tc main_arg8)) (W (Proc.devRef .tc main_arg9)) (W (Proc.devRef .tc main_arg10)))) := by
  simp only [hostOps4]
  after_results_simp
  rfl

set_option maxHeartbeats 4000000 in
/-- The ranking loss: what the first table left, minus the second table's mean, of the stretch's own rows. -/
theorem mf_last : StableHlo.after (hostOps7 (F := Ideal)) W (Proc.devRef .tc main_v233)
    = subf (W (Proc.devRef .tc main_v118))
        (meanLog (StableHlo.after (hostOps7 (F := Ideal)) W (Proc.devRef .tc main_v163)) (StableHlo.after (hostOps7 (F := Ideal)) W (Proc.devRef .tc main_v164))
          (W (Proc.devRef .tc main_arg8)) (W (Proc.devRef .tc main_arg9)) (W (Proc.devRef .tc main_arg10))) := by
  simp only [hostOps7]
  after_results_simp
  rfl

set_option maxHeartbeats 4000000 in
/-- The regulariser: what the first table left, plus the weighted term of the unpropagated second tables. -/
theorem reg_last : StableHlo.after (hostOps7 (F := Ideal)) W (Proc.devRef .tc main_v235)
    = addf (W (Proc.devRef .tc main_v120)) (mulf (constant (F := Ideal) S_ .f32 0x38D1B717#32)
        (regTerm (W (Proc.devRef .tc main_arg0)) (W (Proc.devRef .tc main_arg1))
          (W (Proc.devRef .tc main_arg8)) (W (Proc.devRef .tc main_arg9)) (W (Proc.devRef .tc main_arg10)))) := by
  simp only [hostOps7]
  after_results_simp
  rfl

end Cert.KernelIdeal.Tails

end
-- ==== Proof.Carries.lean ====
/-
  The arguments the fourth stretch reads are, when it starts, what was launched: no stretch before it writes an argument, and no launch has an argument among its output arrays' buffers to change. Each statement is that chain of steps, boundary by boundary.
-/
import proofs.«162383_j26603027431988_2_alg».proof.Proof.KernelIdealFrame
import Idealize.ShloMosaic.PureOps.Ideal

set_option maxRecDepth 16384

noncomputable section

namespace Cert.KernelIdeal.Carries

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- no operation of the stretch at hand writes the buffer: it keeps its contents through the stretch -/
macro "stretch_keeps" : tactic => `(tactic|
  (refine (StableHlo.after_of_forall_not_mem _ _ (List.forall_iff_forall_mem.mp (by
      simp only [hostOps0, hostOps0_1, hostOps0_2, hostOps0_3, hostOps0_4, hostOps0_5, hostOps0_6, hostOps0_7, hostOps1, hostOps2, hostOps3,
        hostOps4, hostOps5, hostOps6, hostOps7, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans ?_))

theorem arg8_at15 : W15 (F := Ideal) m ρ c (Proc.devRef .tc main_arg8) = m ((c : Thread nD τ).loc main_arg8) := by
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

theorem arg9_at15 : W15 (F := Ideal) m ρ c (Proc.devRef .tc main_arg9) = m ((c : Thread nD τ).loc main_arg9) := by
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

theorem arg10_at15 : W15 (F := Ideal) m ρ c (Proc.devRef .tc main_arg10) = m ((c : Thread nD τ).loc main_arg10) := by
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

theorem arg2_at15 : W15 (F := Ideal) m ρ c (Proc.devRef .tc main_arg2) = m ((c : Thread nD τ).loc main_arg2) := by
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

theorem arg3_at15 : W15 (F := Ideal) m ρ c (Proc.devRef .tc main_arg3) = m ((c : Thread nD τ).loc main_arg3) := by
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

end Cert.KernelIdeal.Carries

end
-- ==== Proof.Carries21.lean ====
/-
  The arguments the seventh stretch reads are, when it starts, what was launched: the same chain of steps, three launches and three stretches further on.
-/
import proofs.«162383_j26603027431988_2_alg».proof.Proof.KernelIdealFrame
import Idealize.ShloMosaic.PureOps.Ideal
import proofs.«162383_j26603027431988_2_alg».proof.Proof.Carries
set_option maxRecDepth 16384

noncomputable section

namespace Cert.KernelIdeal.Carries21

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- no operation of the stretch at hand writes the buffer: it keeps its contents through the stretch -/
macro "stretch_keeps" : tactic => `(tactic|
  (refine (StableHlo.after_of_forall_not_mem _ _ (List.forall_iff_forall_mem.mp (by
      simp only [hostOps0, hostOps0_1, hostOps0_2, hostOps0_3, hostOps0_4, hostOps0_5, hostOps0_6, hostOps0_7, hostOps1, hostOps2, hostOps3,
        hostOps4, hostOps5, hostOps6, hostOps7, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans ?_))

theorem arg8_at21 : W21 (F := Ideal) m ρ c (Proc.devRef .tc main_arg8) = m ((c : Thread nD τ).loc main_arg8) := by
  refine (W21_of_ne m ρ c _ (by decide)).trans ?_
  stretch_keeps
  refine (W19_of_ne m ρ c _ (by decide)).trans ?_
  stretch_keeps
  refine (W17_of_ne m ρ c _ (by decide)).trans ?_
  stretch_keeps
  exact Cert.KernelIdeal.Carries.arg8_at15 m ρ c

theorem arg9_at21 : W21 (F := Ideal) m ρ c (Proc.devRef .tc main_arg9) = m ((c : Thread nD τ).loc main_arg9) := by
  refine (W21_of_ne m ρ c _ (by decide)).trans ?_
  stretch_keeps
  refine (W19_of_ne m ρ c _ (by decide)).trans ?_
  stretch_keeps
  refine (W17_of_ne m ρ c _ (by decide)).trans ?_
  stretch_keeps
  exact Cert.KernelIdeal.Carries.arg9_at15 m ρ c

theorem arg10_at21 : W21 (F := Ideal) m ρ c (Proc.devRef .tc main_arg10) = m ((c : Thread nD τ).loc main_arg10) := by
  refine (W21_of_ne m ρ c _ (by decide)).trans ?_
  stretch_keeps
  refine (W19_of_ne m ρ c _ (by decide)).trans ?_
  stretch_keeps
  refine (W17_of_ne m ρ c _ (by decide)).trans ?_
  stretch_keeps
  exact Cert.KernelIdeal.Carries.arg10_at15 m ρ c
theorem arg0_at21 : W21 (F := Ideal) m ρ c (Proc.devRef .tc main_arg0) = m ((c : Thread nD τ).loc main_arg0) := by
  refine (W21_of_ne m ρ c _ (by decide)).trans ?_
  stretch_keeps
  refine (W19_of_ne m ρ c _ (by decide)).trans ?_
  stretch_keeps
  refine (W17_of_ne m ρ c _ (by decide)).trans ?_
  stretch_keeps
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

theorem arg1_at21 : W21 (F := Ideal) m ρ c (Proc.devRef .tc main_arg1) = m ((c : Thread nD τ).loc main_arg1) := by
  refine (W21_of_ne m ρ c _ (by decide)).trans ?_
  stretch_keeps
  refine (W19_of_ne m ρ c _ (by decide)).trans ?_
  stretch_keeps
  refine (W17_of_ne m ρ c _ (by decide)).trans ?_
  stretch_keeps
  refine (W15_of_ne m ρ c _ (by decide)).trans ?_
  stretch_keeps
  refine (W13_of_ne m ρ c _ (by decide)).trans ?_
  stretch_keeps
  refine (W11_of_ne m ρ c _ (by decide)).trans ?_
  stretch_keeps
  refine (W9_of_ne m ρ c _ (by decide)).trans ?_
  stretch_keeps
  stretch_keeps
  stretch_keeps
  stretch_keeps
  stretch_keeps
  stretch_keeps
  stretch_keeps
  stretch_keeps
  rfl

end Cert.KernelIdeal.Carries21

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.LibRowBlocks.lean ====
/-
  GENERAL LEMMAS: a sum over the first k rows of R, taken one block of rows at a time.

  * below R k: the rows r < k.
  * sum_below_zero: over no rows the sum is zero.
  * sum_below_add: the rows below k + B are the rows below k together with the B rows k, k + 1, …, k + B − 1, so the sum
    over them is the sum below k plus the block's sum.
  * sum_below_all: when k reaches R the rows below k are all the rows.
  Any additive commutative monoid; nothing here mentions a program.
-/
import Mathlib.Algebra.BigOperators.Group.Finset.Basic
import Mathlib.Algebra.BigOperators.Fin
import Mathlib.Tactic.Ring
import Mathlib.Tactic.Linarith

namespace Cert.LibRowBlocks

open scoped BigOperators

variable {M : Type*} [AddCommMonoid M] {R : ℕ}

/-- The rows below k. -/
def below (R k : ℕ) : Finset (Fin R) := Finset.univ.filter fun r => r.val < k

theorem mem_below {k : ℕ} {r : Fin R} : r ∈ below R k ↔ r.val < k := by
  simp [below]

theorem sum_below_zero (f : Fin R → M) : ∑ r ∈ below R 0, f r = 0 := by
  have h : below R 0 = ∅ := by
    ext r; simp [below]
  rw [h, Finset.sum_empty]

theorem sum_below_all {k : ℕ} (hk : R ≤ k) (f : Fin R → M) : ∑ r ∈ below R k, f r = ∑ r, f r := by
  have h : below R k = Finset.univ := by
    ext r; simp only [mem_below, Finset.mem_univ, iff_true]; exact lt_of_lt_of_le r.isLt hk
  rw [h]

/-- One more block of B rows. -/
theorem sum_below_add (k B : ℕ) (hk : k + B ≤ R) (f : Fin R → M) :
    ∑ r ∈ below R (k + B), f r
      = ∑ r ∈ below R k, f r + ∑ p : Fin B, f ⟨k + p.val, lt_of_lt_of_le (Nat.add_lt_add_left p.isLt k) hk⟩ := by
  rw [← Finset.sum_filter_add_sum_filter_not (below R (k + B)) (fun r => r.val < k) f]
  congr 1
  · refine Finset.sum_congr ?_ fun _ _ => rfl
    ext r
    simp only [Finset.mem_filter, mem_below]
    omega
  · symm
    refine Finset.sum_bij (fun p _ => (⟨k + p.val, lt_of_lt_of_le (Nat.add_lt_add_left p.isLt k) hk⟩ : Fin R)) ?_ ?_ ?_ ?_
    · intro p _
      simp only [Finset.mem_filter, mem_below]
      have := p.isLt
      omega
    · intro p _ p' _ h
      have h' := congrArg Fin.val h
      simp only at h'
      exact Fin.ext (by omega)
    · intro r hr
      simp only [Finset.mem_filter, mem_below] at hr
      refine ⟨⟨r.val - k, by omega⟩, Finset.mem_univ _, Fin.ext ?_⟩
      show k + (r.val - k) = r.val
      omega
    · intro p _
      rfl

end Cert.LibRowBlocks
-- ==== Proof.LibRunningSums.lean ====
/-
  GENERAL LEMMAS: a running total over the rows of a matrix taken B consecutive rows at a time, in any additive
  commutative monoid; nothing here mentions a program.

  If an accumulator holds z plus the sum over the rows below k, adding the B rows k … k + B − 1 makes it z plus the sum
  over the rows below k + B; started from z alone it holds after the first block z plus the sum of the rows below B; and
  once the bound reaches the number of rows it holds z plus the sum over all rows. The block's rows are named by any
  function g with g p = k + p.
-/
import proofs.«162383_j26603027431988_2_alg».proof.Proof.LibRowBlocks

namespace Cert.LibRunningSums

open Cert.LibRowBlocks
open scoped BigOperators

variable {M : Type*} [AddCommMonoid M] {R : ℕ}

/-- One more block of B rows. -/
theorem run_step (k B : ℕ) (hk : k + B ≤ R) (f : Fin R → M) (z : M) (g : Fin B → Fin R)
    (hg : ∀ p, (g p).val = k + p.val) :
    (z + ∑ r ∈ below R k, f r) + ∑ p : Fin B, f (g p) = z + ∑ r ∈ below R (k + B), f r := by
  rw [add_assoc, sum_below_add k B hk f]
  exact congrArg (fun s => z + (∑ r ∈ below R k, f r + s))
    (Finset.sum_congr rfl fun p _ => congrArg f (Fin.ext (hg p)))

/-- The first block, from z alone. -/
theorem run_first (B : ℕ) (hB : 0 + B ≤ R) (f : Fin R → M) (z : M) (g : Fin B → Fin R)
    (hg : ∀ p, (g p).val = 0 + p.val) :
    z + ∑ p : Fin B, f (g p) = z + ∑ r ∈ below R (0 + B), f r := by
  rw [← run_step 0 B hB f z g hg, sum_below_zero, add_zero]

/-- After the last block the total is over all rows. -/
theorem run_all (k : ℕ) (hk : R ≤ k) (f : Fin R → M) (z : M) : z + ∑ r ∈ below R k, f r = z + ∑ r, f r := by
  rw [sum_below_all hk f]

end Cert.LibRunningSums
-- ==== Proof.RegionSums.lean ====
import proofs.«162383_j26603027431988_2_alg».proof.Proof.KernelIdealFrame
import proofs.«162383_j26603027431988_2_alg».proof.Proof.LibTotals
import proofs.«162383_j26603027431988_2_alg».proof.Proof.LibRunningSums
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionSums
open Idealize.ShloMosaic Idealize.ShloMosaic.TcCoe Idealize.SL.Sem Idealize.ShloMosaic.ValueIdx
open Cert.KernelIdeal Cert.KernelIdeal.Gen Cert.KernelIdeal.GenP
variable (V : (c : Dev nD) → (b : Ref sig .tc) → Buf (Elt Ideal) ((c : Thread nD τ).loc b))
open scoped BigOperators
open Cert.LibTotals Cert.LibRowBlocks Cert.LibRunningSums

/-!
  The two sum-of-squared-differences regions, in closed form.

  Both regions run one kernel over a grid of row tiles: a one-entry output block, the same block at every grid point,
  is zeroed at the first point, and every point adds to it the total over its [5000, 64] tile of (a - b) * (a - b),
  summed over the lanes first and then over the rows. Read at the extended reals, each reduction and each cast between
  them keeps the total of all entries, so a point adds exactly the sum of its tile's squared differences; the tile at
  point t is rows 5000 t … 5000 t + 4999 of the arrays; by induction on the point the block holds, after point n, the
  total over the rows below 5000 (n + 1); the block is written back once, after the last point, when those rows are all
  the rows. Hence the output array ends holding `sqDiffTotal a b`, the total over the whole arrays (`final7` for the
  arrays of 100000 rows and 20 points, `final8` for those of 50000 rows and 10 points).
-/

/-- The total of the squared differences of two arrays of R rows and 64 lanes. -/
def sqDiffTotal {R : Nat} (a b : (⟨2, ![R, 64]⟩ : Shape).Idx → EReal) : EReal :=
  ∑ r : Fin R, ∑ k : Fin 64, (a (ix2 r k) - b (ix2 r k)) * (a (ix2 r k) - b (ix2 r k))

/-- One row's share of that total. -/
def rowSq {R : Nat} (a b : (⟨2, ![R, 64]⟩ : Shape).Idx → EReal) (r : Fin R) : EReal :=
  ∑ k : Fin 64, (a (ix2 r k) - b (ix2 r k)) * (a (ix2 r k) - b (ix2 r k))

theorem sqDiffTotal_eq {R : Nat} (a b : (⟨2, ![R, 64]⟩ : Shape).Idx → EReal) : sqDiffTotal a b = ∑ r : Fin R, rowSq a b r := rfl

/-! ## The payloads at the ideal values -/

/-- The two reductions of a tile (lanes first, then rows) and the casts between them leave, at the one index of the
    result, the total of the tile: each step keeps the sum of all entries. -/
theorem tile_total (v : FVec Ideal S5000x64 .f32) (h1 : S5000x64.Reduces [1] S5000) (c1 : S5000.ShapeCasts S5000x1)
    (h2 : S5000x1.Reduces [0] S1) (c2 : S1.ShapeCasts S1x1) (hφ : FKind.Formats .f32)
    (ha : (0x00000000#32 : BitVec 32) = FKind.add.neutral .f32 hφ) (j : S1x1.Idx) :
    shapeCast S1x1 (multiReduction (F := Ideal) .add [0] S1 (shapeCast S5000x1
      (multiReduction (F := Ideal) .add [1] S5000 v 0x00000000#32 h1 hφ ha) c1) 0x00000000#32 h2 hφ ha) c2 j
      = ∑ r : Fin 5000, ∑ k : Fin 64, v (ix2 r k) :=
  (sum_of_unit (s := S1x1) (by decide) _ j).symm.trans <|
    (sum_shapeCast _ c2).trans <| (sum_multiReduction_add _ _ h2 hφ ha).trans <|
    (sum_shapeCast _ c1).trans <| (sum_multiReduction_add v _ h1 hφ ha).trans <| sum_idx2 v

/-! # Region 7: 20 points of 5000 rows, two arrays of 100000 rows -/

/-- Region 7's accumulate payload at the block's one index: what was there plus the tile's total of squared differences. -/
theorem pay7_2_apply (x0 x1 : Vec Ideal S5000x64 .f32) (xo : Vec Ideal S1x1 .f32) (j : S1x1.Idx) :
    k7_pay2 (F := Ideal) x0 x1 xo j
      = xo j + ∑ r : Fin 5000, ∑ k : Fin 64, (x0 (ix2 r k) - x1 (ix2 r k)) * (x0 (ix2 r k) - x1 (ix2 r k)) := by
  unfold k7_pay2
  rw [shapeCast_self, shapeCast_self, shapeCast_self]
  exact congrArg (xo j + ·) (tile_total _ _ _ _ _ _ _ j)

/-- Region 7's zero block is zero. -/
theorem pay7_1_apply (j : S1x1.Idx) : k7_pay1 (F := Ideal) j = 0 := by
  unfold k7_pay1
  exact Ideal.ofBits_zero_f32

theorem hz : (![0, 0] : Fin 2 → Nat) = fun _ => 0 := funext fun a => by fin_cases a <;> rfl

/-- A later point of region 7 leaves, in the one-entry block holding `xo`, the accumulate payload of its two tiles and `xo`. -/
theorem out7_B (c : Dev nD) (i : grid7.Coords) (a1 : Memref sig .tc .vmem S5000x64 .f32) (h1 : a1.IsWhole)
    (a2 : Memref sig .tc .vmem S5000x64 .f32) (h2 : a2.IsWhole) (a3 : Memref sig .tc .vmem S1x1 .f32) (h3 : a3.IsWhole)
    (hc : ¬cond7_0 i) (x0 x1 : Vec Ideal S5000x64 .f32) (xo : Vec Ideal S1x1 .f32) :
    out7_B_2 (F := Ideal) c i a1 h1 a2 h2 a3 h3 hc x0 x1 xo = k7_pay2 x0 x1 xo := by
  unfold out7_B_2
  rw [View.read_writes_eq_canon _ _ _ (cover7_B_2 c i a1 h1 a2 h2 a3 h3 hc x0 x1 xo)]
  unfold kernelRun7_B
  dsimp only
  rw [View.canon_unit_zero hz]
  simp only [View.readAt_eq_ld, h1.read_unread, h2.read_unread, h3.read_unread, View.ld_unit_zero (S := S5000x64) hz,
    View.ld_unit_zero (S := S1x1) hz]

/-- The first point of region 7 stores the zero block, reads it back, and leaves the accumulate payload of its two tiles
    and that zero block. -/
theorem out7_A (c : Dev nD) (i : grid7.Coords) (a1 : Memref sig .tc .vmem S5000x64 .f32) (h1 : a1.IsWhole)
    (a2 : Memref sig .tc .vmem S5000x64 .f32) (h2 : a2.IsWhole) (a3 : Memref sig .tc .vmem S1x1 .f32) (h3 : a3.IsWhole)
    (hc : cond7_0 i) (x0 x1 : Vec Ideal S5000x64 .f32) :
    out7_A_2 (F := Ideal) c i a1 h1 a2 h2 a3 h3 hc x0 x1 = k7_pay2 x0 x1 (k7_pay1 (F := Ideal)) := by
  unfold out7_A_2
  rw [View.read_writes_eq_canon _ _ _ (cover7_A_2 c i a1 h1 a2 h2 a3 h3 hc x0 x1)]
  unfold kernelRun7_A
  dsimp only
  sl_unfold_words
  rw [View.canon_cons_unit_zero (S := S1x1) hz, View.readCov_unit_zero (S := S1x1) _ hz]
  simp only [View.readAt_eq_ld, h1.read_unread, h2.read_unread, View.ld_unit_zero (S := S5000x64) hz]

/-! ## The blocks, the running total, the array -/

/-- Region 7's index maps over the grid: the inputs' block index is (point, 0); the output's block is the whole
    one-entry array at every point. -/
theorem idx7 : ∀ t : Fin cfg7.N, (win7_0.index t (0 : Fin 2) = t.val ∧ win7_0.index t (1 : Fin 2) = 0)
      ∧ (win7_1.index t (0 : Fin 2) = t.val ∧ win7_1.index t (1 : Fin 2) = 0)
      ∧ (win7_2.index t (0 : Fin 2) * win7_2.size 0 = 0 ∧ win7_2.xsize (grid7.coords t) 0 = 1)
      ∧ (win7_2.index t (1 : Fin 2) * win7_2.size 1 = 0 ∧ win7_2.xsize (grid7.coords t) 1 = 1) :=
  (by decide +kernel : ∀ t : Fin grid7.N, (win7_0.index t (0 : Fin 2) = t.val ∧ win7_0.index t (1 : Fin 2) = 0)
      ∧ (win7_1.index t (0 : Fin 2) = t.val ∧ win7_1.index t (1 : Fin 2) = 0)
      ∧ (win7_2.index t (0 : Fin 2) * win7_2.size 0 = 0 ∧ win7_2.xsize (grid7.coords t) 0 = 1)
      ∧ (win7_2.index t (1 : Fin 2) * win7_2.size 1 = 0 ∧ win7_2.xsize (grid7.coords t) 1 = 1))

/-- Row p of the tile at point t is row 5000 t + p of the array. -/
def row7 (t : Fin cfg7.N) (p : Fin 5000) : Fin 100000 :=
  ⟨5000 * t.val + p.val, by
    have ht : t.val < 20 := lt_of_lt_of_eq t.isLt (show cfg7.N = 20 from N_7)
    have := p.isLt; omega⟩

theorem blk7_0 (c : Dev nD) (t : Fin cfg7.N) (p : Fin 5000) (k : Fin 64) :
    (iblk7 V c 0 t : Vec Ideal S5000x64 .f32) (ix2 p k) = V c main_v48 (ix2 (row7 t p) k) := by
  unfold iblk7
  rw [View.read_apply]
  show V c main_v48 _ = V c main_v48 _
  refine congrArg (V c main_v48) (funext fun a => Fin.ext ?_)
  match a with
  | ⟨0, _⟩ => show win7_0.index t 0 * 5000 + 1 * p.val = 5000 * t.val + p.val; rw [(idx7 t).1.1]; omega
  | ⟨1, _⟩ => show win7_0.index t 1 * 64 + 1 * k.val = k.val; rw [(idx7 t).1.2]; omega

theorem blk7_1 (c : Dev nD) (t : Fin cfg7.N) (p : Fin 5000) (k : Fin 64) :
    (iblk7 V c 1 t : Vec Ideal S5000x64 .f32) (ix2 p k) = V c main_v163 (ix2 (row7 t p) k) := by
  unfold iblk7
  rw [View.read_apply]
  show V c main_v163 _ = V c main_v163 _
  refine congrArg (V c main_v163) (funext fun a => Fin.ext ?_)
  match a with
  | ⟨0, _⟩ => show win7_1.index t 0 * 5000 + 1 * p.val = 5000 * t.val + p.val; rw [(idx7 t).2.1.1]; omega
  | ⟨1, _⟩ => show win7_1.index t 1 * 64 + 1 * k.val = k.val; rw [(idx7 t).2.1.2]; omega

/-- The accumulate payload at point t, over what the block held: that plus the shares of the point's 5000 rows. -/
theorem step7 (c : Dev nD) (t : Fin cfg7.N) (xo : Vec Ideal S1x1 .f32) (j : S1x1.Idx) :
    k7_pay2 (F := Ideal) (iblk7 V c 0 t) (iblk7 V c 1 t) xo j
      = xo j + ∑ p : Fin 5000, rowSq (R := 100000) (V c main_v48) (V c main_v163) (row7 t p) := by
  rw [pay7_2_apply]
  refine congrArg (xo j + ·) (Finset.sum_congr rfl fun p _ => Finset.sum_congr rfl fun k _ => ?_)
  rw [blk7_0 V c t p k, blk7_1 V c t p k]

/-- After point n the block holds the total over the rows below 5000 (n + 1). -/
theorem outsAt7_eq (c : Dev nD) : ∀ (n : ℕ) (h : n < cfg7.N), outsAt7 (F := Ideal) V c n h
      = fun _ => (0 : EReal) + ∑ r ∈ below 100000 (5000 * n + 5000), rowSq (R := 100000) (V c main_v48) (V c main_v163) r
  | 0, h => by
    rw [outsAt7_A V c ⟨0, h⟩ rfl,
      out7_A c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩)
        ((hcond7_0 ⟨0, h⟩).mpr rfl) (iblk7 V c 0 ⟨0, h⟩) (iblk7 V c 1 ⟨0, h⟩)]
    funext j
    rw [step7 V c ⟨0, h⟩ _ j, pay7_1_apply]
    exact run_first 5000 (by norm_num) (rowSq (R := 100000) (V c main_v48) (V c main_v163)) 0 (row7 ⟨0, h⟩)
      (fun p => by show 5000 * 0 + p.val = 0 + p.val; omega)
  | n + 1, h => by
    have hN : cfg7.N = 20 := N_7
    have hB : ¬(⟨n + 1, h⟩ : Fin cfg7.N).val % 20 = 0 := by dsimp only; omega
    rw [outsAt7_B V c ⟨n + 1, h⟩ hB,
      out7_B c (grid7.coords ⟨n + 1, h⟩) (ms7_0 ⟨n + 1, h⟩) (hs7_0 ⟨n + 1, h⟩) (ms7_1 ⟨n + 1, h⟩) (hs7_1 ⟨n + 1, h⟩)
        (ms7_2 ⟨n + 1, h⟩) (hs7_2 ⟨n + 1, h⟩) (fun hc => hB ((hcond7_0 ⟨n + 1, h⟩).mp hc))
        (iblk7 V c 0 ⟨n + 1, h⟩) (iblk7 V c 1 ⟨n + 1, h⟩)]
    funext j
    rw [step7 V c ⟨n + 1, h⟩ _ j]
    show outsAt7 V c n _ j + _ = _
    rw [outsAt7_eq c n]
    have e : 5000 * (n + 1) + 5000 = (5000 * n + 5000) + 5000 := by omega
    rw [e]
    exact run_step (5000 * n + 5000) 5000 (by omega) (rowSq (R := 100000) (V c main_v48) (V c main_v163)) 0
      (row7 ⟨n + 1, h⟩) (fun p => by show 5000 * (n + 1) + p.val = 5000 * n + 5000 + p.val; omega)

/-- The one write-back, at the last point, writes the whole total. -/
theorem flushed7 (c : Dev nD) (t : Fin cfg7.N) (hf : (cfg7.win 2).flush t = true) :
    (dat7 (F := Ideal) V c).flushed 2 t
      = ((cfg7.win 2).blk t).view.read (Elt Ideal) (fun _ => sqDiffTotal (R := 100000) (V c main_v48) (V c main_v163)) := by
  have hN : cfg7.N = 20 := N_7
  have hl : t.val = 19 := by have := (flush7_2 t).mp hf; have := t.isLt; omega
  have hT : (0 : EReal) + ∑ r ∈ below 100000 (5000 * 19 + 5000), rowSq (R := 100000) (V c main_v48) (V c main_v163) r
      = sqDiffTotal (R := 100000) (V c main_v48) (V c main_v163) := (run_all _ (by norm_num) _ 0).trans (zero_add _)
  show (cfg7.win 2).cut (grid7.coords t) ((dat7 V c).after 2 t) = _
  rw [after7_2, outsAt7_eq V c t.val t.isLt, hl, hT]
  generalize sqDiffTotal (R := 100000) (V c main_v48) (V c main_v163) = T
  funext y
  rw [View.read_apply]
  exact (cast_eq _ T).symm

/-- The grid's last point. -/
def last7 : Fin cfg7.N := ⟨19, by rw [show cfg7.N = 20 from N_7]; decide⟩

/-- When region 7 is over its one-entry output holds the total of the squared differences of its two input arrays. -/
theorem final7 (c : Dev nD) : (dat7 (F := Ideal) V c).arrAt 2 cfg7.N
    = fun _ => sqDiffTotal (R := 100000) (V c main_v48) (V c main_v163) :=
  (dat7 V c).arrAt_eq_of_cover 2 (fun _ => sqDiffTotal (R := 100000) (V c main_v48) (V c main_v163)) (flushed7 V c) fun i =>
    ⟨last7, (flush7_2 last7).mpr rfl, by
      show i ∈ ((View.whole main_v236).slice (win7_2.rect last7)).set
      rw [View.set_slice_whole, Rect.mem_set_unit]
      intro a
      have h0 : (i 0 : Nat) < 1 := (i 0).isLt
      have h1 : (i 1 : Nat) < 1 := (i 1).isLt
      match a with
      | ⟨0, _⟩ =>
        show win7_2.index last7 0 * win7_2.size 0 ≤ (i 0 : Nat)
          ∧ (i 0 : Nat) < win7_2.index last7 0 * win7_2.size 0 + win7_2.xsize (grid7.coords last7) 0
        rw [(idx7 last7).2.2.1.1, (idx7 last7).2.2.1.2]; omega
      | ⟨1, _⟩ =>
        show win7_2.index last7 1 * win7_2.size 1 ≤ (i 1 : Nat)
          ∧ (i 1 : Nat) < win7_2.index last7 1 * win7_2.size 1 + win7_2.xsize (grid7.coords last7) 1
        rw [(idx7 last7).2.2.2.1, (idx7 last7).2.2.2.2]; omega⟩

/-! # Region 8: 10 points of 5000 rows, two arrays of 50000 rows — the same kernel, the same steps -/

/-- Region 8's accumulate payload at the block's one index: what was there plus the tile's total of squared differences. -/
theorem pay8_2_apply (x0 x1 : Vec Ideal S5000x64 .f32) (xo : Vec Ideal S1x1 .f32) (j : S1x1.Idx) :
    k8_pay2 (F := Ideal) x0 x1 xo j
      = xo j + ∑ r : Fin 5000, ∑ k : Fin 64, (x0 (ix2 r k) - x1 (ix2 r k)) * (x0 (ix2 r k) - x1 (ix2 r k)) := by
  unfold k8_pay2
  rw [shapeCast_self, shapeCast_self, shapeCast_self]
  exact congrArg (xo j + ·) (tile_total _ _ _ _ _ _ _ j)

/-- Region 8's zero block is zero. -/
theorem pay8_1_apply (j : S1x1.Idx) : k8_pay1 (F := Ideal) j = 0 := by
  unfold k8_pay1
  exact Ideal.ofBits_zero_f32

/-- A later point of region 8 leaves, in the one-entry block holding `xo`, the accumulate payload of its two tiles and `xo`. -/
theorem out8_B (c : Dev nD) (i : grid8.Coords) (a1 : Memref sig .tc .vmem S5000x64 .f32) (h1 : a1.IsWhole)
    (a2 : Memref sig .tc .vmem S5000x64 .f32) (h2 : a2.IsWhole) (a3 : Memref sig .tc .vmem S1x1 .f32) (h3 : a3.IsWhole)
    (hc : ¬cond8_0 i) (x0 x1 : Vec Ideal S5000x64 .f32) (xo : Vec Ideal S1x1 .f32) :
    out8_B_2 (F := Ideal) c i a1 h1 a2 h2 a3 h3 hc x0 x1 xo = k8_pay2 x0 x1 xo := by
  unfold out8_B_2
  rw [View.read_writes_eq_canon _ _ _ (cover8_B_2 c i a1 h1 a2 h2 a3 h3 hc x0 x1 xo)]
  unfold kernelRun8_B
  dsimp only
  rw [View.canon_unit_zero hz]
  simp only [View.readAt_eq_ld, h1.read_unread, h2.read_unread, h3.read_unread, View.ld_unit_zero (S := S5000x64) hz,
    View.ld_unit_zero (S := S1x1) hz]

/-- The first point of region 8 stores the zero block, reads it back, and leaves the accumulate payload of its two tiles
    and that zero block. -/
theorem out8_A (c : Dev nD) (i : grid8.Coords) (a1 : Memref sig .tc .vmem S5000x64 .f32) (h1 : a1.IsWhole)
    (a2 : Memref sig .tc .vmem S5000x64 .f32) (h2 : a2.IsWhole) (a3 : Memref sig .tc .vmem S1x1 .f32) (h3 : a3.IsWhole)
    (hc : cond8_0 i) (x0 x1 : Vec Ideal S5000x64 .f32) :
    out8_A_2 (F := Ideal) c i a1 h1 a2 h2 a3 h3 hc x0 x1 = k8_pay2 x0 x1 (k8_pay1 (F := Ideal)) := by
  unfold out8_A_2
  rw [View.read_writes_eq_canon _ _ _ (cover8_A_2 c i a1 h1 a2 h2 a3 h3 hc x0 x1)]
  unfold kernelRun8_A
  dsimp only
  sl_unfold_words
  rw [View.canon_cons_unit_zero (S := S1x1) hz, View.readCov_unit_zero (S := S1x1) _ hz]
  simp only [View.readAt_eq_ld, h1.read_unread, h2.read_unread, View.ld_unit_zero (S := S5000x64) hz]

/-! ## The blocks, the running total, the array -/

/-- Region 8's index maps over the grid: the inputs' block index is (point, 0); the output's block is the whole
    one-entry array at every point. -/
theorem idx8 : ∀ t : Fin cfg8.N, (win8_0.index t (0 : Fin 2) = t.val ∧ win8_0.index t (1 : Fin 2) = 0)
      ∧ (win8_1.index t (0 : Fin 2) = t.val ∧ win8_1.index t (1 : Fin 2) = 0)
      ∧ (win8_2.index t (0 : Fin 2) * win8_2.size 0 = 0 ∧ win8_2.xsize (grid8.coords t) 0 = 1)
      ∧ (win8_2.index t (1 : Fin 2) * win8_2.size 1 = 0 ∧ win8_2.xsize (grid8.coords t) 1 = 1) :=
  (by decide +kernel : ∀ t : Fin grid8.N, (win8_0.index t (0 : Fin 2) = t.val ∧ win8_0.index t (1 : Fin 2) = 0)
      ∧ (win8_1.index t (0 : Fin 2) = t.val ∧ win8_1.index t (1 : Fin 2) = 0)
      ∧ (win8_2.index t (0 : Fin 2) * win8_2.size 0 = 0 ∧ win8_2.xsize (grid8.coords t) 0 = 1)
      ∧ (win8_2.index t (1 : Fin 2) * win8_2.size 1 = 0 ∧ win8_2.xsize (grid8.coords t) 1 = 1))

/-- Row p of the tile at point t is row 5000 t + p of the array. -/
def row8 (t : Fin cfg8.N) (p : Fin 5000) : Fin 50000 :=
  ⟨5000 * t.val + p.val, by
    have ht : t.val < 10 := lt_of_lt_of_eq t.isLt (show cfg8.N = 10 from N_8)
    have := p.isLt; omega⟩

theorem blk8_0 (c : Dev nD) (t : Fin cfg8.N) (p : Fin 5000) (k : Fin 64) :
    (iblk8 V c 0 t : Vec Ideal S5000x64 .f32) (ix2 p k) = V c main_v49 (ix2 (row8 t p) k) := by
  unfold iblk8
  rw [View.read_apply]
  show V c main_v49 _ = V c main_v49 _
  refine congrArg (V c main_v49) (funext fun a => Fin.ext ?_)
  match a with
  | ⟨0, _⟩ => show win8_0.index t 0 * 5000 + 1 * p.val = 5000 * t.val + p.val; rw [(idx8 t).1.1]; omega
  | ⟨1, _⟩ => show win8_0.index t 1 * 64 + 1 * k.val = k.val; rw [(idx8 t).1.2]; omega

theorem blk8_1 (c : Dev nD) (t : Fin cfg8.N) (p : Fin 5000) (k : Fin 64) :
    (iblk8 V c 1 t : Vec Ideal S5000x64 .f32) (ix2 p k) = V c main_v164 (ix2 (row8 t p) k) := by
  unfold iblk8
  rw [View.read_apply]
  show V c main_v164 _ = V c main_v164 _
  refine congrArg (V c main_v164) (funext fun a => Fin.ext ?_)
  match a with
  | ⟨0, _⟩ => show win8_1.index t 0 * 5000 + 1 * p.val = 5000 * t.val + p.val; rw [(idx8 t).2.1.1]; omega
  | ⟨1, _⟩ => show win8_1.index t 1 * 64 + 1 * k.val = k.val; rw [(idx8 t).2.1.2]; omega

/-- The accumulate payload at point t, over what the block held: that plus the shares of the point's 5000 rows. -/
theorem step8 (c : Dev nD) (t : Fin cfg8.N) (xo : Vec Ideal S1x1 .f32) (j : S1x1.Idx) :
    k8_pay2 (F := Ideal) (iblk8 V c 0 t) (iblk8 V c 1 t) xo j
      = xo j + ∑ p : Fin 5000, rowSq (R := 50000) (V c main_v49) (V c main_v164) (row8 t p) := by
  rw [pay8_2_apply]
  refine congrArg (xo j + ·) (Finset.sum_congr rfl fun p _ => Finset.sum_congr rfl fun k _ => ?_)
  rw [blk8_0 V c t p k, blk8_1 V c t p k]

/-- After point n the block holds the total over the rows below 5000 (n + 1). -/
theorem outsAt8_eq (c : Dev nD) : ∀ (n : ℕ) (h : n < cfg8.N), outsAt8 (F := Ideal) V c n h
      = fun _ => (0 : EReal) + ∑ r ∈ below 50000 (5000 * n + 5000), rowSq (R := 50000) (V c main_v49) (V c main_v164) r
  | 0, h => by
    rw [outsAt8_A V c ⟨0, h⟩ rfl,
      out8_A c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩)
        ((hcond8_0 ⟨0, h⟩).mpr rfl) (iblk8 V c 0 ⟨0, h⟩) (iblk8 V c 1 ⟨0, h⟩)]
    funext j
    rw [step8 V c ⟨0, h⟩ _ j, pay8_1_apply]
    exact run_first 5000 (by norm_num) (rowSq (R := 50000) (V c main_v49) (V c main_v164)) 0 (row8 ⟨0, h⟩)
      (fun p => by show 5000 * 0 + p.val = 0 + p.val; omega)
  | n + 1, h => by
    have hN : cfg8.N = 10 := N_8
    have hB : ¬(⟨n + 1, h⟩ : Fin cfg8.N).val % 10 = 0 := by dsimp only; omega
    rw [outsAt8_B V c ⟨n + 1, h⟩ hB,
      out8_B c (grid8.coords ⟨n + 1, h⟩) (ms8_0 ⟨n + 1, h⟩) (hs8_0 ⟨n + 1, h⟩) (ms8_1 ⟨n + 1, h⟩) (hs8_1 ⟨n + 1, h⟩)
        (ms8_2 ⟨n + 1, h⟩) (hs8_2 ⟨n + 1, h⟩) (fun hc => hB ((hcond8_0 ⟨n + 1, h⟩).mp hc))
        (iblk8 V c 0 ⟨n + 1, h⟩) (iblk8 V c 1 ⟨n + 1, h⟩)]
    funext j
    rw [step8 V c ⟨n + 1, h⟩ _ j]
    show outsAt8 V c n _ j + _ = _
    rw [outsAt8_eq c n]
    have e : 5000 * (n + 1) + 5000 = (5000 * n + 5000) + 5000 := by omega
    rw [e]
    exact run_step (5000 * n + 5000) 5000 (by omega) (rowSq (R := 50000) (V c main_v49) (V c main_v164)) 0
      (row8 ⟨n + 1, h⟩) (fun p => by show 5000 * (n + 1) + p.val = 5000 * n + 5000 + p.val; omega)

/-- The one write-back, at the last point, writes the whole total. -/
theorem flushed8 (c : Dev nD) (t : Fin cfg8.N) (hf : (cfg8.win 2).flush t = true) :
    (dat8 (F := Ideal) V c).flushed 2 t
      = ((cfg8.win 2).blk t).view.read (Elt Ideal) (fun _ => sqDiffTotal (R := 50000) (V c main_v49) (V c main_v164)) := by
  have hN : cfg8.N = 10 := N_8
  have hl : t.val = 9 := by have := (flush8_2 t).mp hf; have := t.isLt; omega
  have hT : (0 : EReal) + ∑ r ∈ below 50000 (5000 * 9 + 5000), rowSq (R := 50000) (V c main_v49) (V c main_v164) r
      = sqDiffTotal (R := 50000) (V c main_v49) (V c main_v164) := (run_all _ (by norm_num) _ 0).trans (zero_add _)
  show (cfg8.win 2).cut (grid8.coords t) ((dat8 V c).after 2 t) = _
  rw [after8_2, outsAt8_eq V c t.val t.isLt, hl, hT]
  generalize sqDiffTotal (R := 50000) (V c main_v49) (V c main_v164) = T
  funext y
  rw [View.read_apply]
  exact (cast_eq _ T).symm

/-- The grid's last point. -/
def last8 : Fin cfg8.N := ⟨9, by rw [show cfg8.N = 10 from N_8]; decide⟩

/-- When region 8 is over its one-entry output holds the total of the squared differences of its two input arrays. -/
theorem final8 (c : Dev nD) : (dat8 (F := Ideal) V c).arrAt 2 cfg8.N
    = fun _ => sqDiffTotal (R := 50000) (V c main_v49) (V c main_v164) :=
  (dat8 V c).arrAt_eq_of_cover 2 (fun _ => sqDiffTotal (R := 50000) (V c main_v49) (V c main_v164)) (flushed8 V c) fun i =>
    ⟨last8, (flush8_2 last8).mpr rfl, by
      show i ∈ ((View.whole main_v239).slice (win8_2.rect last8)).set
      rw [View.set_slice_whole, Rect.mem_set_unit]
      intro a
      have h0 : (i 0 : Nat) < 1 := (i 0).isLt
      have h1 : (i 1 : Nat) < 1 := (i 1).isLt
      match a with
      | ⟨0, _⟩ =>
        show win8_2.index last8 0 * win8_2.size 0 ≤ (i 0 : Nat)
          ∧ (i 0 : Nat) < win8_2.index last8 0 * win8_2.size 0 + win8_2.xsize (grid8.coords last8) 0
        rw [(idx8 last8).2.2.1.1, (idx8 last8).2.2.1.2]; omega
      | ⟨1, _⟩ =>
        show win8_2.index last8 1 * win8_2.size 1 ≤ (i 1 : Nat)
          ∧ (i 1 : Nat) < win8_2.index last8 1 * win8_2.size 1 + win8_2.xsize (grid8.coords last8) 1
        rw [(idx8 last8).2.2.2.1, (idx8 last8).2.2.2.2]; omega⟩

end Cert.KernelIdeal.RegionSums
end
-- ==== Proof.InvResult.lean ====
import proofs.«162383_j26603027431988_2_alg».proof.Proof.KernelIdealFrame
import proofs.«162383_j26603027431988_2_alg».proof.Proof.RegionSums
import proofs.«162383_j26603027431988_2_alg».proof.Proof.Gen.ReferenceIdeal.Run
import proofs.«162383_j26603027431988_2_alg».proof.Proof.LibTotals
import Idealize.ShloMosaic.Lib.StableHlo.Run
import Idealize.ShloMosaic.Lib.Pipeline.Value
import Idealize.ShloMosaic.Lib.ValueIdx
import Idealize.ShloMosaic.PureOps.Ideal.Laws

noncomputable section
namespace Cert.InvResult
open Idealize.ShloMosaic Idealize.ShloMosaic.TcCoe Idealize.SL.Sem Idealize.ShloMosaic.ValueIdx
open Cert.KernelIdeal.GenP
open scoped BigOperators

/-!
  The third result (the invariance loss), from the end of the seventh stretch of host operations to the return.

  After the seventh stretch the program runs the two sum-of-squared-differences regions and six host operations: the
  two one-entry totals are cast to scalars, divided by the two counts, added, and multiplied by the weight. Each region
  ends with its output at the total of the squared differences of its two input arrays; no operation in between writes
  those inputs; a one-entry array holding t everywhere, cast to a scalar, holds t. The reference computes the same
  scalar as a host sum over both axes of the squared differences, from the zero word, divided, added and weighted with
  the same words; that host sum is the same double sum (the zero word is 0). So when the four input arrays agree with
  the reference's, the two scalars are equal; the words of the counts and of the weight are never evaluated. The first
  two results are computed in the seventh stretch and nothing after it writes them.
-/

/-- A host sum over both axes of the squared differences, from the zero word, is the double sum: the zero word is 0. -/
theorem total_users (a b : FVec Ideal Cert.ReferenceIdeal.S100000x64 .f32)
    (h : Cert.ReferenceIdeal.S100000x64.ReducesTo [0, 1] Cert.ReferenceIdeal.S_) (hu : 0 < Cert.ReferenceIdeal.S_.numel) :
    Host.reduceAdd (F := Ideal) (mulf (subf a b) (subf a b)) (constant (F := Ideal) Cert.ReferenceIdeal.S_ .f32 0x00000000#32) h hu
      = fun _ => Cert.KernelIdeal.RegionSums.sqDiffTotal (R := 100000) a b := by
  funext j
  refine (Ideal.hostReduceAdd_total h (fun b => b.elim0) _ _ j).trans ?_
  rw [sum_idx2]
  exact (congrArg (· + _) Ideal.ofBits_zero_f32).trans (zero_add _)

theorem total_items (a b : FVec Ideal Cert.ReferenceIdeal.S50000x64 .f32)
    (h : Cert.ReferenceIdeal.S50000x64.ReducesTo [0, 1] Cert.ReferenceIdeal.S_) (hu : 0 < Cert.ReferenceIdeal.S_.numel) :
    Host.reduceAdd (F := Ideal) (mulf (subf a b) (subf a b)) (constant (F := Ideal) Cert.ReferenceIdeal.S_ .f32 0x00000000#32) h hu
      = fun _ => Cert.KernelIdeal.RegionSums.sqDiffTotal (R := 50000) a b := by
  funext j
  refine (Ideal.hostReduceAdd_total h (fun b => b.elim0) _ _ j).trans ?_
  rw [sum_idx2]
  exact (congrArg (· + _) Ideal.ofBits_zero_f32).trans (zero_add _)

/-- When the four arrays the two regions read hold, after the seventh stretch, what the reference's four arrays hold,
    the program's third result is the reference's. -/
theorem inv_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (RR : Valuation Cert.ReferenceIdeal.τ Cert.ReferenceIdeal.sig (Elt Ideal))
    (h48 : W22 (F := Ideal) m ρ c (Proc.devRef .tc Cert.KernelIdeal.main_v48) = Cert.ReferenceIdeal.Value.res_main_v53 RR)
    (h163 : W22 (F := Ideal) m ρ c (Proc.devRef .tc Cert.KernelIdeal.main_v163) = Cert.ReferenceIdeal.Value.res_main_v179 RR)
    (h49 : W22 (F := Ideal) m ρ c (Proc.devRef .tc Cert.KernelIdeal.main_v49) = Cert.ReferenceIdeal.Value.res_main_v54 RR)
    (h164 : W22 (F := Ideal) m ρ c (Proc.devRef .tc Cert.KernelIdeal.main_v164) = Cert.ReferenceIdeal.Value.res_main_v180 RR) :
    W26 (F := Ideal) m ρ c (Proc.devRef .tc Cert.KernelIdeal.main_v243) = Cert.ReferenceIdeal.Value.val6 RR (Proc.devRef .tc Cert.ReferenceIdeal.main_v261) := by
  -- region 8's inputs are still what the seventh stretch left
  have e49 : V24 m ρ c Cert.KernelIdeal.main_v49 = Cert.ReferenceIdeal.Value.res_main_v54 RR :=
    (StableHlo.after_of_forall_not_mem (b := Proc.devRef .tc Cert.KernelIdeal.main_v49) _ _ (List.forall_iff_forall_mem.mp (by
          simp only [Cert.KernelIdeal.Gen.hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W24 m ρ c (Proc.devRef .tc Cert.KernelIdeal.main_v49) = W23 m ρ c (Proc.devRef .tc Cert.KernelIdeal.main_v49)).trans
      ((W23_of_ne m ρ c Cert.KernelIdeal.main_v49 (by decide)).trans h49)
  have e164 : V24 m ρ c Cert.KernelIdeal.main_v164 = Cert.ReferenceIdeal.Value.res_main_v180 RR :=
    (StableHlo.after_of_forall_not_mem (b := Proc.devRef .tc Cert.KernelIdeal.main_v164) _ _ (List.forall_iff_forall_mem.mp (by
          simp only [Cert.KernelIdeal.Gen.hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W24 m ρ c (Proc.devRef .tc Cert.KernelIdeal.main_v164) = W23 m ρ c (Proc.devRef .tc Cert.KernelIdeal.main_v164)).trans
      ((W23_of_ne m ρ c Cert.KernelIdeal.main_v164 (by decide)).trans h164)
  have e8 : W25 m ρ c (Proc.devRef .tc Cert.KernelIdeal.main_v239)
      = fun _ => Cert.KernelIdeal.RegionSums.sqDiffTotal (R := 50000) (Cert.ReferenceIdeal.Value.res_main_v54 RR) (Cert.ReferenceIdeal.Value.res_main_v180 RR) := by
    refine ((W25_arr m ρ c 2).trans (Cert.KernelIdeal.RegionSums.final8 (V24 m ρ) c)).trans ?_
    rw [e49, e164]
  have e7 : W23 m ρ c (Proc.devRef .tc Cert.KernelIdeal.main_v236)
      = fun _ => Cert.KernelIdeal.RegionSums.sqDiffTotal (R := 100000) (Cert.ReferenceIdeal.Value.res_main_v53 RR) (Cert.ReferenceIdeal.Value.res_main_v179 RR) := by
    refine ((W23_arr m ρ c 2).trans (Cert.KernelIdeal.RegionSums.final7 (V22 m ρ) c)).trans ?_
    rw [show V22 m ρ c Cert.KernelIdeal.main_v48 = _ from h48, show V22 m ρ c Cert.KernelIdeal.main_v163 = _ from h163]
  have e238 : W25 m ρ c (Proc.devRef .tc Cert.KernelIdeal.main_v238)
      = Host.divf (fun _ => Cert.KernelIdeal.RegionSums.sqDiffTotal (R := 100000) (Cert.ReferenceIdeal.Value.res_main_v53 RR) (Cert.ReferenceIdeal.Value.res_main_v179 RR))
          (constant (F := Ideal) Cert.KernelIdeal.S_ .f32 0x4AC35000#32) := by
    refine (W25_of_ne m ρ c Cert.KernelIdeal.main_v238 (by decide)).trans ?_
    show StableHlo.after Cert.KernelIdeal.Gen.hostOps8 (W23 m ρ c) (Proc.devRef .tc Cert.KernelIdeal.main_v238) = _
    simp only [Cert.KernelIdeal.Gen.hostOps8]
    after_results
    rw [e7]
    rfl
  show StableHlo.after Cert.KernelIdeal.Gen.hostOps9 (W25 m ρ c) (Proc.devRef .tc Cert.KernelIdeal.main_v243) = _
  simp only [Cert.KernelIdeal.Gen.hostOps9]
  after_results
  rw [e238, e8, Cert.ReferenceIdeal.Value.val6_main_v261]
  unfold Cert.ReferenceIdeal.Value.res_main_v252 Cert.ReferenceIdeal.Value.res_main_v256
  rw [total_users, total_items]
  generalize Cert.KernelIdeal.RegionSums.sqDiffTotal (R := 100000) (Cert.ReferenceIdeal.Value.res_main_v53 RR) (Cert.ReferenceIdeal.Value.res_main_v179 RR) = T7
  generalize Cert.KernelIdeal.RegionSums.sqDiffTotal (R := 50000) (Cert.ReferenceIdeal.Value.res_main_v54 RR) (Cert.ReferenceIdeal.Value.res_main_v180 RR) = T8
  rfl

/-- Nothing after the seventh stretch writes `main_v233`: it ends as that stretch left it. -/
theorem kept_v233 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W26 (F := Ideal) m ρ c (Proc.devRef .tc Cert.KernelIdeal.main_v233) = W22 (F := Ideal) m ρ c (Proc.devRef .tc Cert.KernelIdeal.main_v233) :=
  calc W26 m ρ c (Proc.devRef .tc Cert.KernelIdeal.main_v233)
    _ = W25 m ρ c (Proc.devRef .tc Cert.KernelIdeal.main_v233) := StableHlo.after_of_forall_not_mem (b := Proc.devRef .tc Cert.KernelIdeal.main_v233) _ _ (List.forall_iff_forall_mem.mp (by
          simp only [Cert.KernelIdeal.Gen.hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc Cert.KernelIdeal.main_v233) := W25_of_ne m ρ c Cert.KernelIdeal.main_v233 (by decide)
    _ = W23 m ρ c (Proc.devRef .tc Cert.KernelIdeal.main_v233) := StableHlo.after_of_forall_not_mem (b := Proc.devRef .tc Cert.KernelIdeal.main_v233) _ _ (List.forall_iff_forall_mem.mp (by
          simp only [Cert.KernelIdeal.Gen.hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc Cert.KernelIdeal.main_v233) := W23_of_ne m ρ c Cert.KernelIdeal.main_v233 (by decide)

/-- Nothing after the seventh stretch writes `main_v235`: it ends as that stretch left it. -/
theorem kept_v235 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W26 (F := Ideal) m ρ c (Proc.devRef .tc Cert.KernelIdeal.main_v235) = W22 (F := Ideal) m ρ c (Proc.devRef .tc Cert.KernelIdeal.main_v235) :=
  calc W26 m ρ c (Proc.devRef .tc Cert.KernelIdeal.main_v235)
    _ = W25 m ρ c (Proc.devRef .tc Cert.KernelIdeal.main_v235) := StableHlo.after_of_forall_not_mem (b := Proc.devRef .tc Cert.KernelIdeal.main_v235) _ _ (List.forall_iff_forall_mem.mp (by
          simp only [Cert.KernelIdeal.Gen.hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc Cert.KernelIdeal.main_v235) := W25_of_ne m ρ c Cert.KernelIdeal.main_v235 (by decide)
    _ = W23 m ρ c (Proc.devRef .tc Cert.KernelIdeal.main_v235) := StableHlo.after_of_forall_not_mem (b := Proc.devRef .tc Cert.KernelIdeal.main_v235) _ _ (List.forall_iff_forall_mem.mp (by
          simp only [Cert.KernelIdeal.Gen.hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc Cert.KernelIdeal.main_v235) := W23_of_ne m ρ c Cert.KernelIdeal.main_v235 (by decide)

end Cert.InvResult
end
-- ==== Proof.Results.lean ====
/-
  The ranking loss and the regulariser of the kernel program against the reference's.

  Each is read off the program's last boundaries: the result buffer is written in the seventh stretch and kept to the
  return; that stretch combines what the fourth stretch left for the first table with the second table's term. Both
  stretches' loss buffers are the shared functions meanLog / regTerm of the tables' propagated rows (for the ranking
  loss) or of the unpropagated argument tables (for the regulariser) and of the batch's index arguments; with the
  propagated rows equal to the reference's and the arguments agreeing, the two programs' terms are one term.
-/
import proofs.«162383_j26603027431988_2_alg».proof.Proof.KernelIdealFrame
import proofs.«162383_j26603027431988_2_alg».proof.Proof.KernelTails
import proofs.«162383_j26603027431988_2_alg».proof.Proof.Carries
import proofs.«162383_j26603027431988_2_alg».proof.Proof.Carries21
import proofs.«162383_j26603027431988_2_alg».proof.Proof.CarriesRows
import proofs.«162383_j26603027431988_2_alg».proof.Proof.InvResult
import proofs.«162383_j26603027431988_2_alg».proof.Proof.LossTerms

noncomputable section

namespace Cert.Results

open Cert.KernelIdeal Cert.KernelIdeal.Gen Cert.KernelIdeal.GenP
open Idealize.ShloMosaic Idealize.ShloMosaic.TcCoe Idealize.SL.Sem Idealize.ShloMosaic.StableHlo
open Cert.ReferenceIdeal.LossTerms (meanLog regTerm)
open Cert.ReferenceIdeal.Value (res_main_v53 res_main_v54 res_main_v179 res_main_v180 val6)

variable (m : (ℓ : Loc nD τ sig) → Buf (Elt Ideal) ℓ) (ρ : Dev nD → PrngReg) (c : Dev nD)
variable (RR : Valuation Cert.ReferenceIdeal.τ Cert.ReferenceIdeal.sig (Elt Ideal))

/-- The ranking loss. -/
theorem mf_value
    (hU0 : W16 (F := Ideal) m ρ c (Proc.devRef .tc main_v48) = res_main_v53 RR)
    (hI0 : W16 (F := Ideal) m ρ c (Proc.devRef .tc main_v49) = res_main_v54 RR)
    (hU1 : W22 (F := Ideal) m ρ c (Proc.devRef .tc main_v163) = res_main_v179 RR)
    (hI1 : W22 (F := Ideal) m ρ c (Proc.devRef .tc main_v164) = res_main_v180 RR)
    (ha8 : RR (Proc.devRef .tc Cert.ReferenceIdeal.main_arg8) = m ((c : Thread nD τ).loc main_arg8))
    (ha9 : RR (Proc.devRef .tc Cert.ReferenceIdeal.main_arg9) = m ((c : Thread nD τ).loc main_arg9))
    (ha10 : RR (Proc.devRef .tc Cert.ReferenceIdeal.main_arg10) = m ((c : Thread nD τ).loc main_arg10)) :
    W26 (F := Ideal) m ρ c (Proc.devRef .tc main_v233) = val6 RR (Proc.devRef .tc Cert.ReferenceIdeal.main_v249) := by
  have e1 : W22 (F := Ideal) m ρ c (Proc.devRef .tc main_v233)
      = subf (W21 (F := Ideal) m ρ c (Proc.devRef .tc main_v118))
          (meanLog (W22 (F := Ideal) m ρ c (Proc.devRef .tc main_v163)) (W22 (F := Ideal) m ρ c (Proc.devRef .tc main_v164))
            (W21 (F := Ideal) m ρ c (Proc.devRef .tc main_arg8)) (W21 (F := Ideal) m ρ c (Proc.devRef .tc main_arg9)) (W21 (F := Ideal) m ρ c (Proc.devRef .tc main_arg10))) :=
    Cert.KernelIdeal.Tails.mf_last (W21 (F := Ideal) m ρ c)
  have e0 : W16 (F := Ideal) m ρ c (Proc.devRef .tc main_v118)
      = subf (constant (F := Ideal) S_ .f32 0x00000000#32)
          (meanLog (W16 (F := Ideal) m ρ c (Proc.devRef .tc main_v48)) (W16 (F := Ideal) m ρ c (Proc.devRef .tc main_v49))
            (W15 (F := Ideal) m ρ c (Proc.devRef .tc main_arg8)) (W15 (F := Ideal) m ρ c (Proc.devRef .tc main_arg9)) (W15 (F := Ideal) m ρ c (Proc.devRef .tc main_arg10))) :=
    Cert.KernelIdeal.Tails.mf_first (W15 (F := Ideal) m ρ c)
  rw [Cert.InvResult.kept_v233, e1, Cert.KernelIdeal.CarriesRows.mf_part_at21, e0, hU0, hI0, hU1, hI1,
    Cert.KernelIdeal.Carries.arg8_at15, Cert.KernelIdeal.Carries.arg9_at15, Cert.KernelIdeal.Carries.arg10_at15,
    Cert.KernelIdeal.Carries21.arg8_at21, Cert.KernelIdeal.Carries21.arg9_at21, Cert.KernelIdeal.Carries21.arg10_at21,
    Cert.ReferenceIdeal.LossTerms.mf_result, ha8, ha9, ha10]

/-- The regulariser. -/
theorem reg_value
    (ha0 : RR (Proc.devRef .tc Cert.ReferenceIdeal.main_arg0) = m ((c : Thread nD τ).loc main_arg0))
    (ha1 : RR (Proc.devRef .tc Cert.ReferenceIdeal.main_arg1) = m ((c : Thread nD τ).loc main_arg1))
    (ha2 : RR (Proc.devRef .tc Cert.ReferenceIdeal.main_arg2) = m ((c : Thread nD τ).loc main_arg2))
    (ha3 : RR (Proc.devRef .tc Cert.ReferenceIdeal.main_arg3) = m ((c : Thread nD τ).loc main_arg3))
    (ha8 : RR (Proc.devRef .tc Cert.ReferenceIdeal.main_arg8) = m ((c : Thread nD τ).loc main_arg8))
    (ha9 : RR (Proc.devRef .tc Cert.ReferenceIdeal.main_arg9) = m ((c : Thread nD τ).loc main_arg9))
    (ha10 : RR (Proc.devRef .tc Cert.ReferenceIdeal.main_arg10) = m ((c : Thread nD τ).loc main_arg10)) :
    W26 (F := Ideal) m ρ c (Proc.devRef .tc main_v235) = val6 RR (Proc.devRef .tc Cert.ReferenceIdeal.main_v251) := by
  have e1 : W22 (F := Ideal) m ρ c (Proc.devRef .tc main_v235)
      = addf (W21 (F := Ideal) m ρ c (Proc.devRef .tc main_v120)) (mulf (constant (F := Ideal) S_ .f32 0x38D1B717#32)
          (regTerm (W21 (F := Ideal) m ρ c (Proc.devRef .tc main_arg0)) (W21 (F := Ideal) m ρ c (Proc.devRef .tc main_arg1))
            (W21 (F := Ideal) m ρ c (Proc.devRef .tc main_arg8)) (W21 (F := Ideal) m ρ c (Proc.devRef .tc main_arg9)) (W21 (F := Ideal) m ρ c (Proc.devRef .tc main_arg10)))) :=
    Cert.KernelIdeal.Tails.reg_last (W21 (F := Ideal) m ρ c)
  have e0 : W16 (F := Ideal) m ρ c (Proc.devRef .tc main_v120)
      = addf (constant (F := Ideal) S_ .f32 0x00000000#32) (mulf (constant (F := Ideal) S_ .f32 0x38D1B717#32)
          (regTerm (W15 (F := Ideal) m ρ c (Proc.devRef .tc main_arg2)) (W15 (F := Ideal) m ρ c (Proc.devRef .tc main_arg3))
            (W15 (F := Ideal) m ρ c (Proc.devRef .tc main_arg8)) (W15 (F := Ideal) m ρ c (Proc.devRef .tc main_arg9)) (W15 (F := Ideal) m ρ c (Proc.devRef .tc main_arg10)))) :=
    Cert.KernelIdeal.Tails.reg_first (W15 (F := Ideal) m ρ c)
  rw [Cert.InvResult.kept_v235, e1, Cert.KernelIdeal.CarriesRows.reg_part_at21, e0,
    Cert.KernelIdeal.Carries.arg2_at15, Cert.KernelIdeal.Carries.arg3_at15,
    Cert.KernelIdeal.Carries.arg8_at15, Cert.KernelIdeal.Carries.arg9_at15, Cert.KernelIdeal.Carries.arg10_at15,
    Cert.KernelIdeal.Carries21.arg0_at21, Cert.KernelIdeal.Carries21.arg1_at21,
    Cert.KernelIdeal.Carries21.arg8_at21, Cert.KernelIdeal.Carries21.arg9_at21, Cert.KernelIdeal.Carries21.arg10_at21,
    Cert.ReferenceIdeal.LossTerms.reg_result, ha0, ha1, ha2, ha3, ha8, ha9, ha10]

end Cert.Results

end
-- ==== Proof.Algebraic.lean ====
/-
  The two idealized programs end with equal results.

  The kernel program's run names its three results as the last boundary's contents of their buffers; the reference's
  run names its three as its operations' composed terms of its arguments. From memories agreeing on the eleven
  arguments: the propagated user and item rows of both tables are equal arrays in the two programs (layer by layer —
  the lengthened edge list's added entries carry weight 0 and change no sum); the ranking loss and the regulariser are
  the same shared loss code applied to equal rows and equal arguments; the third result totals the squared
  differences of equal rows, tile by tile in the one program and at once in the other.
-/
import proofs.«162383_j26603027431988_2_alg».proof.Defs
import proofs.«162383_j26603027431988_2_alg».proof.Proof.Gen.KernelIdeal
import proofs.«162383_j26603027431988_2_alg».proof.Proof.Gen.ReferenceIdeal
import proofs.«162383_j26603027431988_2_alg».proof.Proof.Gen.Pre_finite_inputs
import proofs.«162383_j26603027431988_2_alg».proof.Proof.Gen.ReferenceIdeal.Run
import proofs.«162383_j26603027431988_2_alg».proof.Proof.KernelRun
import proofs.«162383_j26603027431988_2_alg».proof.Proof.Table0
import proofs.«162383_j26603027431988_2_alg».proof.Proof.Table1
import proofs.«162383_j26603027431988_2_alg».proof.Proof.CarriesRows
import proofs.«162383_j26603027431988_2_alg».proof.Proof.Results
import proofs.«162383_j26603027431988_2_alg».proof.Proof.InvResult
import Idealize.ShloMosaic.PureOps.Ideal

noncomputable section

namespace Cert.Proof.Alg

open Idealize.ShloMosaic Idealize.SL.Sem Idealize.ShloMosaic.StableHlo

/-- The reference's launch contents on a core. -/
abbrev RR (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := launchContents m' c

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Value.val6 (RR m' c) (Proc.devRef .tc Cert.ReferenceIdeal.main_v249),
    fun c => Cert.ReferenceIdeal.Value.val6 (RR m' c) (Proc.devRef .tc Cert.ReferenceIdeal.main_v251),
    fun c => Cert.ReferenceIdeal.Value.val6 (RR m' c) (Proc.devRef .tc Cert.ReferenceIdeal.main_v261), ?_, ?_⟩
  · refine (θ_run Cert.KernelIdeal.defs _ _).mono (fun r h c => ?_) (Cert.KernelIdeal.RunValues.run_values (F := Ideal) m ρ)
    obtain ⟨h1, h2, h3, hrest⟩ := h c
    obtain ⟨a0, a1, a2, a3, a4, a5, a6, a7, a8, a9, a10⟩ := hagree c
    have hU0 := Cert.Table0.users_out m ρ c (RR m' c) a2 a3 a4 a5 a6 a7
    have hI0 := Cert.Table0.items_out m ρ c (RR m' c) a2 a3 a4 a5 a6 a7
    have hU1 := Cert.Table1.users_out m ρ c (RR m' c) a0 a1 a4 a5 a6 a7
    have hI1 := Cert.Table1.items_out m ρ c (RR m' c) a0 a1 a4 a5 a6 a7
    exact ⟨h1.trans (Cert.Results.mf_value m ρ c (RR m' c) hU0 hI0 hU1 hI1 a8 a9 a10),
      h2.trans (Cert.Results.reg_value m ρ c (RR m' c) a0 a1 a2 a3 a8 a9 a10),
      h3.trans (Cert.InvResult.inv_value m ρ c (RR m' c) ((Cert.KernelIdeal.CarriesRows.users0_at22 m ρ c).trans hU0) hU1
        ((Cert.KernelIdeal.CarriesRows.items0_at22 m ρ c).trans hI0) hI1), hrest⟩
  · refine (θ_run Cert.ReferenceIdeal.defs _ _).mono (fun r h c => ?_) (Cert.ReferenceIdeal.Value.run (F := Ideal) m' ρ')
    obtain ⟨h1, h2, h3, hrest⟩ := h c
    exact ⟨h1.trans (Cert.ReferenceIdeal.Value.val6_main_v249 (RR m' c)).symm, h2.trans (Cert.ReferenceIdeal.Value.val6_main_v251 (RR m' c)).symm,
      h3.trans (Cert.ReferenceIdeal.Value.val6_main_v261 (RR m' c)).symm, hrest⟩

end Cert.Proof.Alg

end
-- ==== Proof.lean ====
/-
  The certificate of the graph-propagation losses kernel against its reference.

  Both programs compute, for two embedding tables, three rounds of  y(r) = sum over the edges e with row e = r of
  w(e) * x(col e)  with dropout-masked weights  w(e) = (val e * floor (u e + c)) / c,  average the four stages, and
  from the averaged rows a ranking loss, a regulariser and the mean squared difference of the two tables' results.
  The kernel program lengthens the edge list to a multiple of its tile by 7616 entries whose weight it sets to 0,
  multiplies rows by weights inside a kernel (with the factors the other way round), and totals the squared
  differences tile by tile. On the extended reals none of this changes a value: x * 0 = 0 for every x, products
  commute, and a finite sum may be taken in any grouping.

  The frames: each kernel program's is the launch-by-launch frame proof of its nine launches (in the first launch the
  stored value depends on the grid position, which the body's description there takes as a parameter); the reference
  has no launch and its frame is its run with the results dropped. The idealization rewrote nothing.
-/
import proofs.«162383_j26603027431988_2_alg».proof.Defs
import proofs.«162383_j26603027431988_2_alg».proof.Proof.Gen.Kernel
import proofs.«162383_j26603027431988_2_alg».proof.Proof.Gen.Kernel.Skeleton
import proofs.«162383_j26603027431988_2_alg».proof.Proof.Gen.Kernel.Launch
import proofs.«162383_j26603027431988_2_alg».proof.Proof.Gen.Kernel.Points
import proofs.«162383_j26603027431988_2_alg».proof.Proof.KernelFrame
import proofs.«162383_j26603027431988_2_alg».proof.Proof.Gen.KernelIdeal
import proofs.«162383_j26603027431988_2_alg».proof.Proof.Gen.KernelIdeal.Skeleton
import proofs.«162383_j26603027431988_2_alg».proof.Proof.Gen.KernelIdeal.Launch
import proofs.«162383_j26603027431988_2_alg».proof.Proof.Gen.KernelIdeal.Points
import proofs.«162383_j26603027431988_2_alg».proof.Proof.KernelIdealFrame
import proofs.«162383_j26603027431988_2_alg».proof.Proof.Gen.ReferenceIdeal
import proofs.«162383_j26603027431988_2_alg».proof.Proof.Gen.ReferenceIdeal.Run
import proofs.«162383_j26603027431988_2_alg».proof.Proof.Gen.Pre_finite_inputs
import proofs.«162383_j26603027431988_2_alg».proof.Proof.Algebraic
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel (hKernel := Cert.Kernel.Gen.facts) (hPre_finite_inputs := Cert.Pre_finite_inputs.Gen.facts) :=
  fun m ρ _ => Cert.Kernel.GenP.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference is host operations only: its run, with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Alg.algebraic⟩

end Cert.Proof

end
